-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x5 : Shape := ⟨2, ![600000, 5]⟩
abbrev S60000x16 : Shape := ⟨2, ![60000, 16]⟩
abbrev S60001 : Shape := ⟨1, ![60001]⟩
abbrev S60000 : Shape := ⟨1, ![60000]⟩
abbrev S1529505 : Shape := ⟨1, ![1529505]⟩
abbrev S36x64 : Shape := ⟨2, ![36, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S600000x5 : S_.BroadcastsInDim S600000x5 (![] : Fin 0 → Fin S600000x5.rank)
  reducesTo_S600000x5_S_d0_1 : S600000x5.ReducesTo [0, 1] S_
  h_S_ : 0 < S_.numel
  bcast_S_S60000x16 : S_.BroadcastsInDim S60000x16 (![] : Fin 0 → Fin S60000x16.rank)
  reducesTo_S60000x16_S_d0_1 : S60000x16.ReducesTo [0, 1] S_
  bcast_S_S36x64 : S_.BroadcastsInDim S36x64 (![] : Fin 0 → Fin S36x64.rank)
  reducesTo_S36x64_S_d0_1 : S36x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S64x32 .f32) (main_arg12 : FVec F S32 .f32) (main_arg13 : FVec F S32x1 .f32) (main_arg14 : FVec F S1 .f32) (main_v33 : IVec S_ 1) : IVec S_ 1 :=
  let main_v34 : FVec F S64x32 .f32 := Host.absf main_arg11
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg12
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg13
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S36x64 1) : IVec S_ 1 :=
  let main_c_5 : IVec S_ 1 := constantI S_ 1 1#1
  let main_v17 : IVec S_ 1 := (fun x v => Host.reduce IntOp.andi x v reducesTo_S36x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S600000x5 .f32) (main_arg1 : FVec F S60000x16 .f32) (main_arg2 : FVec F S60000x16 .f32) (main_arg3 : IVec S60001 32) (main_arg4 : IVec S60000 32) (main_arg5 : IVec S60000 32) (main_arg6 : IVec S1529505 32) (main_arg7 : FVec F S36x64 .f32) (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S600000x5 .f32 := Host.absf main_arg0
  let main_cst : FVec F S_ .f32 := constant S_ .f32 0x7F800000#32
  let main_v1 : FVec F S600000x5 .f32 := broadcastInDim S600000x5 ![] bcast_S_S600000x5 main_cst
  let main_v2 : IVec S600000x5 1 := cmpf .olt main_v0 main_v1
  let main_c : IVec S_ 1 := constantI S_ 1 1#1
  let main_v3 : IVec S_ 1 := (fun x v => Host.reduce IntOp.andi x v reducesTo_S600000x5_S_d0_1 h_S_) main_v2 main_c
  let main_v4 : FVec F S60000x16 .f32 := Host.absf main_arg1
  let main_cst_0 : FVec F S_ .f32 := constant S_ .f32 0x7F800000#32
  let main_v5 : FVec F S60000x16 .f32 := broadcastInDim S60000x16 ![] bcast_S_S60000x16 main_cst_0
  let main_v6 : IVec S60000x16 1 := cmpf .olt main_v4 main_v5
  let main_c_1 : IVec S_ 1 := constantI S_ 1 1#1
  let main_v7 : IVec S_ 1 := (fun x v => Host.reduce IntOp.andi x v reducesTo_S60000x16_S_d0_1 h_S_) main_v6 main_c_1
  let main_v8 : IVec S_ 1 := andi main_v3 main_v7
  let main_v9 : FVec F S60000x16 .f32 := Host.absf main_arg2
  let main_cst_2 : FVec F S_ .f32 := constant S_ .f32 0x7F800000#32
  let main_v10 : FVec F S60000x16 .f32 := broadcastInDim S60000x16 ![] bcast_S_S60000x16 main_cst_2
  let main_v11 : IVec S60000x16 1 := cmpf .olt main_v9 main_v10
  let main_c_3 : IVec S_ 1 := constantI S_ 1 1#1
  let main_v12 : IVec S_ 1 := (fun x v => Host.reduce IntOp.andi x v reducesTo_S60000x16_S_d0_1 h_S_) main_v11 main_c_3
  let main_v13 : IVec S_ 1 := andi main_v8 main_v12
  let main_v14 : FVec F S36x64 .f32 := Host.absf main_arg7
  let main_cst_4 : FVec F S_ .f32 := constant S_ .f32 0x7F800000#32
  let main_v15 : FVec F S36x64 .f32 := broadcastInDim S36x64 ![] bcast_S_S36x64 main_cst_4
  let main_v16 : IVec S36x64 1 := cmpf .olt main_v14 main_v15
  fn_part1 (F := F) main_arg8 main_arg9 main_arg10 main_arg11 main_arg12 main_arg13 main_arg14 main_v13 main_v16
-- ==== Kernel.lean ====
abbrev S600000x5 : Shape := ⟨2, ![600000, 5]⟩
abbrev S60000x16 : Shape := ⟨2, ![60000, 16]⟩
abbrev S60001 : Shape := ⟨1, ![60001]⟩
abbrev S60000 : Shape := ⟨1, ![60000]⟩
abbrev S1529505 : Shape := ⟨1, ![1529505]⟩
abbrev S36x64 : Shape := ⟨2, ![36, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S60000x1 : Shape := ⟨2, ![60000, 1]⟩
abbrev S60000x2 : Shape := ⟨2, ![60000, 2]⟩
abbrev S60000x3 : Shape := ⟨2, ![60000, 3]⟩
abbrev S60000x19 : Shape := ⟨2, ![60000, 19]⟩
abbrev S59999 : Shape := ⟨1, ![59999]⟩
abbrev S1529505x1 : Shape := ⟨2, ![1529505, 1]⟩
abbrev S1x1 : Shape := ⟨2, ![1, 1]⟩
abbrev S1529505x19 : Shape := ⟨2, ![1529505, 19]⟩
abbrev S1529505x16 : Shape := ⟨2, ![1529505, 16]⟩
abbrev S1529505x36 : Shape := ⟨2, ![1529505, 36]⟩
abbrev S1530000x36 : Shape := ⟨2, ![1530000, 36]⟩
abbrev S1x64 : Shape := ⟨2, ![1, 64]⟩
abbrev S1x32 : Shape := ⟨2, ![1, 32]⟩
abbrev S1530000x1 : Shape := ⟨2, ![1530000, 1]⟩
abbrev S18000x36 : Shape := ⟨2, ![18000, 36]⟩
abbrev S18000x1 : Shape := ⟨2, ![18000, 1]⟩
abbrev S18000x64 : Shape := ⟨2, ![18000, 64]⟩
abbrev S18000x32 : Shape := ⟨2, ![18000, 32]⟩

abbrev nBuf : Space → Nat
  | .hbm => 142
  | .vmem => 12
  | .smem => 0
  | _ => 0

abbrev hbmTy0_0 (i : Nat) : BufTy := match i % 128 with
  | 0 => ⟨S600000x5, .f32⟩
  | 1 => ⟨S60000x16, .f32⟩
  | 2 => ⟨S60000x16, .f32⟩
  | 3 => ⟨S60001, .i32⟩
  | 4 => ⟨S60000, .i32⟩
  | 5 => ⟨S60000, .i32⟩
  | 6 => ⟨S1529505, .i32⟩
  | 7 => ⟨S36x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S60000, .i32⟩
  | 16 => ⟨S_, .i32⟩
  | 17 => ⟨S60000, .i32⟩
  | 18 => ⟨S60000, .i1⟩
  | 19 => ⟨S_, .i32⟩
  | 20 => ⟨S60000, .i32⟩
  | 21 => ⟨S60000, .i32⟩
  | 22 => ⟨S60000, .i32⟩
  | 23 => ⟨S60000x1, .i32⟩
  | 24 => ⟨S_, .i32⟩
  | 25 => ⟨S60000x1, .i32⟩
  | 26 => ⟨S60000x2, .i32⟩
  | 27 => ⟨S60000x3, .f32⟩
  | 28 => ⟨S_, .i32⟩
  | 29 => ⟨S60000, .i32⟩
  | 30 => ⟨S60000, .i1⟩
  | 31 => ⟨S_, .i32⟩
  | 32 => ⟨S60000, .i32⟩
  | 33 => ⟨S60000, .i32⟩
  | 34 => ⟨S60000, .i32⟩
  | 35 => ⟨S60000x1, .i32⟩
  | 36 => ⟨S60000x3, .f32⟩
  | 37 => ⟨S_, .i32⟩
  | 38 => ⟨S60000, .i32⟩
  | 39 => ⟨S60000, .i1⟩
  | 40 => ⟨S_, .i32⟩
  | 41 => ⟨S60000, .i32⟩
  | 42 => ⟨S60000, .i32⟩
  | 43 => ⟨S60000, .i32⟩
  | 44 => ⟨S60000x1, .i32⟩
  | 45 => ⟨S60000x16, .f32⟩
  | 46 => ⟨S60000x19, .f32⟩
  | 47 => ⟨S_, .i32⟩
  | 48 => ⟨S60000, .i32⟩
  | 49 => ⟨S60000, .i1⟩
  | 50 => ⟨S_, .i32⟩
  | 51 => ⟨S60000, .i32⟩
  | 52 => ⟨S60000, .i32⟩
  | 53 => ⟨S60000, .i32⟩
  | 54 => ⟨S60000x1, .i32⟩
  | 55 => ⟨S60000, .i32⟩
  | 56 => ⟨S60000, .i32⟩
  | 57 => ⟨S1, .i32⟩
  | 58 => ⟨S59999, .i32⟩
  | 59 => ⟨S60000, .i32⟩
  | 60 => ⟨S_, .i32⟩
  | 61 => ⟨S1, .i32⟩
  | 62 => ⟨S_, .i32⟩
  | 63 => ⟨S60000, .i32⟩
  | 64 => ⟨S_, .i32⟩
  | 65 => ⟨S_, .i32⟩
  | 66 => ⟨S60000, .i32⟩
  | 67 => ⟨S_, .i32⟩
  | 68 => ⟨S1529505, .i32⟩
  | 69 => ⟨S_, .i32⟩
  | 70 => ⟨S60000, .i32⟩
  | 71 => ⟨S60000, .i1⟩
  | 72 => ⟨S_, .i32⟩
  | 73 => ⟨S60000, .i32⟩
  | 74 => ⟨S60000, .i32⟩
  | 75 => ⟨S60000, .i32⟩
  | 76 => ⟨S60000x1, .i32⟩
  | 77 => ⟨S_, .i32⟩
  | 78 => ⟨S60000, .i32⟩
  | 79 => ⟨S1529505, .i32⟩
  | 80 => ⟨S_, .i32⟩
  | 81 => ⟨S_, .i32⟩
  | 82 => ⟨S1529505, .i32⟩
  | 83 => ⟨S_, .i32⟩
  | 84 => ⟨S1529505, .i32⟩
  | 85 => ⟨S1529505, .i32⟩
  | 86 => ⟨S_, .i32⟩
  | 87 => ⟨S1529505, .i32⟩
  | 88 => ⟨S1529505, .i1⟩
  | 89 => ⟨S_, .i32⟩
  | 90 => ⟨S1529505, .i32⟩
  | 91 => ⟨S1529505, .i32⟩
  | 92 => ⟨S1529505, .i32⟩
  | 93 => ⟨S1529505x1, .i32⟩
  | 94 => ⟨S1, .i32⟩
  | 95 => ⟨S_, .i32⟩
  | 96 => ⟨S1529505x1, .i32⟩
  | 97 => ⟨S1529505x1, .i1⟩
  | 98 => ⟨S1x1, .i32⟩
  | 99 => ⟨S1529505x1, .i32⟩
  | 100 => ⟨S1529505x1, .i1⟩
  | 101 => ⟨S1529505x1, .i1⟩
  | 102 => ⟨S_, .i1⟩
  | 103 => ⟨S1529505, .i1⟩
  | 104 => ⟨S1529505, .i32⟩
  | 105 => ⟨S_, .i32⟩
  | 106 => ⟨S1529505, .i32⟩
  | 107 => ⟨S1529505, .i32⟩
  | 108 => ⟨S_, .i32⟩
  | 109 => ⟨S1529505, .i32⟩
  | 110 => ⟨S1529505, .i1⟩
  | 111 => ⟨S_, .i32⟩
  | 112 => ⟨S1529505, .i32⟩
  | 113 => ⟨S1529505, .i32⟩
  | 114 => ⟨S1529505, .i32⟩
  | 115 => ⟨S1529505x1, .i32⟩
  | 116 => ⟨S1529505x19, .f32⟩
  | 117 => ⟨S_, .i32⟩
  | 118 => ⟨S1529505, .i32⟩
  | 119 => ⟨S1529505, .i1⟩
  | 120 => ⟨S_, .i32⟩
  | 121 => ⟨S1529505, .i32⟩
  | 122 => ⟨S1529505, .i32⟩
  | 123 => ⟨S1529505, .i32⟩
  | 124 => ⟨S1529505x1, .i32⟩
  | 125 => ⟨S1529505x16, .f32⟩
  | 126 => ⟨S1529505, .f32⟩
  | 127 => ⟨S_, .f32⟩
  | _ => ⟨S600000x5, .f32⟩

abbrev hbmTy0_1 (i : Nat) : BufTy := match i % 128 with
  | 0 => ⟨S1529505, .f32⟩
  | 1 => ⟨S1529505, .f32⟩
  | 2 => ⟨S1529505x1, .f32⟩
  | 3 => ⟨S1529505x36, .f32⟩
  | 4 => ⟨S_, .i32⟩
  | 5 => ⟨S_, .f32⟩
  | 6 => ⟨S1530000x36, .f32⟩
  | 7 => ⟨S1x64, .f32⟩
  | 8 => ⟨S1x64, .f32⟩
  | 9 => ⟨S1x32, .f32⟩
  | 10 => ⟨S1x1, .f32⟩
  | 11 => ⟨S1530000x1, .f32⟩
  | 12 => ⟨S1529505x1, .f32⟩
  | 13 => ⟨S1529505, .f32⟩
  | _ => ⟨S600000x5, .f32⟩

abbrev hbmTy (i : Nat) : BufTy := match i / 128 with
  | 0 => hbmTy0_0 i
  | 1 => hbmTy0_1 i
  | _ => ⟨S600000x5, .f32⟩

abbrev bufTy : (tb : Table) → Fin (tcTables nBuf tb) → BufTy
  | .hbm, ⟨i, _⟩ => hbmTy i
  | .local _ .vmem, ⟨0, _⟩ => ⟨S18000x36, .f32⟩
  | .local _ .vmem, ⟨1, _⟩ => ⟨S18000x36, .f32⟩
  | .local _ .vmem, ⟨2, _⟩ => ⟨S36x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S18000x1, .f32⟩
  | .local _ .vmem, ⟨11, _⟩ => ⟨S18000x1, .f32⟩
  | _, _ => ⟨S600000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_v0 : Ref sig .tc := ⟨.hbm, 57, rfl⟩
abbrev main_call0_v1 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_call1_call0_c : Ref sig .tc := ⟨.hbm, 64, rfl⟩
abbrev main_call1_call0_v0 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_call2_call0_c : Ref sig .tc := ⟨.hbm, 80, rfl⟩
abbrev main_call2_call0_v0 : Ref sig .tc := ⟨.hbm, 81, rfl⟩
abbrev main_v46 : Ref sig .tc := ⟨.hbm, 82, rfl⟩
abbrev main_c_14 : Ref sig .tc := ⟨.hbm, 83, rfl⟩
abbrev main_v47 : Ref sig .tc := ⟨.hbm, 84, rfl⟩
abbrev main_v48 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_c_4 : Ref sig .tc := ⟨.hbm, 105, rfl⟩
abbrev main_call3_v14 : Ref sig .tc := ⟨.hbm, 106, rfl⟩
abbrev main_v49 : Ref sig .tc := ⟨.hbm, 107, rfl⟩
abbrev main_c_15 : Ref sig .tc := ⟨.hbm, 108, rfl⟩
abbrev main_v50 : Ref sig .tc := ⟨.hbm, 109, rfl⟩
abbrev main_v51 : Ref sig .tc := ⟨.hbm, 110, rfl⟩
abbrev main_c_16 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_c_17 : Ref sig .tc := ⟨.hbm, 117, rfl⟩
abbrev main_v57 : Ref sig .tc := ⟨.hbm, 118, rfl⟩
abbrev main_v58 : Ref sig .tc := ⟨.hbm, 119, rfl⟩
abbrev main_c_18 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_c_19 : Ref sig .tc := ⟨.hbm, 132, rfl⟩
abbrev main_call4_v0 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![85], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S18000x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S18000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S60001_S60000_0 : S60001.Slices ![0] S60000
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  concatenates_S60000x1_S60000x1_S60000x2_d1 : Shape.Concatenates [S60000x1, S60000x1] S60000x2 1
  concatenates_S60000x3_S60000x16_S60000x19_d1 : Shape.Concatenates [S60000x3, S60000x16] S60000x19 1
  slices_S60000_S1_59999 : S60000.Slices ![59999] S1
  slices_S60000_S59999_0 : S60000.Slices ![0] S59999
  concatenates_S1_S59999_S60000_d0 : Shape.Concatenates [S1, S59999] S60000 0
  bcast_S_S1 : S_.BroadcastsInDim S1 (![] : Fin 0 → Fin S1.rank)
  bcast_S_S_ : S_.BroadcastsInDim S_ (![] : Fin 0 → Fin S_.rank)
  reduceWindows_S60000_S60000_w60000s1p59999_0 : S60000.ReduceWindows (![60000] : Fin 1 → Nat) ![1] ![59999] ![0] S60000
  h_S_ : 0 < S_.numel
  bcast_S_S1529505 : S_.BroadcastsInDim S1529505 (![] : Fin 0 → Fin S1529505.rank)
  reduceWindows_S1529505_S1529505_w1529505s1p1529504_0 : S1529505.ReduceWindows (![1529505] : Fin 1 → Nat) ![1] ![1529504] ![0] S1529505
  bcast_S1529505_S1529505x1_0 : S1529505.BroadcastsInDim S1529505x1 (![0] : Fin 1 → Fin S1529505x1.rank)
  bcast_S_S1529505x1 : S_.BroadcastsInDim S1529505x1 (![] : Fin 0 → Fin S1529505x1.rank)
  bcast_S1_S1x1_1 : S1.BroadcastsInDim S1x1 (![1] : Fin 1 → Fin S1x1.rank)
  bcast_S1x1_S1529505x1_0_1 : S1x1.BroadcastsInDim S1529505x1 (![0, 1] : Fin 2 → Fin S1529505x1.rank)
  reducesTo_S1529505x1_S1529505_d1 : S1529505x1.ReducesTo [1] S1529505
  concatenates_S1529505x19_S1529505x16_S1529505x1_S1529505x36_d1 : Shape.Concatenates [S1529505x19, S1529505x16, S1529505x1] S1529505x36 1
  pads_S1529505x36_S1530000x36_04950_000 : S1529505x36.Pads (![0, 0] : Fin 2 → Nat) ![495, 0] ![0, 0] S1530000x36
  shapeCasts_S64_S1x64 : S64.ShapeCasts S1x64
  shapeCasts_S32_S1x32 : S32.ShapeCasts S1x32
  shapeCasts_S1_S1x1 : S1.ShapeCasts S1x1
  inb_S18000x36_S18000x36_0_0 : ∀ a, (![0, 0] : Fin 2 → Nat) a + S18000x36.size a ≤ S18000x36.size a
  h_S18000x36 : 0 < S18000x36.numel
  shapeCasts_S18000x36_S18000x36 : S18000x36.ShapeCasts S18000x36
  bitsLt_bf16_f32 : FTy.bits .bf16 < FTy.bits .f32
  inb_S36x64_S36x64_0_0 : ∀ a, (![0, 0] : Fin 2 → Nat) a + S36x64.size a ≤ S36x64.size a
  h_S36x64 : 0 < S36x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S18000x64 : S1x64.Broadcasts S18000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S18000x32 : S1x32.Broadcasts S18000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S18000x1 : S1x1.Broadcasts S18000x1
  inb_S18000x1_S18000x1_0_0 : ∀ a, (![0, 0] : Fin 2 → Nat) a + S18000x1.size a ≤ S18000x1.size a
  h_S18000x1 : 0 < S18000x1.numel
  slices_S1530000x1_S1529505x1_0_0 : S1530000x1.Slices ![0, 0] S1529505x1
  shapeCasts_S1529505x1_S1529505 : S1529505x1.ShapeCasts S1529505
  gather_S600000x5_S60000x2_S60000x3_1_0_n_n_01_1_13_wf : GatherDims.WF S600000x5 S60000x2 S60000x3 [1] [0] [] [0, 1] [] 1 ![1, 3]
  gather_S60000x3_S60000x1_S60000x3_1_0_n_n_0_1_13_wf : GatherDims.WF S60000x3 S60000x1 S60000x3 [1] [0] [] [0] [] 1 ![1, 3]
  gather_S60000x16_S60000x1_S60000x16_1_0_n_n_0_1_116_wf : GatherDims.WF S60000x16 S60000x1 S60000x16 [1] [0] [] [0] [] 1 ![1, 16]
  gather_S60000_S60000x1_S60000_n_0_n_n_0_1_1_wf : GatherDims.WF S60000 S60000x1 S60000 [] [0] [] [0] [] 1 ![1]
  scatter_S60000_S1_S__n_0_0_0_wf : ScatterDims.WF S60000 S1 S_ [] [0] [0] 0
  scatter_S1529505_S60000x1_S60000_n_0_0_1_wf : ScatterDims.WF S1529505 S60000x1 S60000 [] [0] [0] 1
  gather_S60000_S1529505x1_S1529505_n_0_n_n_0_1_1_wf : GatherDims.WF S60000 S1529505x1 S1529505 [] [0] [] [0] [] 1 ![1]
  gather_S60000x19_S1529505x1_S1529505x19_1_0_n_n_0_1_119_wf : GatherDims.WF S60000x19 S1529505x1 S1529505x19 [1] [0] [] [0] [] 1 ![1, 19]
  gather_S60000x16_S1529505x1_S1529505x16_1_0_n_n_0_1_116_wf : GatherDims.WF S60000x16 S1529505x1 S1529505x16 [1] [0] [] [0] [] 1 ![1, 16]
  dot_S18000x36_S36x64_S18000x64_1_0_0_1_n_n_wf : DotDims.WF S18000x36 S36x64 S18000x64 [1] [0] [0] [1] [] []
  dot_S18000x64_S64x64_S18000x64_1_0_0_1_n_n_wf : DotDims.WF S18000x64 S64x64 S18000x64 [1] [0] [0] [1] [] []
  dot_S18000x64_S64x32_S18000x32_1_0_0_1_n_n_wf : DotDims.WF S18000x64 S64x32 S18000x32 [1] [0] [0] [1] [] []
  dot_S18000x32_S32x1_S18000x1_1_0_0_1_n_n_wf : DotDims.WF S18000x32 S32x1 S18000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S18000x36.size a ≤ S1530000x36.size a
  hwx0_0 : ∀ i : grid0.Coords, EltTy.bits .f32 = 32 ∨ (Rect.block (s := S1530000x36) S18000x36.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x64.size a ≤ S36x64.size a
  hwx0_1 : ∀ i : grid0.Coords, EltTy.bits .f32 = 32 ∨ (Rect.block (s := S36x64) S36x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S18000x1.size a ≤ S1530000x1.size a
  hwx0_9 : ∀ i : grid0.Coords, EltTy.bits .f32 = 32 ∨ (Rect.block (s := S1530000x1) S18000x1.size (cc0_transform_9 i) (hinb0_9 i)).WholeWords (EltTy.packing .f32)

variable [Facts₀]

def gather_S600000x5_S60000x2_S60000x3_1_0_n_n_01_1_13 : GatherDims S600000x5 S60000x2 S60000x3 where
  offsetDims := [1]
  collapsedSliceDims := [0]
  operandBatchingDims := []
  startIndicesBatchingDims := []
  startIndexMap := [0, 1]
  indexVectorDim := 1
  sliceSizes := ![1, 3]
  wf := gather_S600000x5_S60000x2_S60000x3_1_0_n_n_01_1_13_wf
def gather_S60000x3_S60000x1_S60000x3_1_0_n_n_0_1_13 : GatherDims S60000x3 S60000x1 S60000x3 where
  offsetDims := [1]
  collapsedSliceDims := [0]
  operandBatchingDims := []
  startIndicesBatchingDims := []
  startIndexMap := [0]
  indexVectorDim := 1
  sliceSizes := ![1, 3]
  wf := gather_S60000x3_S60000x1_S60000x3_1_0_n_n_0_1_13_wf
def gather_S60000x16_S60000x1_S60000x16_1_0_n_n_0_1_116 : GatherDims S60000x16 S60000x1 S60000x16 where
  offsetDims := [1]
  collapsedSliceDims := [0]
  operandBatchingDims := []
  startIndicesBatchingDims := []
  startIndexMap := [0]
  indexVectorDim := 1
  sliceSizes := ![1, 16]
  wf := gather_S60000x16_S60000x1_S60000x16_1_0_n_n_0_1_116_wf
def gather_S60000_S60000x1_S60000_n_0_n_n_0_1_1 : GatherDims S60000 S60000x1 S60000 where
  offsetDims := []
  collapsedSliceDims := [0]
  operandBatchingDims := []
  startIndicesBatchingDims := []
  startIndexMap := [0]
  indexVectorDim := 1
  sliceSizes := ![1]
  wf := gather_S60000_S60000x1_S60000_n_0_n_n_0_1_1_wf
def scatter_S60000_S1_S__n_0_0_0 : ScatterDims S60000 S1 S_ where
  updateWindowDims := []
  insertedWindowDims := [0]
  scatterDimsToOperandDims := [0]
  indexVectorDim := 0
  wf := scatter_S60000_S1_S__n_0_0_0_wf
def scatter_S1529505_S60000x1_S60000_n_0_0_1 : ScatterDims S1529505 S60000x1 S60000 where
  updateWindowDims := []
  insertedWindowDims := [0]
  scatterDimsToOperandDims := [0]
  indexVectorDim := 1
  wf := scatter_S1529505_S60000x1_S60000_n_0_0_1_wf
def gather_S60000_S1529505x1_S1529505_n_0_n_n_0_1_1 : GatherDims S60000 S1529505x1 S1529505 where
  offsetDims := []
  collapsedSliceDims := [0]
  operandBatchingDims := []
  startIndicesBatchingDims := []
  startIndexMap := [0]
  indexVectorDim := 1
  sliceSizes := ![1]
  wf := gather_S60000_S1529505x1_S1529505_n_0_n_n_0_1_1_wf
def gather_S60000x19_S1529505x1_S1529505x19_1_0_n_n_0_1_119 : GatherDims S60000x19 S1529505x1 S1529505x19 where
  offsetDims := [1]
  collapsedSliceDims := [0]
  operandBatchingDims := []
  startIndicesBatchingDims := []
  startIndexMap := [0]
  indexVectorDim := 1
  sliceSizes := ![1, 19]
  wf := gather_S60000x19_S1529505x1_S1529505x19_1_0_n_n_0_1_119_wf
def gather_S60000x16_S1529505x1_S1529505x16_1_0_n_n_0_1_116 : GatherDims S60000x16 S1529505x1 S1529505x16 where
  offsetDims := [1]
  collapsedSliceDims := [0]
  operandBatchingDims := []
  startIndicesBatchingDims := []
  startIndexMap := [0]
  indexVectorDim := 1
  sliceSizes := ![1, 16]
  wf := gather_S60000x16_S1529505x1_S1529505x16_1_0_n_n_0_1_116_wf
def dot_S18000x36_S36x64_S18000x64_1_0_0_1_n_n : DotDims S18000x36 S36x64 S18000x64 where
  lhsContracting := [1]
  rhsContracting := [0]
  lhsNonContracting := [0]
  rhsNonContracting := [1]
  lhsBatch := []
  rhsBatch := []
  wf := dot_S18000x36_S36x64_S18000x64_1_0_0_1_n_n_wf
def dot_S18000x64_S64x64_S18000x64_1_0_0_1_n_n : DotDims S18000x64 S64x64 S18000x64 where
  lhsContracting := [1]
  rhsContracting := [0]
  lhsNonContracting := [0]
  rhsNonContracting := [1]
  lhsBatch := []
  rhsBatch := []
  wf := dot_S18000x64_S64x64_S18000x64_1_0_0_1_n_n_wf
def dot_S18000x64_S64x32_S18000x32_1_0_0_1_n_n : DotDims S18000x64 S64x32 S18000x32 where
  lhsContracting := [1]
  rhsContracting := [0]
  lhsNonContracting := [0]
  rhsNonContracting := [1]
  lhsBatch := []
  rhsBatch := []
  wf := dot_S18000x64_S64x32_S18000x32_1_0_0_1_n_n_wf
def dot_S18000x32_S32x1_S18000x1_1_0_0_1_n_n : DotDims S18000x32 S32x1 S18000x1 where
  lhsContracting := [1]
  rhsContracting := [0]
  lhsNonContracting := [0]
  rhsNonContracting := [1]
  lhsBatch := []
  rhsBatch := []
  wf := dot_S18000x32_S32x1_S18000x1_1_0_0_1_n_n_wf

abbrev win0_0 : Pipeline.Window sig grid0 :=
  Pipeline.Window.ofSpec (Memref.whole main_v69) S18000x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S36x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v72) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v73) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S18000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S600000x5 : Shape := ⟨2, ![600000, 5]⟩
abbrev S60000x16 : Shape := ⟨2, ![60000, 16]⟩
abbrev S60001 : Shape := ⟨1, ![60001]⟩
abbrev S60000 : Shape := ⟨1, ![60000]⟩
abbrev S1529505 : Shape := ⟨1, ![1529505]⟩
abbrev S36x64 : Shape := ⟨2, ![36, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S60000x1 : Shape := ⟨2, ![60000, 1]⟩
abbrev S60000x2 : Shape := ⟨2, ![60000, 2]⟩
abbrev S60000x3 : Shape := ⟨2, ![60000, 3]⟩
abbrev S60000x19 : Shape := ⟨2, ![60000, 19]⟩
abbrev S59999 : Shape := ⟨1, ![59999]⟩
abbrev S1529505x1 : Shape := ⟨2, ![1529505, 1]⟩
abbrev S1x1 : Shape := ⟨2, ![1, 1]⟩
abbrev S1529505x19 : Shape := ⟨2, ![1529505, 19]⟩
abbrev S1529505x16 : Shape := ⟨2, ![1529505, 16]⟩
abbrev S1529505x36 : Shape := ⟨2, ![1529505, 36]⟩
abbrev S1529505x64 : Shape := ⟨2, ![1529505, 64]⟩
abbrev S1x64 : Shape := ⟨2, ![1, 64]⟩
abbrev S1529505x32 : Shape := ⟨2, ![1529505, 32]⟩
abbrev S1x32 : Shape := ⟨2, ![1, 32]⟩

abbrev nBuf : Space → Nat
  | .hbm => 158
  | .vmem => 0
  | .smem => 0
  | _ => 0

abbrev hbmTy0_0 (i : Nat) : BufTy := match i % 128 with
  | 0 => ⟨S600000x5, .f32⟩
  | 1 => ⟨S60000x16, .f32⟩
  | 2 => ⟨S60000x16, .f32⟩
  | 3 => ⟨S60001, .i32⟩
  | 4 => ⟨S60000, .i32⟩
  | 5 => ⟨S60000, .i32⟩
  | 6 => ⟨S1529505, .i32⟩
  | 7 => ⟨S36x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S60000, .i32⟩
  | 16 => ⟨S_, .i32⟩
  | 17 => ⟨S60000, .i32⟩
  | 18 => ⟨S60000, .i1⟩
  | 19 => ⟨S_, .i32⟩
  | 20 => ⟨S60000, .i32⟩
  | 21 => ⟨S60000, .i32⟩
  | 22 => ⟨S60000, .i32⟩
  | 23 => ⟨S60000x1, .i32⟩
  | 24 => ⟨S_, .i32⟩
  | 25 => ⟨S60000x1, .i32⟩
  | 26 => ⟨S60000x2, .i32⟩
  | 27 => ⟨S60000x3, .f32⟩
  | 28 => ⟨S_, .i32⟩
  | 29 => ⟨S60000, .i32⟩
  | 30 => ⟨S60000, .i1⟩
  | 31 => ⟨S_, .i32⟩
  | 32 => ⟨S60000, .i32⟩
  | 33 => ⟨S60000, .i32⟩
  | 34 => ⟨S60000, .i32⟩
  | 35 => ⟨S60000x1, .i32⟩
  | 36 => ⟨S60000x3, .f32⟩
  | 37 => ⟨S_, .i32⟩
  | 38 => ⟨S60000, .i32⟩
  | 39 => ⟨S60000, .i1⟩
  | 40 => ⟨S_, .i32⟩
  | 41 => ⟨S60000, .i32⟩
  | 42 => ⟨S60000, .i32⟩
  | 43 => ⟨S60000, .i32⟩
  | 44 => ⟨S60000x1, .i32⟩
  | 45 => ⟨S60000x16, .f32⟩
  | 46 => ⟨S60000x19, .f32⟩
  | 47 => ⟨S_, .i32⟩
  | 48 => ⟨S60000, .i32⟩
  | 49 => ⟨S60000, .i1⟩
  | 50 => ⟨S_, .i32⟩
  | 51 => ⟨S60000, .i32⟩
  | 52 => ⟨S60000, .i32⟩
  | 53 => ⟨S60000, .i32⟩
  | 54 => ⟨S60000x1, .i32⟩
  | 55 => ⟨S60000, .i32⟩
  | 56 => ⟨S60000, .i32⟩
  | 57 => ⟨S1, .i32⟩
  | 58 => ⟨S59999, .i32⟩
  | 59 => ⟨S60000, .i32⟩
  | 60 => ⟨S_, .i32⟩
  | 61 => ⟨S1, .i32⟩
  | 62 => ⟨S_, .i32⟩
  | 63 => ⟨S60000, .i32⟩
  | 64 => ⟨S_, .i32⟩
  | 65 => ⟨S_, .i32⟩
  | 66 => ⟨S60000, .i32⟩
  | 67 => ⟨S_, .i32⟩
  | 68 => ⟨S1529505, .i32⟩
  | 69 => ⟨S_, .i32⟩
  | 70 => ⟨S60000, .i32⟩
  | 71 => ⟨S60000, .i1⟩
  | 72 => ⟨S_, .i32⟩
  | 73 => ⟨S60000, .i32⟩
  | 74 => ⟨S60000, .i32⟩
  | 75 => ⟨S60000, .i32⟩
  | 76 => ⟨S60000x1, .i32⟩
  | 77 => ⟨S_, .i32⟩
  | 78 => ⟨S60000, .i32⟩
  | 79 => ⟨S1529505, .i32⟩
  | 80 => ⟨S_, .i32⟩
  | 81 => ⟨S_, .i32⟩
  | 82 => ⟨S1529505, .i32⟩
  | 83 => ⟨S_, .i32⟩
  | 84 => ⟨S1529505, .i32⟩
  | 85 => ⟨S1529505, .i32⟩
  | 86 => ⟨S_, .i32⟩
  | 87 => ⟨S1529505, .i32⟩
  | 88 => ⟨S1529505, .i1⟩
  | 89 => ⟨S_, .i32⟩
  | 90 => ⟨S1529505, .i32⟩
  | 91 => ⟨S1529505, .i32⟩
  | 92 => ⟨S1529505, .i32⟩
  | 93 => ⟨S1529505x1, .i32⟩
  | 94 => ⟨S1, .i32⟩
  | 95 => ⟨S_, .i32⟩
  | 96 => ⟨S1529505x1, .i32⟩
  | 97 => ⟨S1529505x1, .i1⟩
  | 98 => ⟨S1x1, .i32⟩
  | 99 => ⟨S1529505x1, .i32⟩
  | 100 => ⟨S1529505x1, .i1⟩
  | 101 => ⟨S1529505x1, .i1⟩
  | 102 => ⟨S_, .i1⟩
  | 103 => ⟨S1529505, .i1⟩
  | 104 => ⟨S1529505, .i32⟩
  | 105 => ⟨S_, .i32⟩
  | 106 => ⟨S1529505, .i32⟩
  | 107 => ⟨S1529505, .i32⟩
  | 108 => ⟨S_, .i32⟩
  | 109 => ⟨S1529505, .i32⟩
  | 110 => ⟨S1529505, .i1⟩
  | 111 => ⟨S_, .i32⟩
  | 112 => ⟨S1529505, .i32⟩
  | 113 => ⟨S1529505, .i32⟩
  | 114 => ⟨S1529505, .i32⟩
  | 115 => ⟨S1529505x1, .i32⟩
  | 116 => ⟨S1529505x19, .f32⟩
  | 117 => ⟨S_, .i32⟩
  | 118 => ⟨S1529505, .i32⟩
  | 119 => ⟨S1529505, .i1⟩
  | 120 => ⟨S_, .i32⟩
  | 121 => ⟨S1529505, .i32⟩
  | 122 => ⟨S1529505, .i32⟩
  | 123 => ⟨S1529505, .i32⟩
  | 124 => ⟨S1529505x1, .i32⟩
  | 125 => ⟨S1529505x16, .f32⟩
  | 126 => ⟨S1529505, .f32⟩
  | 127 => ⟨S_, .f32⟩
  | _ => ⟨S600000x5, .f32⟩

abbrev hbmTy0_1 (i : Nat) : BufTy := match i % 128 with
  | 0 => ⟨S1529505, .f32⟩
  | 1 => ⟨S1529505, .f32⟩
  | 2 => ⟨S1529505x1, .f32⟩
  | 3 => ⟨S1529505x36, .f32⟩
  | 4 => ⟨S1529505x64, .f32⟩
  | 5 => ⟨S1x64, .f32⟩
  | 6 => ⟨S1529505x64, .f32⟩
  | 7 => ⟨S1529505x64, .f32⟩
  | 8 => ⟨S_, .f32⟩
  | 9 => ⟨S1529505x64, .f32⟩
  | 10 => ⟨S1529505x64, .f32⟩
  | 11 => ⟨S1529505x64, .f32⟩
  | 12 => ⟨S1x64, .f32⟩
  | 13 => ⟨S1529505x64, .f32⟩
  | 14 => ⟨S1529505x64, .f32⟩
  | 15 => ⟨S_, .f32⟩
  | 16 => ⟨S1529505x64, .f32⟩
  | 17 => ⟨S1529505x64, .f32⟩
  | 18 => ⟨S1529505x32, .f32⟩
  | 19 => ⟨S1x32, .f32⟩
  | 20 => ⟨S1529505x32, .f32⟩
  | 21 => ⟨S1529505x32, .f32⟩
  | 22 => ⟨S_, .f32⟩
  | 23 => ⟨S1529505x32, .f32⟩
  | 24 => ⟨S1529505x32, .f32⟩
  | 25 => ⟨S1529505x1, .f32⟩
  | 26 => ⟨S1x1, .f32⟩
  | 27 => ⟨S1529505x1, .f32⟩
  | 28 => ⟨S1529505x1, .f32⟩
  | 29 => ⟨S1529505, .f32⟩
  | _ => ⟨S600000x5, .f32⟩

abbrev hbmTy (i : Nat) : BufTy := match i / 128 with
  | 0 => hbmTy0_0 i
  | 1 => hbmTy0_1 i
  | _ => ⟨S600000x5, .f32⟩

abbrev bufTy : (tb : Table) → Fin (tcTables nBuf tb) → BufTy
  | .hbm, ⟨i, _⟩ => hbmTy i
  | _, _ => ⟨S600000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_v0 : Ref sig .tc := ⟨.hbm, 57, rfl⟩
abbrev main_call0_v1 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_call1_call0_c : Ref sig .tc := ⟨.hbm, 64, rfl⟩
abbrev main_call1_call0_v0 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_call2_call0_c : Ref sig .tc := ⟨.hbm, 80, rfl⟩
abbrev main_call2_call0_v0 : Ref sig .tc := ⟨.hbm, 81, rfl⟩
abbrev main_v46 : Ref sig .tc := ⟨.hbm, 82, rfl⟩
abbrev main_c_14 : Ref sig .tc := ⟨.hbm, 83, rfl⟩
abbrev main_v47 : Ref sig .tc := ⟨.hbm, 84, rfl⟩
abbrev main_v48 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_c_4 : Ref sig .tc := ⟨.hbm, 105, rfl⟩
abbrev main_call3_v14 : Ref sig .tc := ⟨.hbm, 106, rfl⟩
abbrev main_v49 : Ref sig .tc := ⟨.hbm, 107, rfl⟩
abbrev main_c_15 : Ref sig .tc := ⟨.hbm, 108, rfl⟩
abbrev main_v50 : Ref sig .tc := ⟨.hbm, 109, rfl⟩
abbrev main_v51 : Ref sig .tc := ⟨.hbm, 110, rfl⟩
abbrev main_c_16 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_c_17 : Ref sig .tc := ⟨.hbm, 117, rfl⟩
abbrev main_v57 : Ref sig .tc := ⟨.hbm, 118, rfl⟩
abbrev main_v58 : Ref sig .tc := ⟨.hbm, 119, rfl⟩
abbrev main_c_18 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_call4_cst : Ref sig .tc := ⟨.hbm, 136, rfl⟩
abbrev main_call4_v0 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call5_cst : Ref sig .tc := ⟨.hbm, 143, rfl⟩
abbrev main_call5_v0 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_call6_cst : Ref sig .tc := ⟨.hbm, 150, rfl⟩
abbrev main_call6_v0 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩

abbrev nD : Nat := 1
abbrev τ : Topo := Topo.v7x

variable {F : FTy → Type} [FloatOps F]

class Facts₀ : Prop where
  slices_S60001_S60000_0 : S60001.Slices ![0] S60000
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  concatenates_S60000x1_S60000x1_S60000x2_d1 : Shape.Concatenates [S60000x1, S60000x1] S60000x2 1
  concatenates_S60000x3_S60000x16_S60000x19_d1 : Shape.Concatenates [S60000x3, S60000x16] S60000x19 1
  slices_S60000_S1_59999 : S60000.Slices ![59999] S1
  slices_S60000_S59999_0 : S60000.Slices ![0] S59999
  concatenates_S1_S59999_S60000_d0 : Shape.Concatenates [S1, S59999] S60000 0
  bcast_S_S1 : S_.BroadcastsInDim S1 (![] : Fin 0 → Fin S1.rank)
  bcast_S_S_ : S_.BroadcastsInDim S_ (![] : Fin 0 → Fin S_.rank)
  reduceWindows_S60000_S60000_w60000s1p59999_0 : S60000.ReduceWindows (![60000] : Fin 1 → Nat) ![1] ![59999] ![0] S60000
  h_S_ : 0 < S_.numel
  bcast_S_S1529505 : S_.BroadcastsInDim S1529505 (![] : Fin 0 → Fin S1529505.rank)
  reduceWindows_S1529505_S1529505_w1529505s1p1529504_0 : S1529505.ReduceWindows (![1529505] : Fin 1 → Nat) ![1] ![1529504] ![0] S1529505
  bcast_S1529505_S1529505x1_0 : S1529505.BroadcastsInDim S1529505x1 (![0] : Fin 1 → Fin S1529505x1.rank)
  bcast_S_S1529505x1 : S_.BroadcastsInDim S1529505x1 (![] : Fin 0 → Fin S1529505x1.rank)
  bcast_S1_S1x1_1 : S1.BroadcastsInDim S1x1 (![1] : Fin 1 → Fin S1x1.rank)
  bcast_S1x1_S1529505x1_0_1 : S1x1.BroadcastsInDim S1529505x1 (![0, 1] : Fin 2 → Fin S1529505x1.rank)
  reducesTo_S1529505x1_S1529505_d1 : S1529505x1.ReducesTo [1] S1529505
  concatenates_S1529505x19_S1529505x16_S1529505x1_S1529505x36_d1 : Shape.Concatenates [S1529505x19, S1529505x16, S1529505x1] S1529505x36 1
  bcast_S64_S1x64_1 : S64.BroadcastsInDim S1x64 (![1] : Fin 1 → Fin S1x64.rank)
  bcast_S1x64_S1529505x64_0_1 : S1x64.BroadcastsInDim S1529505x64 (![0, 1] : Fin 2 → Fin S1529505x64.rank)
  bcast_S_S1529505x64 : S_.BroadcastsInDim S1529505x64 (![] : Fin 0 → Fin S1529505x64.rank)
  bcast_S32_S1x32_1 : S32.BroadcastsInDim S1x32 (![1] : Fin 1 → Fin S1x32.rank)
  bcast_S1x32_S1529505x32_0_1 : S1x32.BroadcastsInDim S1529505x32 (![0, 1] : Fin 2 → Fin S1529505x32.rank)
  bcast_S_S1529505x32 : S_.BroadcastsInDim S1529505x32 (![] : Fin 0 → Fin S1529505x32.rank)
  shapeCasts_S1529505x1_S1529505 : S1529505x1.ShapeCasts S1529505
  gather_S600000x5_S60000x2_S60000x3_1_0_n_n_01_1_13_wf : GatherDims.WF S600000x5 S60000x2 S60000x3 [1] [0] [] [0, 1] [] 1 ![1, 3]
  gather_S60000x3_S60000x1_S60000x3_1_0_n_n_0_1_13_wf : GatherDims.WF S60000x3 S60000x1 S60000x3 [1] [0] [] [0] [] 1 ![1, 3]
  gather_S60000x16_S60000x1_S60000x16_1_0_n_n_0_1_116_wf : GatherDims.WF S60000x16 S60000x1 S60000x16 [1] [0] [] [0] [] 1 ![1, 16]
  gather_S60000_S60000x1_S60000_n_0_n_n_0_1_1_wf : GatherDims.WF S60000 S60000x1 S60000 [] [0] [] [0] [] 1 ![1]
  scatter_S60000_S1_S__n_0_0_0_wf : ScatterDims.WF S60000 S1 S_ [] [0] [0] 0
  scatter_S1529505_S60000x1_S60000_n_0_0_1_wf : ScatterDims.WF S1529505 S60000x1 S60000 [] [0] [0] 1
  gather_S60000_S1529505x1_S1529505_n_0_n_n_0_1_1_wf : GatherDims.WF S60000 S1529505x1 S1529505 [] [0] [] [0] [] 1 ![1]
  gather_S60000x19_S1529505x1_S1529505x19_1_0_n_n_0_1_119_wf : GatherDims.WF S60000x19 S1529505x1 S1529505x19 [1] [0] [] [0] [] 1 ![1, 19]
  gather_S60000x16_S1529505x1_S1529505x16_1_0_n_n_0_1_116_wf : GatherDims.WF S60000x16 S1529505x1 S1529505x16 [1] [0] [] [0] [] 1 ![1, 16]
  dot_S1529505x36_S36x64_S1529505x64_1_0_0_1_n_n_wf : DotDims.WF S1529505x36 S36x64 S1529505x64 [1] [0] [0] [1] [] []
  dot_S1529505x64_S64x64_S1529505x64_1_0_0_1_n_n_wf : DotDims.WF S1529505x64 S64x64 S1529505x64 [1] [0] [0] [1] [] []
  dot_S1529505x64_S64x32_S1529505x32_1_0_0_1_n_n_wf : DotDims.WF S1529505x64 S64x32 S1529505x32 [1] [0] [0] [1] [] []
  dot_S1529505x32_S32x1_S1529505x1_1_0_0_1_n_n_wf : DotDims.WF S1529505x32 S32x1 S1529505x1 [1] [0] [0] [1] [] []

variable [Facts₀]

def gather_S600000x5_S60000x2_S60000x3_1_0_n_n_01_1_13 : GatherDims S600000x5 S60000x2 S60000x3 where
  offsetDims := [1]
  collapsedSliceDims := [0]
  operandBatchingDims := []
  startIndicesBatchingDims := []
  startIndexMap := [0, 1]
  indexVectorDim := 1
  sliceSizes := ![1, 3]
  wf := gather_S600000x5_S60000x2_S60000x3_1_0_n_n_01_1_13_wf
def gather_S60000x3_S60000x1_S60000x3_1_0_n_n_0_1_13 : GatherDims S60000x3 S60000x1 S60000x3 where
  offsetDims := [1]
  collapsedSliceDims := [0]
  operandBatchingDims := []
  startIndicesBatchingDims := []
  startIndexMap := [0]
  indexVectorDim := 1
  sliceSizes := ![1, 3]
  wf := gather_S60000x3_S60000x1_S60000x3_1_0_n_n_0_1_13_wf
def gather_S60000x16_S60000x1_S60000x16_1_0_n_n_0_1_116 : GatherDims S60000x16 S60000x1 S60000x16 where
  offsetDims := [1]
  collapsedSliceDims := [0]
  operandBatchingDims := []
  startIndicesBatchingDims := []
  startIndexMap := [0]
  indexVectorDim := 1
  sliceSizes := ![1, 16]
  wf := gather_S60000x16_S60000x1_S60000x16_1_0_n_n_0_1_116_wf
def gather_S60000_S60000x1_S60000_n_0_n_n_0_1_1 : GatherDims S60000 S60000x1 S60000 where
  offsetDims := []
  collapsedSliceDims := [0]
  operandBatchingDims := []
  startIndicesBatchingDims := []
  startIndexMap := [0]
  indexVectorDim := 1
  sliceSizes := ![1]
  wf := gather_S60000_S60000x1_S60000_n_0_n_n_0_1_1_wf
def scatter_S60000_S1_S__n_0_0_0 : ScatterDims S60000 S1 S_ where
  updateWindowDims := []
  insertedWindowDims := [0]
  scatterDimsToOperandDims := [0]
  indexVectorDim := 0
  wf := scatter_S60000_S1_S__n_0_0_0_wf
def scatter_S1529505_S60000x1_S60000_n_0_0_1 : ScatterDims S1529505 S60000x1 S60000 where
  updateWindowDims := []
  insertedWindowDims := [0]
  scatterDimsToOperandDims := [0]
  indexVectorDim := 1
  wf := scatter_S1529505_S60000x1_S60000_n_0_0_1_wf
def gather_S60000_S1529505x1_S1529505_n_0_n_n_0_1_1 : GatherDims S60000 S1529505x1 S1529505 where
  offsetDims := []
  collapsedSliceDims := [0]
  operandBatchingDims := []
  startIndicesBatchingDims := []
  startIndexMap := [0]
  indexVectorDim := 1
  sliceSizes := ![1]
  wf := gather_S60000_S1529505x1_S1529505_n_0_n_n_0_1_1_wf
def gather_S60000x19_S1529505x1_S1529505x19_1_0_n_n_0_1_119 : GatherDims S60000x19 S1529505x1 S1529505x19 where
  offsetDims := [1]
  collapsedSliceDims := [0]
  operandBatchingDims := []
  startIndicesBatchingDims := []
  startIndexMap := [0]
  indexVectorDim := 1
  sliceSizes := ![1, 19]
  wf := gather_S60000x19_S1529505x1_S1529505x19_1_0_n_n_0_1_119_wf
def gather_S60000x16_S1529505x1_S1529505x16_1_0_n_n_0_1_116 : GatherDims S60000x16 S1529505x1 S1529505x16 where
  offsetDims := [1]
  collapsedSliceDims := [0]
  operandBatchingDims := []
  startIndicesBatchingDims := []
  startIndexMap := [0]
  indexVectorDim := 1
  sliceSizes := ![1, 16]
  wf := gather_S60000x16_S1529505x1_S1529505x16_1_0_n_n_0_1_116_wf
def dot_S1529505x36_S36x64_S1529505x64_1_0_0_1_n_n : DotDims S1529505x36 S36x64 S1529505x64 where
  lhsContracting := [1]
  rhsContracting := [0]
  lhsNonContracting := [0]
  rhsNonContracting := [1]
  lhsBatch := []
  rhsBatch := []
  wf := dot_S1529505x36_S36x64_S1529505x64_1_0_0_1_n_n_wf
def dot_S1529505x64_S64x64_S1529505x64_1_0_0_1_n_n : DotDims S1529505x64 S64x64 S1529505x64 where
  lhsContracting := [1]
  rhsContracting := [0]
  lhsNonContracting := [0]
  rhsNonContracting := [1]
  lhsBatch := []
  rhsBatch := []
  wf := dot_S1529505x64_S64x64_S1529505x64_1_0_0_1_n_n_wf
def dot_S1529505x64_S64x32_S1529505x32_1_0_0_1_n_n : DotDims S1529505x64 S64x32 S1529505x32 where
  lhsContracting := [1]
  rhsContracting := [0]
  lhsNonContracting := [0]
  rhsNonContracting := [1]
  lhsBatch := []
  rhsBatch := []
  wf := dot_S1529505x64_S64x32_S1529505x32_1_0_0_1_n_n_wf
def dot_S1529505x32_S32x1_S1529505x1_1_0_0_1_n_n : DotDims S1529505x32 S32x1 S1529505x1 where
  lhsContracting := [1]
  rhsContracting := [0]
  lhsNonContracting := [0]
  rhsNonContracting := [1]
  lhsBatch := []
  rhsBatch := []
  wf := dot_S1529505x32_S32x1_S1529505x1_1_0_0_1_n_n_wf

class Facts : Prop extends Facts₀ where

variable [Facts]
-- ==== Proof.BitsFrame.lean ====
import proofs.«161627_j12979391169443_2_alg».proof.Proof.Gen.Kernel.Launch
import proofs.«161627_j12979391169443_2_alg».proof.Proof.Gen.Kernel.Skeleton
import proofs.«161627_j12979391169443_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The program's run around its one tiled region

The program is: host operations that build the padded feature matrix and stand the bias vectors up as rows; one
region over 85 row tiles of 18000 rows, whose body reads the tile and the eight weight and bias blocks whole and
writes the tile's 18000 outputs whole; then a slice back to the true row count and a reshape.  Here: what the
region finds in every buffer, what each tile's body leaves (one store of one value computed from its nine loads),
the body's triple, and the run of the whole program with every array named at the end.  Stated at any float
instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch. -/
abbrev preOps : List (List (HloOp τ sig (Elt F))) := [hostOps0, hostOps0_1, hostOps0_2, hostOps0_3, hostOps0_4, hostOps0_5, hostOps0_6, hostOps0_7, hostOps0_8, hostOps0_9, hostOps0_10]

/-- Every buffer of core `c` when the region is entered: the host operations before it, folded over the launch memory. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The two operations after the region touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's ten arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- After the region and the two operations that follow it, a buffer that is none of the region's arrays and that
    neither operation writes holds what it held when the region was entered. -/
theorem tail_kept (dats : (p : Fin 1) → (c : Dev nD) → Dat τ (Elt F) Unit ℕ (UR sig nD τ) ℕ (cfgs p) c) (c : Dev nD)
    (b : Ref sig .tc) (hb : ∀ w, Pipeline.arrRef spec0 w ≠ b) (h75 : main_v75 ≠ b) (h76 : main_v76 ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h75.symm, StableHlo.devRef_ne_of_ne h76.symm⟩)),
    Pipeline.withArrays_of_ne _ c (V0 m c) _ b hb]

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_kept m dats c main_arg0 (by decide) (by decide) (by decide)).trans (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_kept m dats c main_arg1 (by decide) (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_kept m dats c main_arg2 (by decide) (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_kept m dats c main_arg3 (by decide) (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_kept m dats c main_arg4 (by decide) (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_kept m dats c main_arg5 (by decide) (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_kept m dats c main_arg6 (by decide) (by decide) (by decide)).trans (V_main_arg6 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_kept m dats c main_arg8 (by decide) (by decide) (by decide)).trans (V_main_arg8 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_kept m dats c main_arg10 (by decide) (by decide) (by decide)).trans (V_main_arg10 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_kept m dats c main_arg12 (by decide) (by decide) (by decide)).trans (V_main_arg12 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_kept m dats c main_arg14 (by decide) (by decide) (by decide)).trans (V_main_arg14 m c)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every tile, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every tile, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every tile, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- Every argument array ends as launched: an array a window stages is an input of the region and ends at its
    contents when the region was entered; any other is bypassed by the region and by the two operations after it; and
    no host operation before the region writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).1 1).trans (((dats 0 c).arrAt_in 1 rfl _).trans ((hA c 1).trans (V_main_arg7 m c))),
    ((h c).2 main_arg8 (Pipeline.mem_restRefs_of main_arg8 (by decide) (by decide))).trans (W_main_arg8 m dats c),
    ((h c).1 3).trans (((dats 0 c).arrAt_in 3 rfl _).trans ((hA c 3).trans (V_main_arg9 m c))),
    ((h c).2 main_arg10 (Pipeline.mem_restRefs_of main_arg10 (by decide) (by decide))).trans (W_main_arg10 m dats c),
    ((h c).1 5).trans (((dats 0 c).arrAt_in 5 rfl _).trans ((hA c 5).trans (V_main_arg11 m c))),
    ((h c).2 main_arg12 (Pipeline.mem_restRefs_of main_arg12 (by decide) (by decide))).trans (W_main_arg12 m dats c),
    ((h c).1 7).trans (((dats 0 c).arrAt_in 7 rfl _).trans ((hA c 7).trans (V_main_arg13 m c))),
    ((h c).2 main_arg14 (Pipeline.mem_restRefs_of main_arg14 (by decide) (by decide))).trans (W_main_arg14 m dats c)⟩) h

/-! ## The body's accesses: every load and the one store take a buffer whole -/

abbrev r0 : Rect S18000x36 := Rect.unit (s := S18000x36) ![0, 0] S18000x36.size inb_S18000x36_S18000x36_0_0
abbrev r1 : Rect S36x64 := Rect.unit (s := S36x64) ![0, 0] S36x64.size inb_S36x64_S36x64_0_0
abbrev r2 : Rect S1x64 := Rect.unit (s := S1x64) ![0, 0] S1x64.size inb_S1x64_S1x64_0_0
abbrev r3 : Rect S64x64 := Rect.unit (s := S64x64) ![0, 0] S64x64.size inb_S64x64_S64x64_0_0
abbrev r4 : Rect S1x64 := Rect.unit (s := S1x64) ![0, 0] S1x64.size inb_S1x64_S1x64_0_0
abbrev r5 : Rect S64x32 := Rect.unit (s := S64x32) ![0, 0] S64x32.size inb_S64x32_S64x32_0_0
abbrev r6 : Rect S1x32 := Rect.unit (s := S1x32) ![0, 0] S1x32.size inb_S1x32_S1x32_0_0
abbrev r7 : Rect S32x1 := Rect.unit (s := S32x1) ![0, 0] S32x1.size inb_S32x1_S32x1_0_0
abbrev r8 : Rect S1x1 := Rect.unit (s := S1x1) ![0, 0] S1x1.size inb_S1x1_S1x1_0_0
abbrev r9 : Rect S18000x1 := Rect.unit (s := S18000x1) ![0, 0] S18000x1.size inb_S18000x1_S18000x1_0_0

/-- What a tile's body leaves in the output window's buffer, from the nine input blocks: its one store, of the last
    layer's value (the three rectified layers and the last product, then the last bias) computed from the loads. -/
def out9 (x0 : Vec F S18000x36 .f32) (x1 : Vec F S36x64 .f32) (x2 : Vec F S1x64 .f32) (x3 : Vec F S64x64 .f32) (x4 : Vec F S1x64 .f32) (x5 : Vec F S64x32 .f32) (x6 : Vec F S1x32 .f32) (x7 : Vec F S32x1 .f32) (x8 : Vec F S1x1 .f32) : Vec F S18000x1 .f32 :=
  View.canon [⟨r9, k0_pay1 (k0_pay2 (View.ld x0 r0) (View.ld x1 r1) (View.ld x2 r2) (View.ld x3 r3) (View.ld x4 r4) (View.ld x5 r5) (View.ld x6 r6) (View.ld x7 r7)) (View.ld x8 r8)⟩]

/-- The store takes the buffer whole, so it covers it. -/
theorem cover9 (p0 : Vec F S18000x1 .f32) (y : S18000x1.Idx) :
    ∃ pc ∈ ([⟨r9, p0⟩] : List (View.Piece (Elt F) S18000x1 .f32)), y ∈ pc.1.set :=
  View.cover_of_tiled [⟨r9, p0⟩] S18000x1.size (by rfl) y

/-! ## The body's triple -/

set_option maxHeartbeats 1000000 in
/-- The body on whole staging buffers, the inputs' holding `x0 … x8` and the output's anything, runs to the
    continuation with the inputs' as they were and the output's at `out9` of them. -/
theorem sound_kernel (c : Dev nD) (E : Set ℕ) (i : grid0.Coords) (arg1 : Memref sig .tc .vmem S18000x36 .f32) (harg1 : arg1.IsWhole) (arg2 : Memref sig .tc .vmem S36x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S18000x1 .f32) (harg10 : arg10.IsWhole)
    (x0 : Vec F S18000x36 .f32) (x1 : Vec F S36x64 .f32) (x2 : Vec F S1x64 .f32) (x3 : Vec F S64x64 .f32) (x4 : Vec F S1x64 .f32) (x5 : Vec F S64x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The region's proof data -/

/-- On core `c`: the arrays as the region finds them; after the body at tile `t` each input's buffer at its block
    and the output's at `out9` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, faulting nowhere, with each of the region's arrays at what the
    tiles' write-backs leave over its contents at the region's entry and every other unscoped buffer as the two
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.IdealFrame.lean ====
import proofs.«161627_j12979391169443_2_alg».proof.Proof.Gen.KernelIdeal.Launch
import proofs.«161627_j12979391169443_2_alg».proof.Proof.Gen.KernelIdeal.Skeleton
import proofs.«161627_j12979391169443_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The program's run around its one tiled region

The program is: host operations that build the padded feature matrix and stand the bias vectors up as rows; one
region over 85 row tiles of 18000 rows, whose body reads the tile and the eight weight and bias blocks whole and
writes the tile's 18000 outputs whole; then a slice back to the true row count and a reshape.  Here: what the
region finds in every buffer, what each tile's body leaves (one store of one value computed from its nine loads),
the body's triple, and the run of the whole program with every array named at the end.  Stated at any float
instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch. -/
abbrev preOps : List (List (HloOp τ sig (Elt F))) := [hostOps0, hostOps0_1, hostOps0_2, hostOps0_3, hostOps0_4, hostOps0_5, hostOps0_6, hostOps0_7, hostOps0_8, hostOps0_9, hostOps0_10]

/-- Every buffer of core `c` when the region is entered: the host operations before it, folded over the launch memory. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The two operations after the region touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's ten arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- After the region and the two operations that follow it, a buffer that is none of the region's arrays and that
    neither operation writes holds what it held when the region was entered. -/
theorem tail_kept (dats : (p : Fin 1) → (c : Dev nD) → Dat τ (Elt F) Unit ℕ (UR sig nD τ) ℕ (cfgs p) c) (c : Dev nD)
    (b : Ref sig .tc) (hb : ∀ w, Pipeline.arrRef spec0 w ≠ b) (h75 : main_v75 ≠ b) (h76 : main_v76 ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h75.symm, StableHlo.devRef_ne_of_ne h76.symm⟩)),
    Pipeline.withArrays_of_ne _ c (V0 m c) _ b hb]

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_kept m dats c main_arg0 (by decide) (by decide) (by decide)).trans (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_kept m dats c main_arg1 (by decide) (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_kept m dats c main_arg2 (by decide) (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_kept m dats c main_arg3 (by decide) (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_kept m dats c main_arg4 (by decide) (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_kept m dats c main_arg5 (by decide) (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_kept m dats c main_arg6 (by decide) (by decide) (by decide)).trans (V_main_arg6 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_kept m dats c main_arg8 (by decide) (by decide) (by decide)).trans (V_main_arg8 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_kept m dats c main_arg10 (by decide) (by decide) (by decide)).trans (V_main_arg10 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_kept m dats c main_arg12 (by decide) (by decide) (by decide)).trans (V_main_arg12 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_kept m dats c main_arg14 (by decide) (by decide) (by decide)).trans (V_main_arg14 m c)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every tile, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every tile, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every tile, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- Every argument array ends as launched: an array a window stages is an input of the region and ends at its
    contents when the region was entered; any other is bypassed by the region and by the two operations after it; and
    no host operation before the region writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).1 1).trans (((dats 0 c).arrAt_in 1 rfl _).trans ((hA c 1).trans (V_main_arg7 m c))),
    ((h c).2 main_arg8 (Pipeline.mem_restRefs_of main_arg8 (by decide) (by decide))).trans (W_main_arg8 m dats c),
    ((h c).1 3).trans (((dats 0 c).arrAt_in 3 rfl _).trans ((hA c 3).trans (V_main_arg9 m c))),
    ((h c).2 main_arg10 (Pipeline.mem_restRefs_of main_arg10 (by decide) (by decide))).trans (W_main_arg10 m dats c),
    ((h c).1 5).trans (((dats 0 c).arrAt_in 5 rfl _).trans ((hA c 5).trans (V_main_arg11 m c))),
    ((h c).2 main_arg12 (Pipeline.mem_restRefs_of main_arg12 (by decide) (by decide))).trans (W_main_arg12 m dats c),
    ((h c).1 7).trans (((dats 0 c).arrAt_in 7 rfl _).trans ((hA c 7).trans (V_main_arg13 m c))),
    ((h c).2 main_arg14 (Pipeline.mem_restRefs_of main_arg14 (by decide) (by decide))).trans (W_main_arg14 m dats c)⟩) h

/-! ## The body's accesses: every load and the one store take a buffer whole -/

abbrev r0 : Rect S18000x36 := Rect.unit (s := S18000x36) ![0, 0] S18000x36.size inb_S18000x36_S18000x36_0_0
abbrev r1 : Rect S36x64 := Rect.unit (s := S36x64) ![0, 0] S36x64.size inb_S36x64_S36x64_0_0
abbrev r2 : Rect S1x64 := Rect.unit (s := S1x64) ![0, 0] S1x64.size inb_S1x64_S1x64_0_0
abbrev r3 : Rect S64x64 := Rect.unit (s := S64x64) ![0, 0] S64x64.size inb_S64x64_S64x64_0_0
abbrev r4 : Rect S1x64 := Rect.unit (s := S1x64) ![0, 0] S1x64.size inb_S1x64_S1x64_0_0
abbrev r5 : Rect S64x32 := Rect.unit (s := S64x32) ![0, 0] S64x32.size inb_S64x32_S64x32_0_0
abbrev r6 : Rect S1x32 := Rect.unit (s := S1x32) ![0, 0] S1x32.size inb_S1x32_S1x32_0_0
abbrev r7 : Rect S32x1 := Rect.unit (s := S32x1) ![0, 0] S32x1.size inb_S32x1_S32x1_0_0
abbrev r8 : Rect S1x1 := Rect.unit (s := S1x1) ![0, 0] S1x1.size inb_S1x1_S1x1_0_0
abbrev r9 : Rect S18000x1 := Rect.unit (s := S18000x1) ![0, 0] S18000x1.size inb_S18000x1_S18000x1_0_0

/-- What a tile's body leaves in the output window's buffer, from the nine input blocks: its one store, of the last
    layer's value (the three rectified layers and the last product, then the last bias) computed from the loads. -/
def out9 (x0 : Vec F S18000x36 .f32) (x1 : Vec F S36x64 .f32) (x2 : Vec F S1x64 .f32) (x3 : Vec F S64x64 .f32) (x4 : Vec F S1x64 .f32) (x5 : Vec F S64x32 .f32) (x6 : Vec F S1x32 .f32) (x7 : Vec F S32x1 .f32) (x8 : Vec F S1x1 .f32) : Vec F S18000x1 .f32 :=
  View.canon [⟨r9, k0_pay1 (k0_pay2 (View.ld x0 r0) (View.ld x1 r1) (View.ld x2 r2) (View.ld x3 r3) (View.ld x4 r4) (View.ld x5 r5) (View.ld x6 r6) (View.ld x7 r7)) (View.ld x8 r8)⟩]

/-- The store takes the buffer whole, so it covers it. -/
theorem cover9 (p0 : Vec F S18000x1 .f32) (y : S18000x1.Idx) :
    ∃ pc ∈ ([⟨r9, p0⟩] : List (View.Piece (Elt F) S18000x1 .f32)), y ∈ pc.1.set :=
  View.cover_of_tiled [⟨r9, p0⟩] S18000x1.size (by rfl) y

/-! ## The body's triple -/

set_option maxHeartbeats 1000000 in
/-- The body on whole staging buffers, the inputs' holding `x0 … x8` and the output's anything, runs to the
    continuation with the inputs' as they were and the output's at `out9` of them. -/
theorem sound_kernel (c : Dev nD) (E : Set ℕ) (i : grid0.Coords) (arg1 : Memref sig .tc .vmem S18000x36 .f32) (harg1 : arg1.IsWhole) (arg2 : Memref sig .tc .vmem S36x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S18000x1 .f32) (harg10 : arg10.IsWhole)
    (x0 : Vec F S18000x36 .f32) (x1 : Vec F S36x64 .f32) (x2 : Vec F S1x64 .f32) (x3 : Vec F S64x64 .f32) (x4 : Vec F S1x64 .f32) (x5 : Vec F S64x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The region's proof data -/

/-- On core `c`: the arrays as the region finds them; after the body at tile `t` each input's buffer at its block
    and the output's at `out9` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, faulting nowhere, with each of the region's arrays at what the
    tiles' write-backs leave over its contents at the region's entry and every other unscoped buffer as the two
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.RefRunOps.lean ====
/-
  The reference program's @main as a straight line of host operations.

  Every call of a module-local function is replaced by the callee's operations, in order, over the buffers of that
  call's record (a nested call's operations over the nested record's).  The line is cut in two at the three-operand
  concatenate that builds the feature matrix: what comes up to and including it (index arithmetic, gathers, the two
  running sums, the take, the concatenates), and what comes after it (four affine layers with three rectifiers between
  them, and the final change of shape).
-/
import proofs.«161627_j12979391169443_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The first sixty statements of @main, calls inlined: 64 operations. -/
abbrev opsHead : List (HloOp τ sig (Elt F)) :=
  ( StableHlo.unary main_arg3 main_v0 ((extractStridedSlice S60000 ![0] · slices_S60001_S60000_0) : (⟨S60001, .i32⟩ : BufTy).Contents (Elt F) → (⟨S60000, .i32⟩ : BufTy).Contents (Elt F))
  :: StableHlo.nullary main_c (constantI S_ 32 0#32)
  :: StableHlo.unary main_c main_v1 (broadcastInDim S60000 ![] bcast_S_S60000 : (⟨S_, .i32⟩ : BufTy).Contents (Elt F) → (⟨S60000, .i32⟩ : BufTy).Contents (Elt F))
  :: StableHlo.binary main_v0 main_v1 main_v2 (cmpi .slt : (⟨S60000, .i32⟩ : BufTy).Contents (Elt F) → (⟨S60000, .i32⟩ : BufTy).Contents (Elt F) → (⟨S60000, .i1⟩ : BufTy).Contents (Elt F))
  :: StableHlo.nullary main_c_0 (constantI S_ 32 600000#32)
  :: StableHlo.unary main_c_0 main_v3 (broadcastInDim S60000 ![] bcast_S_S60000 : (⟨S_, .i32⟩ : BufTy).Contents (Elt F) → (⟨S60000, .i32⟩ : BufTy).Contents (Elt F))
  :: StableHlo.binary main_v0 main_v3 main_v4 (addi : (⟨S60000, .i32⟩ : BufTy).Contents (Elt F) → (⟨S60000, .i32⟩ : BufTy).Contents (Elt F) → (⟨S60000, .i32⟩ : BufTy).Contents (Elt F))
  :: StableHlo.ternary main_v2 main_v4 main_v0 main_v5 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v5 main_v6 (broadcastInDim S60000x1 ![0] bcast_S60000_S60000x1_0 : (⟨S60000, .i32⟩ : BufTy).Contents (Elt F) → (⟨S60000x1, .i32⟩ : BufTy).Contents (Elt F))
  :: StableHlo.nullary main_c_1 (constantI S_ 32 0#32)
  :: StableHlo.unary main_c_1 main_v7 (broadcastInDim S60000x1 ![] bcast_S_S60000x1 : (⟨S_, .i32⟩ : BufTy).Contents (Elt F) → (⟨S60000x1, .i32⟩ : BufTy).Contents (Elt F))
  :: StableHlo.binary main_v6 main_v7 main_v8 ((fun a b => concatenate S60000x2 1 [⟨S60000x1, a⟩, ⟨S60000x1, b⟩] concatenates_S60000x1_S60000x1_S60000x2_d1) : (⟨S60000x1, .i32⟩ : BufTy).Contents (Elt F) → (⟨S60000x1, .i32⟩ : BufTy).Contents (Elt F) → (⟨S60000x2, .i32⟩ : BufTy).Contents (Elt F))
  :: StableHlo.binary main_arg0 main_v8 main_v9 ((fun x i => Host.gather gather_S600000x5_S60000x2_S60000x3_1_0_n_n_01_1_13 x i) : (⟨S600000x5, .f32⟩ : BufTy).Contents (Elt F) → (⟨S60000x2, .i32⟩ : BufTy).Contents (Elt F) → (⟨S60000x3, .f32⟩ : BufTy).Contents (Elt F))
  :: StableHlo.nullary main_c_2 (constantI S_ 32 0#32)
  :: StableHlo.unary main_c_2 main_v10 (broadcastInDim S60000 ![] bcast_S_S60000 : (⟨S_, .i32⟩ : BufTy).Contents (Elt F) → (⟨S60000, .i32⟩ : BufTy).Contents (Elt F))
  :: StableHlo.binary main_arg4 main_v10 main_v11 (cmpi .slt : (⟨S60000, .i32⟩ : BufTy).Contents (Elt F) → (⟨S60000, .i32⟩ : BufTy).Contents (Elt F) → (⟨S60000, .i1⟩ : BufTy).Contents (Elt F))
  :: StableHlo.nullary main_c_3 (constantI S_ 32 60000#32)
  :: StableHlo.unary main_c_3 main_v12 (broadcastInDim S60000 ![] bcast_S_S60000 : (⟨S_, .i32⟩ : BufTy).Contents (Elt F) → (⟨S60000, .i32⟩ : BufTy).Contents (Elt F))
  :: StableHlo.binary main_arg4 main_v12 main_v13 (addi : (⟨S60000, .i32⟩ : BufTy).Contents (Elt F) → (⟨S60000, .i32⟩ : BufTy).Contents (Elt F) → (⟨S60000, .i32⟩ : BufTy).Contents (Elt F))
  :: StableHlo.ternary main_v11 main_v13 main_arg4 main_v14 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v14 main_v15 (broadcastInDim S60000x1 ![0] bcast_S60000_S60000x1_0 : (⟨S60000, .i32⟩ : BufTy).Contents (Elt F) → (⟨S60000x1, .i32⟩ : BufTy).Contents (Elt F))
  :: StableHlo.binary main_v9 main_v15 main_v16 ((fun x i => Host.gather gather_S60000x3_S60000x1_S60000x3_1_0_n_n_0_1_13 x i) : (⟨S60000x3, .f32⟩ : BufTy).Contents (Elt F) → (⟨S60000x1, .i32⟩ : BufTy).Contents (Elt F) → (⟨S60000x3, .f32⟩ : BufTy).Contents (Elt F))
  :: StableHlo.nullary main_c_4 (constantI S_ 32 0#32)
  :: StableHlo.unary main_c_4 main_v17 (broadcastInDim S60000 ![] bcast_S_S60000 : (⟨S_, .i32⟩ : BufTy).Contents (Elt F) → (⟨S60000, .i32⟩ : BufTy).Contents (Elt F))
  :: StableHlo.binary main_arg4 main_v17 main_v18 (cmpi .slt : (⟨S60000, .i32⟩ : BufTy).Contents (Elt F) → (⟨S60000, .i32⟩ : BufTy).Contents (Elt F) → (⟨S60000, .i1⟩ : BufTy).Contents (Elt F))
  :: StableHlo.nullary main_c_5 (constantI S_ 32 60000#32)
  :: StableHlo.unary main_c_5 main_v19 (broadcastInDim S60000 ![] bcast_S_S60000 : (⟨S_, .i32⟩ : BufTy).Contents (Elt F) → (⟨S60000, .i32⟩ : BufTy).Contents (Elt F))
  :: StableHlo.binary main_arg4 main_v19 main_v20 (addi : (⟨S60000, .i32⟩ : BufTy).Contents (Elt F) → (⟨S60000, .i32⟩ : BufTy).Contents (Elt F) → (⟨S60000, .i32⟩ : BufTy).Contents (Elt F))
  :: StableHlo.ternary main_v18 main_v20 main_arg4 main_v21 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v21 main_v22 (broadcastInDim S60000x1 ![0] bcast_S60000_S60000x1_0 : (⟨S60000, .i32⟩ : BufTy).Contents (Elt F) → (⟨S60000x1, .i32⟩ : BufTy).Contents (Elt F))
  :: StableHlo.binary main_arg1 main_v22 main_v23 ((fun x i => Host.gather gather_S60000x16_S60000x1_S60000x16_1_0_n_n_0_1_116 x i) : (⟨S60000x16, .f32⟩ : BufTy).Contents (Elt F) → (⟨S60000x1, .i32⟩ : BufTy).Contents (Elt F) → (⟨S60000x16, .f32⟩ : BufTy).Contents (Elt F))
  :: StableHlo.binary main_v16 main_v23 main_v24 ((fun a b => concatenate S60000x19 1 [⟨S60000x3, a⟩, ⟨S60000x16, b⟩] concatenates_S60000x3_S60000x16_S60000x19_d1) : (⟨S60000x3, .f32⟩ : BufTy).Contents (Elt F) → (⟨S60000x16, .f32⟩ : BufTy).Contents (Elt F) → (⟨S60000x19, .f32⟩ : BufTy).Contents (Elt F))
  :: StableHlo.nullary main_c_6 (constantI S_ 32 0#32)
  :: StableHlo.unary main_c_6 main_v25 (broadcastInDim S60000 ![] bcast_S_S60000 : (⟨S_, .i32⟩ : BufTy).Contents (Elt F) → (⟨S60000, .i32⟩ : BufTy).Contents (Elt F))
  :: StableHlo.binary main_arg4 main_v25 main_v26 (cmpi .slt : (⟨S60000, .i32⟩ : BufTy).Contents (Elt F) → (⟨S60000, .i32⟩ : BufTy).Contents (Elt F) → (⟨S60000, .i1⟩ : BufTy).Contents (Elt F))
  :: StableHlo.nullary main_c_7 (constantI S_ 32 60000#32)
  :: StableHlo.unary main_c_7 main_v27 (broadcastInDim S60000 ![] bcast_S_S60000 : (⟨S_, .i32⟩ : BufTy).Contents (Elt F) → (⟨S60000, .i32⟩ : BufTy).Contents (Elt F))
  :: StableHlo.binary main_arg4 main_v27 main_v28 (addi : (⟨S60000, .i32⟩ : BufTy).Contents (Elt F) → (⟨S60000, .i32⟩ : BufTy).Contents (Elt F) → (⟨S60000, .i32⟩ : BufTy).Contents (Elt F))
  :: StableHlo.ternary main_v26 main_v28 main_arg4 main_v29 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v29 main_v30 (broadcastInDim S60000x1 ![0] bcast_S60000_S60000x1_0 : (⟨S60000, .i32⟩ : BufTy).Contents (Elt F) → (⟨S60000x1, .i32⟩ : BufTy).Contents (Elt F))
  :: StableHlo.binary main_arg5 main_v30 main_v31 ((fun x i => Host.gather gather_S60000_S60000x1_S60000_n_0_n_n_0_1_1 x i) : (⟨S60000, .i32⟩ : BufTy).Contents (Elt F) → (⟨S60000x1, .i32⟩ : BufTy).Contents (Elt F) → (⟨S60000, .i32⟩ : BufTy).Contents (Elt F))
  :: StableHlo.nullary main_v32 (iotaInDim S60000 32 0)
  :: StableHlo.TRef.unary (.of main_v31 : StableHlo.TRef sig ⟨S60000, .i32⟩) main_call0.v0 (extractStridedSlice S1 ![59999] · slices_S60000_S1_59999)
  :: StableHlo.TRef.unary (.of main_v31 : StableHlo.TRef sig ⟨S60000, .i32⟩) main_call0.v1 (extractStridedSlice S59999 ![0] · slices_S60000_S59999_0)
  :: StableHlo.TRef.binary main_call0.v0 main_call0.v1 main_call0.v2 (fun a b => concatenate S60000 0 [⟨S1, a⟩, ⟨S59999, b⟩] concatenates_S1_S59999_S60000_d0)
  :: StableHlo.nullary main_c_8 (constantI S_ 32 0#32)
  :: StableHlo.unary main_c_8 main_v34 (broadcastInDim S1 ![] bcast_S_S1 : (⟨S_, .i32⟩ : BufTy).Contents (Elt F) → (⟨S1, .i32⟩ : BufTy).Contents (Elt F))
  :: StableHlo.nullary main_c_9 (constantI S_ 32 0#32)
  :: StableHlo.ternary main_v33 main_v34 main_c_9 main_v35 ((fun x i u => Host.scatter scatter_S60000_S1_S__n_0_0_0 (fun _ b => b) x i u) : (⟨S60000, .i32⟩ : BufTy).Contents (Elt F) → (⟨S1, .i32⟩ : BufTy).Contents (Elt F) → (⟨S_, .i32⟩ : BufTy).Contents (Elt F) → (⟨S60000, .i32⟩ : BufTy).Contents (Elt F))
  :: StableHlo.TRef.nullary main_call1.call0.c (constantI S_ 32 0#32)
  :: StableHlo.TRef.unary main_call1.call0.c main_call1.call0.v0 (broadcastInDim S_ ![] bcast_S_S_)
  :: StableHlo.TRef.binary (.of main_v35 : StableHlo.TRef sig ⟨S60000, .i32⟩) main_call1.call0.v0 main_call1.call0.v1 (fun x v => Host.reduceWindow IntOp.addi ![60000] ![1] ![59999] ![0] x v reduceWindows_S60000_S60000_w60000s1p59999_0 h_S_)
  :: StableHlo.nullary main_c_10 (constantI S_ 32 0#32)
  :: StableHlo.unary main_c_10 main_v37 (broadcastInDim S1529505 ![] bcast_S_S1529505 : (⟨S_, .i32⟩ : BufTy).Contents (Elt F) → (⟨S1529505, .i32⟩ : BufTy).Contents (Elt F))
  :: StableHlo.nullary main_c_11 (constantI S_ 32 0#32)
  :: StableHlo.unary main_c_11 main_v38 (broadcastInDim S60000 ![] bcast_S_S60000 : (⟨S_, .i32⟩ : BufTy).Contents (Elt F) → (⟨S60000, .i32⟩ : BufTy).Contents (Elt F))
  :: StableHlo.binary main_v36 main_v38 main_v39 (cmpi .slt : (⟨S60000, .i32⟩ : BufTy).Contents (Elt F) → (⟨S60000, .i32⟩ : BufTy).Contents (Elt F) → (⟨S60000, .i1⟩ : BufTy).Contents (Elt F))
  :: StableHlo.nullary main_c_12 (constantI S_ 32 1529505#32)
  :: StableHlo.unary main_c_12 main_v40 (broadcastInDim S60000 ![] bcast_S_S60000 : (⟨S_, .i32⟩ : BufTy).Contents (Elt F) → (⟨S60000, .i32⟩ : BufTy).Contents (Elt F))
  :: StableHlo.binary main_v36 main_v40 main_v41 (addi : (⟨S60000, .i32⟩ : BufTy).Contents (Elt F) → (⟨S60000, .i32⟩ : BufTy).Contents (Elt F) → (⟨S60000, .i32⟩ : BufTy).Contents (Elt F))
  :: StableHlo.ternary main_v39 main_v41 main_v36 main_v42 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v42 main_v43 (broadcastInDim S60000x1 ![0] bcast_S60000_S60000x1_0 : (⟨S60000, .i32⟩ : BufTy).Contents (Elt F) → (⟨S60000x1, .i32⟩ : BufTy).Contents (Elt F))
  :: StableHlo.nullary main_c_13 (constantI S_ 32 1#32)
  :: StableHlo.unary main_c_13 main_v44 (broadcastInDim S60000 ![] bcast_S_S60000 : (⟨S_, .i32⟩ : BufTy).Contents (Elt F) → (⟨S60000, .i32⟩ : BufTy).Contents (Elt F))
  :: [] )

/-- The statements after them up to and including the concatenate of the three feature blocks, calls inlined:
    53 operations. -/
abbrev opsMid : List (HloOp τ sig (Elt F)) :=
  ( StableHlo.ternary main_v37 main_v43 main_v44 main_v45 ((fun x i u => Host.scatter scatter_S1529505_S60000x1_S60000_n_0_0_1 IntOp.addi x i u) : (⟨S1529505, .i32⟩ : BufTy).Contents (Elt F) → (⟨S60000x1, .i32⟩ : BufTy).Contents (Elt F) → (⟨S60000, .i32⟩ : BufTy).Contents (Elt F) → (⟨S1529505, .i32⟩ : BufTy).Contents (Elt F))
  :: StableHlo.TRef.nullary main_call2.call0.c (constantI S_ 32 0#32)
  :: StableHlo.TRef.unary main_call2.call0.c main_call2.call0.v0 (broadcastInDim S_ ![] bcast_S_S_)
  :: StableHlo.TRef.binary (.of main_v45 : StableHlo.TRef sig ⟨S1529505, .i32⟩) main_call2.call0.v0 main_call2.call0.v1 (fun x v => Host.reduceWindow IntOp.addi ![1529505] ![1] ![1529504] ![0] x v reduceWindows_S1529505_S1529505_w1529505s1p1529504_0 h_S_)
  :: StableHlo.nullary main_c_14 (constantI S_ 32 1#32)
  :: StableHlo.unary main_c_14 main_v47 (broadcastInDim S1529505 ![] bcast_S_S1529505 : (⟨S_, .i32⟩ : BufTy).Contents (Elt F) → (⟨S1529505, .i32⟩ : BufTy).Contents (Elt F))
  :: StableHlo.binary main_v46 main_v47 main_v48 (subi : (⟨S1529505, .i32⟩ : BufTy).Contents (Elt F) → (⟨S1529505, .i32⟩ : BufTy).Contents (Elt F) → (⟨S1529505, .i32⟩ : BufTy).Contents (Elt F))
  :: StableHlo.TRef.nullary main_call3.c (constantI S_ 32 0#32)
  :: StableHlo.TRef.unary main_call3.c main_call3.v0 (broadcastInDim S1529505 ![] bcast_S_S1529505)
  :: StableHlo.TRef.binary (.of main_v48 : StableHlo.TRef sig ⟨S1529505, .i32⟩) main_call3.v0 main_call3.v1 (cmpi .slt)
  :: StableHlo.TRef.nullary main_call3.c_0 (constantI S_ 32 60000#32)
  :: StableHlo.TRef.unary main_call3.c_0 main_call3.v2 (broadcastInDim S1529505 ![] bcast_S_S1529505)
  :: StableHlo.TRef.binary (.of main_v48 : StableHlo.TRef sig ⟨S1529505, .i32⟩) main_call3.v2 main_call3.v3 addi
  :: StableHlo.TRef.ternary main_call3.v1 main_call3.v3 (.of main_v48 : StableHlo.TRef sig ⟨S1529505, .i32⟩) main_call3.call0.v0 select
  :: StableHlo.TRef.unary main_call3.call0.v0 main_call3.v5 (broadcastInDim S1529505x1 ![0] bcast_S1529505_S1529505x1_0)
  :: StableHlo.TRef.nullary main_call3.c_1 (constantI S1 32 59999#32)
  :: StableHlo.TRef.nullary main_call3.c_2 (constantI S_ 32 0#32)
  :: StableHlo.TRef.unary main_call3.c_2 main_call3.v6 (broadcastInDim S1529505x1 ![] bcast_S_S1529505x1)
  :: StableHlo.TRef.binary main_call3.v5 main_call3.v6 main_call3.v7 (cmpi .sge)
  :: StableHlo.TRef.unary main_call3.c_1 main_call3.v8 (broadcastInDim S1x1 ![1] bcast_S1_S1x1_1)
  :: StableHlo.TRef.unary main_call3.v8 main_call3.v9 (broadcastInDim S1529505x1 ![0, 1] bcast_S1x1_S1529505x1_0_1)
  :: StableHlo.TRef.binary main_call3.v5 main_call3.v9 main_call3.v10 (cmpi .sle)
  :: StableHlo.TRef.binary main_call3.v7 main_call3.v10 main_call3.v11 andi
  :: StableHlo.TRef.nullary main_call3.c_3 (constantI S_ 1 1#1)
  :: StableHlo.TRef.binary main_call3.v11 main_call3.c_3 main_call3.v12 (fun x v => Host.reduce IntOp.andi x v reducesTo_S1529505x1_S1529505_d1 h_S_)
  :: StableHlo.TRef.binary (.of main_v32 : StableHlo.TRef sig ⟨S60000, .i32⟩) main_call3.v5 main_call3.v13 (fun x i => Host.gather gather_S60000_S1529505x1_S1529505_n_0_n_n_0_1_1 x i)
  :: StableHlo.TRef.nullary main_call3.c_4 (constantI S_ 32 2147483648#32)
  :: StableHlo.TRef.unary main_call3.c_4 main_call3.v14 (broadcastInDim S1529505 ![] bcast_S_S1529505)
  :: StableHlo.TRef.ternary main_call3.v12 main_call3.v13 main_call3.v14 main_call3.v15 select
  :: StableHlo.nullary main_c_15 (constantI S_ 32 0#32)
  :: StableHlo.unary main_c_15 main_v50 (broadcastInDim S1529505 ![] bcast_S_S1529505 : (⟨S_, .i32⟩ : BufTy).Contents (Elt F) → (⟨S1529505, .i32⟩ : BufTy).Contents (Elt F))
  :: StableHlo.binary main_v49 main_v50 main_v51 (cmpi .slt : (⟨S1529505, .i32⟩ : BufTy).Contents (Elt F) → (⟨S1529505, .i32⟩ : BufTy).Contents (Elt F) → (⟨S1529505, .i1⟩ : BufTy).Contents (Elt F))
  :: StableHlo.nullary main_c_16 (constantI S_ 32 60000#32)
  :: StableHlo.unary main_c_16 main_v52 (broadcastInDim S1529505 ![] bcast_S_S1529505 : (⟨S_, .i32⟩ : BufTy).Contents (Elt F) → (⟨S1529505, .i32⟩ : BufTy).Contents (Elt F))
  :: StableHlo.binary main_v49 main_v52 main_v53 (addi : (⟨S1529505, .i32⟩ : BufTy).Contents (Elt F) → (⟨S1529505, .i32⟩ : BufTy).Contents (Elt F) → (⟨S1529505, .i32⟩ : BufTy).Contents (Elt F))
  :: StableHlo.ternary main_v51 main_v53 main_v49 main_v54 (select : (⟨S1529505, .i1⟩ : BufTy).Contents (Elt F) → (⟨S1529505, .i32⟩ : BufTy).Contents (Elt F) → (⟨S1529505, .i32⟩ : BufTy).Contents (Elt F) → (⟨S1529505, .i32⟩ : BufTy).Contents (Elt F))
  :: StableHlo.unary main_v54 main_v55 (broadcastInDim S1529505x1 ![0] bcast_S1529505_S1529505x1_0 : (⟨S1529505, .i32⟩ : BufTy).Contents (Elt F) → (⟨S1529505x1, .i32⟩ : BufTy).Contents (Elt F))
  :: StableHlo.binary main_v24 main_v55 main_v56 ((fun x i => Host.gather gather_S60000x19_S1529505x1_S1529505x19_1_0_n_n_0_1_119 x i) : (⟨S60000x19, .f32⟩ : BufTy).Contents (Elt F) → (⟨S1529505x1, .i32⟩ : BufTy).Contents (Elt F) → (⟨S1529505x19, .f32⟩ : BufTy).Contents (Elt F))
  :: StableHlo.nullary main_c_17 (constantI S_ 32 0#32)
  :: StableHlo.unary main_c_17 main_v57 (broadcastInDim S1529505 ![] bcast_S_S1529505 : (⟨S_, .i32⟩ : BufTy).Contents (Elt F) → (⟨S1529505, .i32⟩ : BufTy).Contents (Elt F))
  :: StableHlo.binary main_v49 main_v57 main_v58 (cmpi .slt : (⟨S1529505, .i32⟩ : BufTy).Contents (Elt F) → (⟨S1529505, .i32⟩ : BufTy).Contents (Elt F) → (⟨S1529505, .i1⟩ : BufTy).Contents (Elt F))
  :: StableHlo.nullary main_c_18 (constantI S_ 32 60000#32)
  :: StableHlo.unary main_c_18 main_v59 (broadcastInDim S1529505 ![] bcast_S_S1529505 : (⟨S_, .i32⟩ : BufTy).Contents (Elt F) → (⟨S1529505, .i32⟩ : BufTy).Contents (Elt F))
  :: StableHlo.binary main_v49 main_v59 main_v60 (addi : (⟨S1529505, .i32⟩ : BufTy).Contents (Elt F) → (⟨S1529505, .i32⟩ : BufTy).Contents (Elt F) → (⟨S1529505, .i32⟩ : BufTy).Contents (Elt F))
  :: StableHlo.ternary main_v58 main_v60 main_v49 main_v61 (select : (⟨S1529505, .i1⟩ : BufTy).Contents (Elt F) → (⟨S1529505, .i32⟩ : BufTy).Contents (Elt F) → (⟨S1529505, .i32⟩ : BufTy).Contents (Elt F) → (⟨S1529505, .i32⟩ : BufTy).Contents (Elt F))
  :: StableHlo.unary main_v61 main_v62 (broadcastInDim S1529505x1 ![0] bcast_S1529505_S1529505x1_0 : (⟨S1529505, .i32⟩ : BufTy).Contents (Elt F) → (⟨S1529505x1, .i32⟩ : BufTy).Contents (Elt F))
  :: StableHlo.binary main_arg2 main_v62 main_v63 ((fun x i => Host.gather gather_S60000x16_S1529505x1_S1529505x16_1_0_n_n_0_1_116 x i) : (⟨S60000x16, .f32⟩ : BufTy).Contents (Elt F) → (⟨S1529505x1, .i32⟩ : BufTy).Contents (Elt F) → (⟨S1529505x16, .f32⟩ : BufTy).Contents (Elt F))
  :: StableHlo.unary main_arg6 main_v64 (sitofp .f32 : (⟨S1529505, .i32⟩ : BufTy).Contents (Elt F) → (⟨S1529505, .f32⟩ : BufTy).Contents (Elt F))
  :: StableHlo.nullary main_cst (constant S_ .f32 0x42480000#32)
  :: StableHlo.unary main_cst main_v65 (broadcastInDim S1529505 ![] bcast_S_S1529505 : (⟨S_, .f32⟩ : BufTy).Contents (Elt F) → (⟨S1529505, .f32⟩ : BufTy).Contents (Elt F))
  :: StableHlo.binary main_v64 main_v65 main_v66 (Host.divf : (⟨S1529505, .f32⟩ : BufTy).Contents (Elt F) → (⟨S1529505, .f32⟩ : BufTy).Contents (Elt F) → (⟨S1529505, .f32⟩ : BufTy).Contents (Elt F))
  :: StableHlo.unary main_v66 main_v67 (broadcastInDim S1529505x1 ![0] bcast_S1529505_S1529505x1_0 : (⟨S1529505, .f32⟩ : BufTy).Contents (Elt F) → (⟨S1529505x1, .f32⟩ : BufTy).Contents (Elt F))
  :: StableHlo.nary ![main_v56, main_v63, main_v67] main_v68 (fun u => concatenate S1529505x36 1 [⟨S1529505x19, u 0⟩, ⟨S1529505x16, u 1⟩, ⟨S1529505x1, u 2⟩] concatenates_S1529505x19_S1529505x16_S1529505x1_S1529505x36_d1)
  :: [] )

/-- @main's operations in order, calls inlined, up to and including the concatenate of the three feature blocks. -/
abbrev opsPre : List (HloOp τ sig (Elt F)) :=
  ( StableHlo.unary main_arg3 main_v0 ((extractStridedSlice S60000 ![0] · slices_S60001_S60000_0) : (⟨S60001, .i32⟩ : BufTy).Contents (Elt F) → (⟨S60000, .i32⟩ : BufTy).Contents (Elt F))
  :: StableHlo.nullary main_c (constantI S_ 32 0#32)
  :: StableHlo.unary main_c main_v1 (broadcastInDim S60000 ![] bcast_S_S60000 : (⟨S_, .i32⟩ : BufTy).Contents (Elt F) → (⟨S60000, .i32⟩ : BufTy).Contents (Elt F))
  :: StableHlo.binary main_v0 main_v1 main_v2 (cmpi .slt : (⟨S60000, .i32⟩ : BufTy).Contents (Elt F) → (⟨S60000, .i32⟩ : BufTy).Contents (Elt F) → (⟨S60000, .i1⟩ : BufTy).Contents (Elt F))
  :: StableHlo.nullary main_c_0 (constantI S_ 32 600000#32)
  :: StableHlo.unary main_c_0 main_v3 (broadcastInDim S60000 ![] bcast_S_S60000 : (⟨S_, .i32⟩ : BufTy).Contents (Elt F) → (⟨S60000, .i32⟩ : BufTy).Contents (Elt F))
  :: StableHlo.binary main_v0 main_v3 main_v4 (addi : (⟨S60000, .i32⟩ : BufTy).Contents (Elt F) → (⟨S60000, .i32⟩ : BufTy).Contents (Elt F) → (⟨S60000, .i32⟩ : BufTy).Contents (Elt F))
  :: StableHlo.ternary main_v2 main_v4 main_v0 main_v5 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v5 main_v6 (broadcastInDim S60000x1 ![0] bcast_S60000_S60000x1_0 : (⟨S60000, .i32⟩ : BufTy).Contents (Elt F) → (⟨S60000x1, .i32⟩ : BufTy).Contents (Elt F))
  :: StableHlo.nullary main_c_1 (constantI S_ 32 0#32)
  :: StableHlo.unary main_c_1 main_v7 (broadcastInDim S60000x1 ![] bcast_S_S60000x1 : (⟨S_, .i32⟩ : BufTy).Contents (Elt F) → (⟨S60000x1, .i32⟩ : BufTy).Contents (Elt F))
  :: StableHlo.binary main_v6 main_v7 main_v8 ((fun a b => concatenate S60000x2 1 [⟨S60000x1, a⟩, ⟨S60000x1, b⟩] concatenates_S60000x1_S60000x1_S60000x2_d1) : (⟨S60000x1, .i32⟩ : BufTy).Contents (Elt F) → (⟨S60000x1, .i32⟩ : BufTy).Contents (Elt F) → (⟨S60000x2, .i32⟩ : BufTy).Contents (Elt F))
  :: StableHlo.binary main_arg0 main_v8 main_v9 ((fun x i => Host.gather gather_S600000x5_S60000x2_S60000x3_1_0_n_n_01_1_13 x i) : (⟨S600000x5, .f32⟩ : BufTy).Contents (Elt F) → (⟨S60000x2, .i32⟩ : BufTy).Contents (Elt F) → (⟨S60000x3, .f32⟩ : BufTy).Contents (Elt F))
  :: StableHlo.nullary main_c_2 (constantI S_ 32 0#32)
  :: StableHlo.unary main_c_2 main_v10 (broadcastInDim S60000 ![] bcast_S_S60000 : (⟨S_, .i32⟩ : BufTy).Contents (Elt F) → (⟨S60000, .i32⟩ : BufTy).Contents (Elt F))
  :: StableHlo.binary main_arg4 main_v10 main_v11 (cmpi .slt : (⟨S60000, .i32⟩ : BufTy).Contents (Elt F) → (⟨S60000, .i32⟩ : BufTy).Contents (Elt F) → (⟨S60000, .i1⟩ : BufTy).Contents (Elt F))
  :: StableHlo.nullary main_c_3 (constantI S_ 32 60000#32)
  :: StableHlo.unary main_c_3 main_v12 (broadcastInDim S60000 ![] bcast_S_S60000 : (⟨S_, .i32⟩ : BufTy).Contents (Elt F) → (⟨S60000, .i32⟩ : BufTy).Contents (Elt F))
  :: StableHlo.binary main_arg4 main_v12 main_v13 (addi : (⟨S60000, .i32⟩ : BufTy).Contents (Elt F) → (⟨S60000, .i32⟩ : BufTy).Contents (Elt F) → (⟨S60000, .i32⟩ : BufTy).Contents (Elt F))
  :: StableHlo.ternary main_v11 main_v13 main_arg4 main_v14 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v14 main_v15 (broadcastInDim S60000x1 ![0] bcast_S60000_S60000x1_0 : (⟨S60000, .i32⟩ : BufTy).Contents (Elt F) → (⟨S60000x1, .i32⟩ : BufTy).Contents (Elt F))
  :: StableHlo.binary main_v9 main_v15 main_v16 ((fun x i => Host.gather gather_S60000x3_S60000x1_S60000x3_1_0_n_n_0_1_13 x i) : (⟨S60000x3, .f32⟩ : BufTy).Contents (Elt F) → (⟨S60000x1, .i32⟩ : BufTy).Contents (Elt F) → (⟨S60000x3, .f32⟩ : BufTy).Contents (Elt F))
  :: StableHlo.nullary main_c_4 (constantI S_ 32 0#32)
  :: StableHlo.unary main_c_4 main_v17 (broadcastInDim S60000 ![] bcast_S_S60000 : (⟨S_, .i32⟩ : BufTy).Contents (Elt F) → (⟨S60000, .i32⟩ : BufTy).Contents (Elt F))
  :: StableHlo.binary main_arg4 main_v17 main_v18 (cmpi .slt : (⟨S60000, .i32⟩ : BufTy).Contents (Elt F) → (⟨S60000, .i32⟩ : BufTy).Contents (Elt F) → (⟨S60000, .i1⟩ : BufTy).Contents (Elt F))
  :: StableHlo.nullary main_c_5 (constantI S_ 32 60000#32)
  :: StableHlo.unary main_c_5 main_v19 (broadcastInDim S60000 ![] bcast_S_S60000 : (⟨S_, .i32⟩ : BufTy).Contents (Elt F) → (⟨S60000, .i32⟩ : BufTy).Contents (Elt F))
  :: StableHlo.binary main_arg4 main_v19 main_v20 (addi : (⟨S60000, .i32⟩ : BufTy).Contents (Elt F) → (⟨S60000, .i32⟩ : BufTy).Contents (Elt F) → (⟨S60000, .i32⟩ : BufTy).Contents (Elt F))
  :: StableHlo.ternary main_v18 main_v20 main_arg4 main_v21 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v21 main_v22 (broadcastInDim S60000x1 ![0] bcast_S60000_S60000x1_0 : (⟨S60000, .i32⟩ : BufTy).Contents (Elt F) → (⟨S60000x1, .i32⟩ : BufTy).Contents (Elt F))
  :: StableHlo.binary main_arg1 main_v22 main_v23 ((fun x i => Host.gather gather_S60000x16_S60000x1_S60000x16_1_0_n_n_0_1_116 x i) : (⟨S60000x16, .f32⟩ : BufTy).Contents (Elt F) → (⟨S60000x1, .i32⟩ : BufTy).Contents (Elt F) → (⟨S60000x16, .f32⟩ : BufTy).Contents (Elt F))
  :: StableHlo.binary main_v16 main_v23 main_v24 ((fun a b => concatenate S60000x19 1 [⟨S60000x3, a⟩, ⟨S60000x16, b⟩] concatenates_S60000x3_S60000x16_S60000x19_d1) : (⟨S60000x3, .f32⟩ : BufTy).Contents (Elt F) → (⟨S60000x16, .f32⟩ : BufTy).Contents (Elt F) → (⟨S60000x19, .f32⟩ : BufTy).Contents (Elt F))
  :: StableHlo.nullary main_c_6 (constantI S_ 32 0#32)
  :: StableHlo.unary main_c_6 main_v25 (broadcastInDim S60000 ![] bcast_S_S60000 : (⟨S_, .i32⟩ : BufTy).Contents (Elt F) → (⟨S60000, .i32⟩ : BufTy).Contents (Elt F))
  :: StableHlo.binary main_arg4 main_v25 main_v26 (cmpi .slt : (⟨S60000, .i32⟩ : BufTy).Contents (Elt F) → (⟨S60000, .i32⟩ : BufTy).Contents (Elt F) → (⟨S60000, .i1⟩ : BufTy).Contents (Elt F))
  :: StableHlo.nullary main_c_7 (constantI S_ 32 60000#32)
  :: StableHlo.unary main_c_7 main_v27 (broadcastInDim S60000 ![] bcast_S_S60000 : (⟨S_, .i32⟩ : BufTy).Contents (Elt F) → (⟨S60000, .i32⟩ : BufTy).Contents (Elt F))
  :: StableHlo.binary main_arg4 main_v27 main_v28 (addi : (⟨S60000, .i32⟩ : BufTy).Contents (Elt F) → (⟨S60000, .i32⟩ : BufTy).Contents (Elt F) → (⟨S60000, .i32⟩ : BufTy).Contents (Elt F))
  :: StableHlo.ternary main_v26 main_v28 main_arg4 main_v29 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v29 main_v30 (broadcastInDim S60000x1 ![0] bcast_S60000_S60000x1_0 : (⟨S60000, .i32⟩ : BufTy).Contents (Elt F) → (⟨S60000x1, .i32⟩ : BufTy).Contents (Elt F))
  :: StableHlo.binary main_arg5 main_v30 main_v31 ((fun x i => Host.gather gather_S60000_S60000x1_S60000_n_0_n_n_0_1_1 x i) : (⟨S60000, .i32⟩ : BufTy).Contents (Elt F) → (⟨S60000x1, .i32⟩ : BufTy).Contents (Elt F) → (⟨S60000, .i32⟩ : BufTy).Contents (Elt F))
  :: StableHlo.nullary main_v32 (iotaInDim S60000 32 0)
  :: StableHlo.TRef.unary (.of main_v31 : StableHlo.TRef sig ⟨S60000, .i32⟩) main_call0.v0 (extractStridedSlice S1 ![59999] · slices_S60000_S1_59999)
  :: StableHlo.TRef.unary (.of main_v31 : StableHlo.TRef sig ⟨S60000, .i32⟩) main_call0.v1 (extractStridedSlice S59999 ![0] · slices_S60000_S59999_0)
  :: StableHlo.TRef.binary main_call0.v0 main_call0.v1 main_call0.v2 (fun a b => concatenate S60000 0 [⟨S1, a⟩, ⟨S59999, b⟩] concatenates_S1_S59999_S60000_d0)
  :: StableHlo.nullary main_c_8 (constantI S_ 32 0#32)
  :: StableHlo.unary main_c_8 main_v34 (broadcastInDim S1 ![] bcast_S_S1 : (⟨S_, .i32⟩ : BufTy).Contents (Elt F) → (⟨S1, .i32⟩ : BufTy).Contents (Elt F))
  :: StableHlo.nullary main_c_9 (constantI S_ 32 0#32)
  :: StableHlo.ternary main_v33 main_v34 main_c_9 main_v35 ((fun x i u => Host.scatter scatter_S60000_S1_S__n_0_0_0 (fun _ b => b) x i u) : (⟨S60000, .i32⟩ : BufTy).Contents (Elt F) → (⟨S1, .i32⟩ : BufTy).Contents (Elt F) → (⟨S_, .i32⟩ : BufTy).Contents (Elt F) → (⟨S60000, .i32⟩ : BufTy).Contents (Elt F))
  :: StableHlo.TRef.nullary main_call1.call0.c (constantI S_ 32 0#32)
  :: StableHlo.TRef.unary main_call1.call0.c main_call1.call0.v0 (broadcastInDim S_ ![] bcast_S_S_)
  :: StableHlo.TRef.binary (.of main_v35 : StableHlo.TRef sig ⟨S60000, .i32⟩) main_call1.call0.v0 main_call1.call0.v1 (fun x v => Host.reduceWindow IntOp.addi ![60000] ![1] ![59999] ![0] x v reduceWindows_S60000_S60000_w60000s1p59999_0 h_S_)
  :: StableHlo.nullary main_c_10 (constantI S_ 32 0#32)
  :: StableHlo.unary main_c_10 main_v37 (broadcastInDim S1529505 ![] bcast_S_S1529505 : (⟨S_, .i32⟩ : BufTy).Contents (Elt F) → (⟨S1529505, .i32⟩ : BufTy).Contents (Elt F))
  :: StableHlo.nullary main_c_11 (constantI S_ 32 0#32)
  :: StableHlo.unary main_c_11 main_v38 (broadcastInDim S60000 ![] bcast_S_S60000 : (⟨S_, .i32⟩ : BufTy).Contents (Elt F) → (⟨S60000, .i32⟩ : BufTy).Contents (Elt F))
  :: StableHlo.binary main_v36 main_v38 main_v39 (cmpi .slt : (⟨S60000, .i32⟩ : BufTy).Contents (Elt F) → (⟨S60000, .i32⟩ : BufTy).Contents (Elt F) → (⟨S60000, .i1⟩ : BufTy).Contents (Elt F))
  :: StableHlo.nullary main_c_12 (constantI S_ 32 1529505#32)
  :: StableHlo.unary main_c_12 main_v40 (broadcastInDim S60000 ![] bcast_S_S60000 : (⟨S_, .i32⟩ : BufTy).Contents (Elt F) → (⟨S60000, .i32⟩ : BufTy).Contents (Elt F))
  :: StableHlo.binary main_v36 main_v40 main_v41 (addi : (⟨S60000, .i32⟩ : BufTy).Contents (Elt F) → (⟨S60000, .i32⟩ : BufTy).Contents (Elt F) → (⟨S60000, .i32⟩ : BufTy).Contents (Elt F))
  :: StableHlo.ternary main_v39 main_v41 main_v36 main_v42 (select : (⟨S60000, .i1⟩ : BufTy).Contents (Elt F) → (⟨S60000, .i32⟩ : BufTy).Contents (Elt F) → (⟨S60000, .i32⟩ : BufTy).Contents (Elt F) → (⟨S60000, .i32⟩ : BufTy).Contents (Elt F))
  :: StableHlo.unary main_v42 main_v43 (broadcastInDim S60000x1 ![0] bcast_S60000_S60000x1_0 : (⟨S60000, .i32⟩ : BufTy).Contents (Elt F) → (⟨S60000x1, .i32⟩ : BufTy).Contents (Elt F))
  :: StableHlo.nullary main_c_13 (constantI S_ 32 1#32)
  :: StableHlo.unary main_c_13 main_v44 (broadcastInDim S60000 ![] bcast_S_S60000 : (⟨S_, .i32⟩ : BufTy).Contents (Elt F) → (⟨S60000, .i32⟩ : BufTy).Contents (Elt F))
  :: StableHlo.ternary main_v37 main_v43 main_v44 main_v45 ((fun x i u => Host.scatter scatter_S1529505_S60000x1_S60000_n_0_0_1 IntOp.addi x i u) : (⟨S1529505, .i32⟩ : BufTy).Contents (Elt F) → (⟨S60000x1, .i32⟩ : BufTy).Contents (Elt F) → (⟨S60000, .i32⟩ : BufTy).Contents (Elt F) → (⟨S1529505, .i32⟩ : BufTy).Contents (Elt F))
  :: StableHlo.TRef.nullary main_call2.call0.c (constantI S_ 32 0#32)
  :: StableHlo.TRef.unary main_call2.call0.c main_call2.call0.v0 (broadcastInDim S_ ![] bcast_S_S_)
  :: StableHlo.TRef.binary (.of main_v45 : StableHlo.TRef sig ⟨S1529505, .i32⟩) main_call2.call0.v0 main_call2.call0.v1 (fun x v => Host.reduceWindow IntOp.addi ![1529505] ![1] ![1529504] ![0] x v reduceWindows_S1529505_S1529505_w1529505s1p1529504_0 h_S_)
  :: StableHlo.nullary main_c_14 (constantI S_ 32 1#32)
  :: StableHlo.unary main_c_14 main_v47 (broadcastInDim S1529505 ![] bcast_S_S1529505 : (⟨S_, .i32⟩ : BufTy).Contents (Elt F) → (⟨S1529505, .i32⟩ : BufTy).Contents (Elt F))
  :: StableHlo.binary main_v46 main_v47 main_v48 (subi : (⟨S1529505, .i32⟩ : BufTy).Contents (Elt F) → (⟨S1529505, .i32⟩ : BufTy).Contents (Elt F) → (⟨S1529505, .i32⟩ : BufTy).Contents (Elt F))
  :: StableHlo.TRef.nullary main_call3.c (constantI S_ 32 0#32)
  :: StableHlo.TRef.unary main_call3.c main_call3.v0 (broadcastInDim S1529505 ![] bcast_S_S1529505)
  :: StableHlo.TRef.binary (.of main_v48 : StableHlo.TRef sig ⟨S1529505, .i32⟩) main_call3.v0 main_call3.v1 (cmpi .slt)
  :: StableHlo.TRef.nullary main_call3.c_0 (constantI S_ 32 60000#32)
  :: StableHlo.TRef.unary main_call3.c_0 main_call3.v2 (broadcastInDim S1529505 ![] bcast_S_S1529505)
  :: StableHlo.TRef.binary (.of main_v48 : StableHlo.TRef sig ⟨S1529505, .i32⟩) main_call3.v2 main_call3.v3 addi
  :: StableHlo.TRef.ternary main_call3.v1 main_call3.v3 (.of main_v48 : StableHlo.TRef sig ⟨S1529505, .i32⟩) main_call3.call0.v0 select
  :: StableHlo.TRef.unary main_call3.call0.v0 main_call3.v5 (broadcastInDim S1529505x1 ![0] bcast_S1529505_S1529505x1_0)
  :: StableHlo.TRef.nullary main_call3.c_1 (constantI S1 32 59999#32)
  :: StableHlo.TRef.nullary main_call3.c_2 (constantI S_ 32 0#32)
  :: StableHlo.TRef.unary main_call3.c_2 main_call3.v6 (broadcastInDim S1529505x1 ![] bcast_S_S1529505x1)
  :: StableHlo.TRef.binary main_call3.v5 main_call3.v6 main_call3.v7 (cmpi .sge)
  :: StableHlo.TRef.unary main_call3.c_1 main_call3.v8 (broadcastInDim S1x1 ![1] bcast_S1_S1x1_1)
  :: StableHlo.TRef.unary main_call3.v8 main_call3.v9 (broadcastInDim S1529505x1 ![0, 1] bcast_S1x1_S1529505x1_0_1)
  :: StableHlo.TRef.binary main_call3.v5 main_call3.v9 main_call3.v10 (cmpi .sle)
  :: StableHlo.TRef.binary main_call3.v7 main_call3.v10 main_call3.v11 andi
  :: StableHlo.TRef.nullary main_call3.c_3 (constantI S_ 1 1#1)
  :: StableHlo.TRef.binary main_call3.v11 main_call3.c_3 main_call3.v12 (fun x v => Host.reduce IntOp.andi x v reducesTo_S1529505x1_S1529505_d1 h_S_)
  :: StableHlo.TRef.binary (.of main_v32 : StableHlo.TRef sig ⟨S60000, .i32⟩) main_call3.v5 main_call3.v13 (fun x i => Host.gather gather_S60000_S1529505x1_S1529505_n_0_n_n_0_1_1 x i)
  :: StableHlo.TRef.nullary main_call3.c_4 (constantI S_ 32 2147483648#32)
  :: StableHlo.TRef.unary main_call3.c_4 main_call3.v14 (broadcastInDim S1529505 ![] bcast_S_S1529505)
  :: StableHlo.TRef.ternary main_call3.v12 main_call3.v13 main_call3.v14 main_call3.v15 select
  :: StableHlo.nullary main_c_15 (constantI S_ 32 0#32)
  :: StableHlo.unary main_c_15 main_v50 (broadcastInDim S1529505 ![] bcast_S_S1529505 : (⟨S_, .i32⟩ : BufTy).Contents (Elt F) → (⟨S1529505, .i32⟩ : BufTy).Contents (Elt F))
  :: StableHlo.binary main_v49 main_v50 main_v51 (cmpi .slt : (⟨S1529505, .i32⟩ : BufTy).Contents (Elt F) → (⟨S1529505, .i32⟩ : BufTy).Contents (Elt F) → (⟨S1529505, .i1⟩ : BufTy).Contents (Elt F))
  :: StableHlo.nullary main_c_16 (constantI S_ 32 60000#32)
  :: StableHlo.unary main_c_16 main_v52 (broadcastInDim S1529505 ![] bcast_S_S1529505 : (⟨S_, .i32⟩ : BufTy).Contents (Elt F) → (⟨S1529505, .i32⟩ : BufTy).Contents (Elt F))
  :: StableHlo.binary main_v49 main_v52 main_v53 (addi : (⟨S1529505, .i32⟩ : BufTy).Contents (Elt F) → (⟨S1529505, .i32⟩ : BufTy).Contents (Elt F) → (⟨S1529505, .i32⟩ : BufTy).Contents (Elt F))
  :: StableHlo.ternary main_v51 main_v53 main_v49 main_v54 (select : (⟨S1529505, .i1⟩ : BufTy).Contents (Elt F) → (⟨S1529505, .i32⟩ : BufTy).Contents (Elt F) → (⟨S1529505, .i32⟩ : BufTy).Contents (Elt F) → (⟨S1529505, .i32⟩ : BufTy).Contents (Elt F))
  :: StableHlo.unary main_v54 main_v55 (broadcastInDim S1529505x1 ![0] bcast_S1529505_S1529505x1_0 : (⟨S1529505, .i32⟩ : BufTy).Contents (Elt F) → (⟨S1529505x1, .i32⟩ : BufTy).Contents (Elt F))
  :: StableHlo.binary main_v24 main_v55 main_v56 ((fun x i => Host.gather gather_S60000x19_S1529505x1_S1529505x19_1_0_n_n_0_1_119 x i) : (⟨S60000x19, .f32⟩ : BufTy).Contents (Elt F) → (⟨S1529505x1, .i32⟩ : BufTy).Contents (Elt F) → (⟨S1529505x19, .f32⟩ : BufTy).Contents (Elt F))
  :: StableHlo.nullary main_c_17 (constantI S_ 32 0#32)
  :: StableHlo.unary main_c_17 main_v57 (broadcastInDim S1529505 ![] bcast_S_S1529505 : (⟨S_, .i32⟩ : BufTy).Contents (Elt F) → (⟨S1529505, .i32⟩ : BufTy).Contents (Elt F))
  :: StableHlo.binary main_v49 main_v57 main_v58 (cmpi .slt : (⟨S1529505, .i32⟩ : BufTy).Contents (Elt F) → (⟨S1529505, .i32⟩ : BufTy).Contents (Elt F) → (⟨S1529505, .i1⟩ : BufTy).Contents (Elt F))
  :: StableHlo.nullary main_c_18 (constantI S_ 32 60000#32)
  :: StableHlo.unary main_c_18 main_v59 (broadcastInDim S1529505 ![] bcast_S_S1529505 : (⟨S_, .i32⟩ : BufTy).Contents (Elt F) → (⟨S1529505, .i32⟩ : BufTy).Contents (Elt F))
  :: StableHlo.binary main_v49 main_v59 main_v60 (addi : (⟨S1529505, .i32⟩ : BufTy).Contents (Elt F) → (⟨S1529505, .i32⟩ : BufTy).Contents (Elt F) → (⟨S1529505, .i32⟩ : BufTy).Contents (Elt F))
  :: StableHlo.ternary main_v58 main_v60 main_v49 main_v61 (select : (⟨S1529505, .i1⟩ : BufTy).Contents (Elt F) → (⟨S1529505, .i32⟩ : BufTy).Contents (Elt F) → (⟨S1529505, .i32⟩ : BufTy).Contents (Elt F) → (⟨S1529505, .i32⟩ : BufTy).Contents (Elt F))
  :: StableHlo.unary main_v61 main_v62 (broadcastInDim S1529505x1 ![0] bcast_S1529505_S1529505x1_0 : (⟨S1529505, .i32⟩ : BufTy).Contents (Elt F) → (⟨S1529505x1, .i32⟩ : BufTy).Contents (Elt F))
  :: StableHlo.binary main_arg2 main_v62 main_v63 ((fun x i => Host.gather gather_S60000x16_S1529505x1_S1529505x16_1_0_n_n_0_1_116 x i) : (⟨S60000x16, .f32⟩ : BufTy).Contents (Elt F) → (⟨S1529505x1, .i32⟩ : BufTy).Contents (Elt F) → (⟨S1529505x16, .f32⟩ : BufTy).Contents (Elt F))
  :: StableHlo.unary main_arg6 main_v64 (sitofp .f32 : (⟨S1529505, .i32⟩ : BufTy).Contents (Elt F) → (⟨S1529505, .f32⟩ : BufTy).Contents (Elt F))
  :: StableHlo.nullary main_cst (constant S_ .f32 0x42480000#32)
  :: StableHlo.unary main_cst main_v65 (broadcastInDim S1529505 ![] bcast_S_S1529505 : (⟨S_, .f32⟩ : BufTy).Contents (Elt F) → (⟨S1529505, .f32⟩ : BufTy).Contents (Elt F))
  :: StableHlo.binary main_v64 main_v65 main_v66 (Host.divf : (⟨S1529505, .f32⟩ : BufTy).Contents (Elt F) → (⟨S1529505, .f32⟩ : BufTy).Contents (Elt F) → (⟨S1529505, .f32⟩ : BufTy).Contents (Elt F))
  :: StableHlo.unary main_v66 main_v67 (broadcastInDim S1529505x1 ![0] bcast_S1529505_S1529505x1_0 : (⟨S1529505, .f32⟩ : BufTy).Contents (Elt F) → (⟨S1529505x1, .f32⟩ : BufTy).Contents (Elt F))
  :: StableHlo.nary ![main_v56, main_v63, main_v67] main_v68 (fun u => concatenate S1529505x36 1 [⟨S1529505x19, u 0⟩, ⟨S1529505x16, u 1⟩, ⟨S1529505x1, u 2⟩] concatenates_S1529505x19_S1529505x16_S1529505x1_S1529505x36_d1)
  :: [] )

/-- The rest of @main: the four affine layers, the rectifiers between them, and the final change of shape. -/
abbrev opsMlp : List (HloOp τ sig (Elt F)) :=
  ( StableHlo.binary main_v68 main_arg7 main_v69 ((fun l r => Host.dotGeneral dot_S1529505x36_S36x64_S1529505x64_1_0_0_1_n_n none l r) : (⟨S1529505x36, .f32⟩ : BufTy).Contents (Elt F) → (⟨S36x64, .f32⟩ : BufTy).Contents (Elt F) → (⟨S1529505x64, .f32⟩ : BufTy).Contents (Elt F))
  :: StableHlo.unary main_arg8 main_v70 (broadcastInDim S1x64 ![1] bcast_S64_S1x64_1 : (⟨S64, .f32⟩ : BufTy).Contents (Elt F) → (⟨S1x64, .f32⟩ : BufTy).Contents (Elt F))
  :: StableHlo.unary main_v70 main_v71 (broadcastInDim S1529505x64 ![0, 1] bcast_S1x64_S1529505x64_0_1 : (⟨S1x64, .f32⟩ : BufTy).Contents (Elt F) → (⟨S1529505x64, .f32⟩ : BufTy).Contents (Elt F))
  :: StableHlo.binary main_v69 main_v71 main_v72 (addf : (⟨S1529505x64, .f32⟩ : BufTy).Contents (Elt F) → (⟨S1529505x64, .f32⟩ : BufTy).Contents (Elt F) → (⟨S1529505x64, .f32⟩ : BufTy).Contents (Elt F))
  :: StableHlo.TRef.nullary main_call4.cst (constant S_ .f32 0x00000000#32)
  :: StableHlo.TRef.unary main_call4.cst main_call4.v0 (broadcastInDim S1529505x64 ![] bcast_S_S1529505x64)
  :: StableHlo.TRef.binary (.of main_v72 : StableHlo.TRef sig ⟨S1529505x64, .f32⟩) main_call4.v0 main_call4.v1 maximumf
  :: StableHlo.binary main_v73 main_arg9 main_v74 ((fun l r => Host.dotGeneral dot_S1529505x64_S64x64_S1529505x64_1_0_0_1_n_n none l r) : (⟨S1529505x64, .f32⟩ : BufTy).Contents (Elt F) → (⟨S64x64, .f32⟩ : BufTy).Contents (Elt F) → (⟨S1529505x64, .f32⟩ : BufTy).Contents (Elt F))
  :: StableHlo.unary main_arg10 main_v75 (broadcastInDim S1x64 ![1] bcast_S64_S1x64_1 : (⟨S64, .f32⟩ : BufTy).Contents (Elt F) → (⟨S1x64, .f32⟩ : BufTy).Contents (Elt F))
  :: StableHlo.unary main_v75 main_v76 (broadcastInDim S1529505x64 ![0, 1] bcast_S1x64_S1529505x64_0_1 : (⟨S1x64, .f32⟩ : BufTy).Contents (Elt F) → (⟨S1529505x64, .f32⟩ : BufTy).Contents (Elt F))
  :: StableHlo.binary main_v74 main_v76 main_v77 (addf : (⟨S1529505x64, .f32⟩ : BufTy).Contents (Elt F) → (⟨S1529505x64, .f32⟩ : BufTy).Contents (Elt F) → (⟨S1529505x64, .f32⟩ : BufTy).Contents (Elt F))
  :: StableHlo.TRef.nullary main_call5.cst (constant S_ .f32 0x00000000#32)
  :: StableHlo.TRef.unary main_call5.cst main_call5.v0 (broadcastInDim S1529505x64 ![] bcast_S_S1529505x64)
  :: StableHlo.TRef.binary (.of main_v77 : StableHlo.TRef sig ⟨S1529505x64, .f32⟩) main_call5.v0 main_call5.v1 maximumf
  :: StableHlo.binary main_v78 main_arg11 main_v79 ((fun l r => Host.dotGeneral dot_S1529505x64_S64x32_S1529505x32_1_0_0_1_n_n none l r) : (⟨S1529505x64, .f32⟩ : BufTy).Contents (Elt F) → (⟨S64x32, .f32⟩ : BufTy).Contents (Elt F) → (⟨S1529505x32, .f32⟩ : BufTy).Contents (Elt F))
  :: StableHlo.unary main_arg12 main_v80 (broadcastInDim S1x32 ![1] bcast_S32_S1x32_1 : (⟨S32, .f32⟩ : BufTy).Contents (Elt F) → (⟨S1x32, .f32⟩ : BufTy).Contents (Elt F))
  :: StableHlo.unary main_v80 main_v81 (broadcastInDim S1529505x32 ![0, 1] bcast_S1x32_S1529505x32_0_1 : (⟨S1x32, .f32⟩ : BufTy).Contents (Elt F) → (⟨S1529505x32, .f32⟩ : BufTy).Contents (Elt F))
  :: StableHlo.binary main_v79 main_v81 main_v82 (addf : (⟨S1529505x32, .f32⟩ : BufTy).Contents (Elt F) → (⟨S1529505x32, .f32⟩ : BufTy).Contents (Elt F) → (⟨S1529505x32, .f32⟩ : BufTy).Contents (Elt F))
  :: StableHlo.TRef.nullary main_call6.cst (constant S_ .f32 0x00000000#32)
  :: StableHlo.TRef.unary main_call6.cst main_call6.v0 (broadcastInDim S1529505x32 ![] bcast_S_S1529505x32)
  :: StableHlo.TRef.binary (.of main_v82 : StableHlo.TRef sig ⟨S1529505x32, .f32⟩) main_call6.v0 main_call6.v1 maximumf
  :: StableHlo.binary main_v83 main_arg13 main_v84 ((fun l r => Host.dotGeneral dot_S1529505x32_S32x1_S1529505x1_1_0_0_1_n_n none l r) : (⟨S1529505x32, .f32⟩ : BufTy).Contents (Elt F) → (⟨S32x1, .f32⟩ : BufTy).Contents (Elt F) → (⟨S1529505x1, .f32⟩ : BufTy).Contents (Elt F))
  :: StableHlo.unary main_arg14 main_v85 (broadcastInDim S1x1 ![1] bcast_S1_S1x1_1 : (⟨S1, .f32⟩ : BufTy).Contents (Elt F) → (⟨S1x1, .f32⟩ : BufTy).Contents (Elt F))
  :: StableHlo.unary main_v85 main_v86 (broadcastInDim S1529505x1 ![0, 1] bcast_S1x1_S1529505x1_0_1 : (⟨S1x1, .f32⟩ : BufTy).Contents (Elt F) → (⟨S1529505x1, .f32⟩ : BufTy).Contents (Elt F))
  :: StableHlo.binary main_v84 main_v86 main_v87 (addf : (⟨S1529505x1, .f32⟩ : BufTy).Contents (Elt F) → (⟨S1529505x1, .f32⟩ : BufTy).Contents (Elt F) → (⟨S1529505x1, .f32⟩ : BufTy).Contents (Elt F))
  :: StableHlo.reshape main_v87 main_v88 rfl shapeCasts_S1529505x1_S1529505
  :: [] )

/-- The prefix is its two halves one after the other. -/
theorem opsPre_eq : (opsPre : List (HloOp τ sig (Elt F))) = opsHead ++ opsMid := rfl

/-! ## @main is that line

  Each of @main's two windows is a chain of single operations and of calls; a call is its callee's chain followed by
  the rest.  Once sequencing is re-associated to the right and the callees' closing returns are absorbed, a window is
  literally the chain of its inlined operations. -/

set_option maxRecDepth 16384 in
set_option maxHeartbeats 4000000 in
/-- The first window is the chain of the first 64 operations. -/
theorem head_eq (c : Dev nD) : main_part0 (F := F) c = StableHlo.seq opsHead := by
  simp only [main_part0, fn_roll_static.body, fn_cumsum.body, fn_cumsum_0.body, StableHlo.seq, bind_assoc, pure_bind] <;> rfl

set_option maxRecDepth 16384 in
set_option maxHeartbeats 4000000 in
/-- The second window is the chain of the remaining operations. -/
theorem tail_eq (c : Dev nD) : main_part1 (F := F) c = StableHlo.seq (opsMid ++ opsMlp) := by
  rw [StableHlo.seq_append]
  simp only [main_part1, fn_cumsum_1.body, fn_cumsum_2.body, fn_take.body, fn_where.body, fn_relu.body, fn_relu_3.body,
    StableHlo.seq, bind_assoc, pure_bind] <;> rfl

/-- @main is the chain of all its operations, calls inlined. -/
theorem main_eq (c : Dev nD) : main (F := F) c = StableHlo.seq (opsPre ++ opsMlp) := by
  rw [opsPre_eq, List.append_assoc, StableHlo.seq_append, ← head_eq c, ← tail_eq c]
  rfl

end Cert.ReferenceIdeal.HandRun

end
-- ==== Proof.RefRun.lean ====
/-
  The run of the reference program: @main is a straight line of host operations, so from any memory with zero
  counters every weakly fair execution terminates with each buffer at the fold of the operations' results over the
  launch contents.  No operation writes an argument's buffer: each of the line's operations writes one buffer, the
  143 written buffers are listed once, and no argument is among them.  Hence the arguments end as they began.
-/
import proofs.«161627_j12979391169443_2_alg».proof.Proof.RefRunOps

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of the prefix touches TensorCore buffers only. -/
theorem opsPre_sub : (opsPre : List (HloOp τ sig (Elt F))).Forall fun op => op.bufs ⊆ StableHlo.tcRefs τ sig :=
  ⟨
    StableHlo.unary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.nullary_bufs_sub .., StableHlo.unary_bufs_sub .., StableHlo.binary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.unary_bufs_sub .., StableHlo.binary_bufs_sub .., StableHlo.nullary_bufs_sub .., StableHlo.unary_bufs_sub .., StableHlo.nullary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.nullary_bufs_sub .., StableHlo.unary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.nullary_bufs_sub .., StableHlo.nullary_bufs_sub .., StableHlo.unary_bufs_sub .., StableHlo.binary_bufs_sub .., StableHlo.unary_bufs_sub ..,
    StableHlo.unary_bufs_sub .., StableHlo.binary_bufs_sub .., StableHlo.binary_bufs_sub .., StableHlo.nullary_bufs_sub .., StableHlo.binary_bufs_sub .., StableHlo.binary_bufs_sub ..,
    StableHlo.nullary_bufs_sub .., StableHlo.unary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.nullary_bufs_sub .., StableHlo.unary_bufs_sub ..,
    StableHlo.binary_bufs_sub .., StableHlo.unary_bufs_sub .., StableHlo.nary_bufs_sub ..⟩

/-- Every operation of the rest touches TensorCore buffers only. -/
theorem opsMlp_sub : (opsMlp : List (HloOp τ sig (Elt F))).Forall fun op => op.bufs ⊆ StableHlo.tcRefs τ sig :=
  ⟨
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub .., StableHlo.unary_bufs_sub .., StableHlo.unary_bufs_sub ..,
    StableHlo.binary_bufs_sub .., StableHlo.reshape_bufs_sub ..⟩

theorem ops_sub : ((opsPre ++ opsMlp : List (HloOp τ sig (Elt F)))).Forall fun op => op.bufs ⊆ StableHlo.tcRefs τ sig :=
  List.forall_append.mpr ⟨opsPre_sub, opsMlp_sub⟩

/-- Every operation determines its results. -/
theorem ops_fresh : ∀ op ∈ (opsPre ++ opsMlp : List (HloOp τ sig (Elt F))), op.fresh = ∅ :=
  List.forall_iff_forall_mem.mp (List.forall_append.mpr
    ⟨(⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl⟩ : (opsPre : List (HloOp τ sig (Elt F))).Forall fun op => op.fresh = ∅),
     (⟨
    rfl, rfl, rfl, rfl, rfl, rfl, rfl, rfl, rfl, rfl, rfl, rfl, rfl, rfl, rfl, rfl, rfl, rfl, rfl, rfl, rfl, rfl, rfl, rfl, rfl, rfl⟩ : (opsMlp : List (HloOp τ sig (Elt F))).Forall fun op => op.fresh = ∅)⟩)

/-! ## The run -/

/-- On every device, for any float values, from any memory with zero counters: every weakly fair execution of @main
    terminates, and every final state has each TensorCore buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ (fun r =>
      ∀ (c : Dev nD) (b : Ref sig .tc), r.2.mem ((c.tc : Thread nD τ).loc b)
        = StableHlo.after (opsPre ++ opsMlp) (StableHlo.launchContents m c) (Proc.devRef .tc b)) :=
  StableHlo.run_seq scopedRefs_eq scopedSems_eq defs main (fun _ => opsPre ++ opsMlp) main_eq (fun _ => ops_sub) m ρ
    (fun _ => ops_fresh)

/-! ## The arguments are not written -/

/-- The buffers the line writes, in the operations' order. -/
abbrev written : List (Ref sig .tc) :=
  [
    main_v0, main_c, main_v1, main_v2, main_c_0, main_v3, main_v4, main_v5, main_v6, main_c_1,
    main_v7, main_v8, main_v9, main_c_2, main_v10, main_v11, main_c_3, main_v12, main_v13, main_v14,
    main_v15, main_v16, main_c_4, main_v17, main_v18, main_c_5, main_v19, main_v20, main_v21, main_v22,
    main_v23, main_v24, main_c_6, main_v25, main_v26, main_c_7, main_v27, main_v28, main_v29, main_v30,
    main_v31, main_v32, main_call0_v0, main_call0_v1, main_v33, main_c_8, main_v34, main_c_9, main_v35, main_call1_call0_c,
    main_call1_call0_v0, main_v36, main_c_10, main_v37, main_c_11, main_v38, main_v39, main_c_12, main_v40, main_v41,
    main_v42, main_v43, main_c_13, main_v44, main_v45, main_call2_call0_c, main_call2_call0_v0, main_v46, main_c_14, main_v47,
    main_v48, main_call3_c, main_call3_v0, main_call3_v1, main_call3_c_0, main_call3_v2, main_call3_v3, main_call3_v4, main_call3_v5, main_call3_c_1,
    main_call3_c_2, main_call3_v6, main_call3_v7, main_call3_v8, main_call3_v9, main_call3_v10, main_call3_v11, main_call3_c_3, main_call3_v12, main_call3_v13,
    main_call3_c_4, main_call3_v14, main_v49, main_c_15, main_v50, main_v51, main_c_16, main_v52, main_v53, main_v54,
    main_v55, main_v56, main_c_17, main_v57, main_v58, main_c_18, main_v59, main_v60, main_v61, main_v62,
    main_v63, main_v64, main_cst, main_v65, main_v66, main_v67, main_v68, main_v69, main_v70, main_v71,
    main_v72, main_call4_cst, main_call4_v0, main_v73, main_v74, main_v75, main_v76, main_v77, main_call5_cst, main_call5_v0,
    main_v78, main_v79, main_v80, main_v81, main_v82, main_call6_cst, main_call6_v0, main_v83, main_v84, main_v85,
    main_v86, main_v87, main_v88 ]

/-- An operation that writes the one buffer `y`, a member of a list, writes inside that list. -/
theorem wr {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff]
  exact List.mem_toFinset.mpr (List.mem_map_of_mem hy)

theorem writesPre_sub : (opsPre : List (HloOp τ sig (Elt F))).Forall fun op =>
    op.writes ⊆ (written.map (Proc.devRef (τ := τ) .tc)).toFinset :=
  ⟨
    wr (y := main_v0) rfl (by decide), wr (y := main_c) rfl (by decide), wr (y := main_v1) rfl (by decide),
    wr (y := main_v2) rfl (by decide), wr (y := main_c_0) rfl (by decide), wr (y := main_v3) rfl (by decide),
    wr (y := main_v4) rfl (by decide), wr (y := main_v5) rfl (by decide), wr (y := main_v6) rfl (by decide),
    wr (y := main_c_1) rfl (by decide), wr (y := main_v7) rfl (by decide), wr (y := main_v8) rfl (by decide),
    wr (y := main_v9) rfl (by decide), wr (y := main_c_2) rfl (by decide), wr (y := main_v10) rfl (by decide),
    wr (y := main_v11) rfl (by decide), wr (y := main_c_3) rfl (by decide), wr (y := main_v12) rfl (by decide),
    wr (y := main_v13) rfl (by decide), wr (y := main_v14) rfl (by decide), wr (y := main_v15) rfl (by decide),
    wr (y := main_v16) rfl (by decide), wr (y := main_c_4) rfl (by decide), wr (y := main_v17) rfl (by decide),
    wr (y := main_v18) rfl (by decide), wr (y := main_c_5) rfl (by decide), wr (y := main_v19) rfl (by decide),
    wr (y := main_v20) rfl (by decide), wr (y := main_v21) rfl (by decide), wr (y := main_v22) rfl (by decide),
    wr (y := main_v23) rfl (by decide), wr (y := main_v24) rfl (by decide), wr (y := main_c_6) rfl (by decide),
    wr (y := main_v25) rfl (by decide), wr (y := main_v26) rfl (by decide), wr (y := main_c_7) rfl (by decide),
    wr (y := main_v27) rfl (by decide), wr (y := main_v28) rfl (by decide), wr (y := main_v29) rfl (by decide),
    wr (y := main_v30) rfl (by decide), wr (y := main_v31) rfl (by decide), wr (y := main_v32) rfl (by decide),
    wr (y := main_call0_v0) rfl (by decide), wr (y := main_call0_v1) rfl (by decide), wr (y := main_v33) rfl (by decide),
    wr (y := main_c_8) rfl (by decide), wr (y := main_v34) rfl (by decide), wr (y := main_c_9) rfl (by decide),
    wr (y := main_v35) rfl (by decide), wr (y := main_call1_call0_c) rfl (by decide), wr (y := main_call1_call0_v0) rfl (by decide),
    wr (y := main_v36) rfl (by decide), wr (y := main_c_10) rfl (by decide), wr (y := main_v37) rfl (by decide),
    wr (y := main_c_11) rfl (by decide), wr (y := main_v38) rfl (by decide), wr (y := main_v39) rfl (by decide),
    wr (y := main_c_12) rfl (by decide), wr (y := main_v40) rfl (by decide), wr (y := main_v41) rfl (by decide),
    wr (y := main_v42) rfl (by decide), wr (y := main_v43) rfl (by decide), wr (y := main_c_13) rfl (by decide),
    wr (y := main_v44) rfl (by decide), wr (y := main_v45) rfl (by decide), wr (y := main_call2_call0_c) rfl (by decide),
    wr (y := main_call2_call0_v0) rfl (by decide), wr (y := main_v46) rfl (by decide), wr (y := main_c_14) rfl (by decide),
    wr (y := main_v47) rfl (by decide), wr (y := main_v48) rfl (by decide), wr (y := main_call3_c) rfl (by decide),
    wr (y := main_call3_v0) rfl (by decide), wr (y := main_call3_v1) rfl (by decide), wr (y := main_call3_c_0) rfl (by decide),
    wr (y := main_call3_v2) rfl (by decide), wr (y := main_call3_v3) rfl (by decide), wr (y := main_call3_v4) rfl (by decide),
    wr (y := main_call3_v5) rfl (by decide), wr (y := main_call3_c_1) rfl (by decide), wr (y := main_call3_c_2) rfl (by decide),
    wr (y := main_call3_v6) rfl (by decide), wr (y := main_call3_v7) rfl (by decide), wr (y := main_call3_v8) rfl (by decide),
    wr (y := main_call3_v9) rfl (by decide), wr (y := main_call3_v10) rfl (by decide), wr (y := main_call3_v11) rfl (by decide),
    wr (y := main_call3_c_3) rfl (by decide), wr (y := main_call3_v12) rfl (by decide), wr (y := main_call3_v13) rfl (by decide),
    wr (y := main_call3_c_4) rfl (by decide), wr (y := main_call3_v14) rfl (by decide), wr (y := main_v49) rfl (by decide),
    wr (y := main_c_15) rfl (by decide), wr (y := main_v50) rfl (by decide), wr (y := main_v51) rfl (by decide),
    wr (y := main_c_16) rfl (by decide), wr (y := main_v52) rfl (by decide), wr (y := main_v53) rfl (by decide),
    wr (y := main_v54) rfl (by decide), wr (y := main_v55) rfl (by decide), wr (y := main_v56) rfl (by decide),
    wr (y := main_c_17) rfl (by decide), wr (y := main_v57) rfl (by decide), wr (y := main_v58) rfl (by decide),
    wr (y := main_c_18) rfl (by decide), wr (y := main_v59) rfl (by decide), wr (y := main_v60) rfl (by decide),
    wr (y := main_v61) rfl (by decide), wr (y := main_v62) rfl (by decide), wr (y := main_v63) rfl (by decide),
    wr (y := main_v64) rfl (by decide), wr (y := main_cst) rfl (by decide), wr (y := main_v65) rfl (by decide),
    wr (y := main_v66) rfl (by decide), wr (y := main_v67) rfl (by decide), wr (y := main_v68) rfl (by decide)⟩

theorem writesMlp_sub : (opsMlp : List (HloOp τ sig (Elt F))).Forall fun op =>
    op.writes ⊆ (written.map (Proc.devRef (τ := τ) .tc)).toFinset :=
  ⟨
    wr (y := main_v69) rfl (by decide), wr (y := main_v70) rfl (by decide), wr (y := main_v71) rfl (by decide),
    wr (y := main_v72) rfl (by decide), wr (y := main_call4_cst) rfl (by decide), wr (y := main_call4_v0) rfl (by decide),
    wr (y := main_v73) rfl (by decide), wr (y := main_v74) rfl (by decide), wr (y := main_v75) rfl (by decide),
    wr (y := main_v76) rfl (by decide), wr (y := main_v77) rfl (by decide), wr (y := main_call5_cst) rfl (by decide),
    wr (y := main_call5_v0) rfl (by decide), wr (y := main_v78) rfl (by decide), wr (y := main_v79) rfl (by decide),
    wr (y := main_v80) rfl (by decide), wr (y := main_v81) rfl (by decide), wr (y := main_v82) rfl (by decide),
    wr (y := main_call6_cst) rfl (by decide), wr (y := main_call6_v0) rfl (by decide), wr (y := main_v83) rfl (by decide),
    wr (y := main_v84) rfl (by decide), wr (y := main_v85) rfl (by decide), wr (y := main_v86) rfl (by decide),
    wr (y := main_v87) rfl (by decide), wr (y := main_v88) rfl (by decide)⟩

theorem writes_sub : ((opsPre ++ opsMlp : List (HloOp τ sig (Elt F)))).Forall fun op =>
    op.writes ⊆ (written.map (Proc.devRef (τ := τ) .tc)).toFinset :=
  List.forall_append.mpr ⟨writesPre_sub, writesMlp_sub⟩

theorem kept_main_arg0 (m : (ℓ : Loc nD τ sig) → Buf (Elt F) ℓ) (c : Dev nD) :
    StableHlo.after (opsPre ++ opsMlp) (StableHlo.launchContents m c) (Proc.devRef .tc main_arg0)
      = m ((c.tc : Thread nD τ).loc main_arg0) :=
  StableHlo.after_of_writes_sub _ _ writes_sub (by decide)

theorem kept_main_arg1 (m : (ℓ : Loc nD τ sig) → Buf (Elt F) ℓ) (c : Dev nD) :
    StableHlo.after (opsPre ++ opsMlp) (StableHlo.launchContents m c) (Proc.devRef .tc main_arg1)
      = m ((c.tc : Thread nD τ).loc main_arg1) :=
  StableHlo.after_of_writes_sub _ _ writes_sub (by decide)

theorem kept_main_arg2 (m : (ℓ : Loc nD τ sig) → Buf (Elt F) ℓ) (c : Dev nD) :
    StableHlo.after (opsPre ++ opsMlp) (StableHlo.launchContents m c) (Proc.devRef .tc main_arg2)
      = m ((c.tc : Thread nD τ).loc main_arg2) :=
  StableHlo.after_of_writes_sub _ _ writes_sub (by decide)

theorem kept_main_arg3 (m : (ℓ : Loc nD τ sig) → Buf (Elt F) ℓ) (c : Dev nD) :
    StableHlo.after (opsPre ++ opsMlp) (StableHlo.launchContents m c) (Proc.devRef .tc main_arg3)
      = m ((c.tc : Thread nD τ).loc main_arg3) :=
  StableHlo.after_of_writes_sub _ _ writes_sub (by decide)

theorem kept_main_arg4 (m : (ℓ : Loc nD τ sig) → Buf (Elt F) ℓ) (c : Dev nD) :
    StableHlo.after (opsPre ++ opsMlp) (StableHlo.launchContents m c) (Proc.devRef .tc main_arg4)
      = m ((c.tc : Thread nD τ).loc main_arg4) :=
  StableHlo.after_of_writes_sub _ _ writes_sub (by decide)

theorem kept_main_arg5 (m : (ℓ : Loc nD τ sig) → Buf (Elt F) ℓ) (c : Dev nD) :
    StableHlo.after (opsPre ++ opsMlp) (StableHlo.launchContents m c) (Proc.devRef .tc main_arg5)
      = m ((c.tc : Thread nD τ).loc main_arg5) :=
  StableHlo.after_of_writes_sub _ _ writes_sub (by decide)

theorem kept_main_arg6 (m : (ℓ : Loc nD τ sig) → Buf (Elt F) ℓ) (c : Dev nD) :
    StableHlo.after (opsPre ++ opsMlp) (StableHlo.launchContents m c) (Proc.devRef .tc main_arg6)
      = m ((c.tc : Thread nD τ).loc main_arg6) :=
  StableHlo.after_of_writes_sub _ _ writes_sub (by decide)

theorem kept_main_arg7 (m : (ℓ : Loc nD τ sig) → Buf (Elt F) ℓ) (c : Dev nD) :
    StableHlo.after (opsPre ++ opsMlp) (StableHlo.launchContents m c) (Proc.devRef .tc main_arg7)
      = m ((c.tc : Thread nD τ).loc main_arg7) :=
  StableHlo.after_of_writes_sub _ _ writes_sub (by decide)

theorem kept_main_arg8 (m : (ℓ : Loc nD τ sig) → Buf (Elt F) ℓ) (c : Dev nD) :
    StableHlo.after (opsPre ++ opsMlp) (StableHlo.launchContents m c) (Proc.devRef .tc main_arg8)
      = m ((c.tc : Thread nD τ).loc main_arg8) :=
  StableHlo.after_of_writes_sub _ _ writes_sub (by decide)

theorem kept_main_arg9 (m : (ℓ : Loc nD τ sig) → Buf (Elt F) ℓ) (c : Dev nD) :
    StableHlo.after (opsPre ++ opsMlp) (StableHlo.launchContents m c) (Proc.devRef .tc main_arg9)
      = m ((c.tc : Thread nD τ).loc main_arg9) :=
  StableHlo.after_of_writes_sub _ _ writes_sub (by decide)

theorem kept_main_arg10 (m : (ℓ : Loc nD τ sig) → Buf (Elt F) ℓ) (c : Dev nD) :
    StableHlo.after (opsPre ++ opsMlp) (StableHlo.launchContents m c) (Proc.devRef .tc main_arg10)
      = m ((c.tc : Thread nD τ).loc main_arg10) :=
  StableHlo.after_of_writes_sub _ _ writes_sub (by decide)

theorem kept_main_arg11 (m : (ℓ : Loc nD τ sig) → Buf (Elt F) ℓ) (c : Dev nD) :
    StableHlo.after (opsPre ++ opsMlp) (StableHlo.launchContents m c) (Proc.devRef .tc main_arg11)
      = m ((c.tc : Thread nD τ).loc main_arg11) :=
  StableHlo.after_of_writes_sub _ _ writes_sub (by decide)

theorem kept_main_arg12 (m : (ℓ : Loc nD τ sig) → Buf (Elt F) ℓ) (c : Dev nD) :
    StableHlo.after (opsPre ++ opsMlp) (StableHlo.launchContents m c) (Proc.devRef .tc main_arg12)
      = m ((c.tc : Thread nD τ).loc main_arg12) :=
  StableHlo.after_of_writes_sub _ _ writes_sub (by decide)

theorem kept_main_arg13 (m : (ℓ : Loc nD τ sig) → Buf (Elt F) ℓ) (c : Dev nD) :
    StableHlo.after (opsPre ++ opsMlp) (StableHlo.launchContents m c) (Proc.devRef .tc main_arg13)
      = m ((c.tc : Thread nD τ).loc main_arg13) :=
  StableHlo.after_of_writes_sub _ _ writes_sub (by decide)

theorem kept_main_arg14 (m : (ℓ : Loc nD τ sig) → Buf (Elt F) ℓ) (c : Dev nD) :
    StableHlo.after (opsPre ++ opsMlp) (StableHlo.launchContents m c) (Proc.devRef .tc main_arg14)
      = m ((c.tc : Thread nD τ).loc main_arg14) :=
  StableHlo.after_of_writes_sub _ _ writes_sub (by decide)

theorem feats_kept_main_arg7 (m : (ℓ : Loc nD τ sig) → Buf (Elt F) ℓ) (c : Dev nD) :
    StableHlo.after opsPre (StableHlo.launchContents m c) (Proc.devRef .tc main_arg7)
      = m ((c.tc : Thread nD τ).loc main_arg7) :=
  StableHlo.after_of_writes_sub _ _ writesPre_sub (by decide)

theorem feats_kept_main_arg8 (m : (ℓ : Loc nD τ sig) → Buf (Elt F) ℓ) (c : Dev nD) :
    StableHlo.after opsPre (StableHlo.launchContents m c) (Proc.devRef .tc main_arg8)
      = m ((c.tc : Thread nD τ).loc main_arg8) :=
  StableHlo.after_of_writes_sub _ _ writesPre_sub (by decide)

theorem feats_kept_main_arg9 (m : (ℓ : Loc nD τ sig) → Buf (Elt F) ℓ) (c : Dev nD) :
    StableHlo.after opsPre (StableHlo.launchContents m c) (Proc.devRef .tc main_arg9)
      = m ((c.tc : Thread nD τ).loc main_arg9) :=
  StableHlo.after_of_writes_sub _ _ writesPre_sub (by decide)

theorem feats_kept_main_arg10 (m : (ℓ : Loc nD τ sig) → Buf (Elt F) ℓ) (c : Dev nD) :
    StableHlo.after opsPre (StableHlo.launchContents m c) (Proc.devRef .tc main_arg10)
      = m ((c.tc : Thread nD τ).loc main_arg10) :=
  StableHlo.after_of_writes_sub _ _ writesPre_sub (by decide)

theorem feats_kept_main_arg11 (m : (ℓ : Loc nD τ sig) → Buf (Elt F) ℓ) (c : Dev nD) :
    StableHlo.after opsPre (StableHlo.launchContents m c) (Proc.devRef .tc main_arg11)
      = m ((c.tc : Thread nD τ).loc main_arg11) :=
  StableHlo.after_of_writes_sub _ _ writesPre_sub (by decide)

theorem feats_kept_main_arg12 (m : (ℓ : Loc nD τ sig) → Buf (Elt F) ℓ) (c : Dev nD) :
    StableHlo.after opsPre (StableHlo.launchContents m c) (Proc.devRef .tc main_arg12)
      = m ((c.tc : Thread nD τ).loc main_arg12) :=
  StableHlo.after_of_writes_sub _ _ writesPre_sub (by decide)

theorem feats_kept_main_arg13 (m : (ℓ : Loc nD τ sig) → Buf (Elt F) ℓ) (c : Dev nD) :
    StableHlo.after opsPre (StableHlo.launchContents m c) (Proc.devRef .tc main_arg13)
      = m ((c.tc : Thread nD τ).loc main_arg13) :=
  StableHlo.after_of_writes_sub _ _ writesPre_sub (by decide)

theorem feats_kept_main_arg14 (m : (ℓ : Loc nD τ sig) → Buf (Elt F) ℓ) (c : Dev nD) :
    StableHlo.after opsPre (StableHlo.launchContents m c) (Proc.devRef .tc main_arg14)
      = m ((c.tc : Thread nD τ).loc main_arg14) :=
  StableHlo.after_of_writes_sub _ _ writesPre_sub (by decide)

/-! ## The frame -/

/-- Every weakly fair execution of @main terminates with all fifteen arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c)⟩)
    (run_all m ρ)

end Cert.ReferenceIdeal.HandRun

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«161627_j12979391169443_2_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«161627_j12979391169443_2_alg».proof.Proof.LibPlainDot
import proofs.«161627_j12979391169443_2_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«161627_j12979391169443_2_alg».proof.Proof.LibPlainDot
import proofs.«161627_j12979391169443_2_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.Mlp.lean ====
import proofs.«161627_j12979391169443_2_alg».proof.Proof.LibRowTile

/-!
# The scoring network, row by row

A row of 36 features goes through three dense layers, each followed by the positive part — 36 → 64 → 64 → 32 — and a
last dense layer 32 → 1.  Over the extended reals, with the bias of each layer a vector:

  mlp x = ((((x·W1 + b1)⁺ · W2 + b2)⁺ · W3 + b3)⁺ · W4 + b4.

Every step produces row `r` of its result from row `r` of its operand alone, so the network does too: a tile of rows
put through it gives, in its row `p`, what the whole array put through it gives in the row `r` that the tile's row `p` is
(`mlp_row`).  This holds for any values, finite or not: nothing is rearranged, each entry is the same sum of the same
products on both sides.
-/

noncomputable section

namespace Cert.Mlp

open Idealize.ShloMosaic Idealize.ShloMosaic.ValueIdx Cert.Layers Cert.RowTile

variable {M T : Nat}

/-- The network on an array of `M` rows. -/
def mlp (x : (⟨2, ![M, 36]⟩ : Shape).Idx → EReal)
    (W1 : (⟨2, ![36, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 1]⟩ : Shape).Idx → EReal) (b4 : (⟨1, ![1]⟩ : Shape).Idx → EReal) :
    (⟨2, ![M, 1]⟩ : Shape).Idx → EReal :=
  addRow (rowsTimes (reluRow (rowsTimes (reluRow (rowsTimes (reluRow (rowsTimes x W1) b1) W2) b2) W3) b3) W4) b4

/-- Row `p` of the network on a tile is row `r` of the network on the whole array, when the tile's row `p` is the
    array's row `r`. -/
theorem mlp_row (A : (⟨2, ![M, 36]⟩ : Shape).Idx → EReal) (At : (⟨2, ![T, 36]⟩ : Shape).Idx → EReal)
    (W1 : (⟨2, ![36, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 1]⟩ : Shape).Idx → EReal) (b4 : (⟨1, ![1]⟩ : Shape).Idx → EReal)
    (p : Fin T) (r : Fin M) (h : ∀ k : Fin 36, At (ix2 p k) = A (ix2 r k)) (q : Fin 1) :
    mlp At W1 b1 W2 b2 W3 b3 W4 b4 (ix2 p q) = mlp A W1 b1 W2 b2 W3 b3 W4 b4 (ix2 r q) := by
  unfold mlp
  refine addRow_row _ _ b4 p r q ?_
  refine rowsTimes_row _ _ W4 p r (fun k3 => ?_) q
  refine reluRow_row _ _ b3 p r k3 ?_
  refine rowsTimes_row _ _ W3 p r (fun k2 => ?_) k3
  refine reluRow_row _ _ b2 p r k2 ?_
  refine rowsTimes_row _ _ W2 p r (fun k1 => ?_) k2
  refine reluRow_row _ _ b1 p r k1 ?_
  exact rowsTimes_row _ _ W1 p r h k1

end Cert.Mlp

end
-- ==== Proof.IdealValue.lean ====
import proofs.«161627_j12979391169443_2_alg».proof.Proof.IdealFrame
import proofs.«161627_j12979391169443_2_alg».proof.Proof.Mlp
import Idealize.ShloMosaic.Lib.Pipeline.Value
import Idealize.ShloMosaic.Lib.ValueIdx
import Idealize.ShloMosaic.Lib.ValueLayout

/-!
# What the tiled region leaves in its output array, over the extended reals

A tile's body computes, from the tile's 18000 feature rows and the eight weight and bias blocks, exactly the
scoring network `Mlp.mlp` of those rows (a change of float format is the identity over the extended reals, the matrix
unit's product into zeros is the row-by-matrix product, a bias row repeated down the tile is the bias added to
each row).  Tile `t` holds rows `18000·t … 18000·t + 17999` of the padded feature array and every weight or bias
block is its whole array, so what tile `t` writes back is block `t` of the network applied to the WHOLE padded
array (row locality); the 85 tiles cover the 1530000 rows, so that is what the output array ends holding.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Layers Cert.RowTile Cert.Mlp

variable (m : (ℓ : Loc nD τ sig) → Buf (Elt Ideal) ℓ) (ρ : Dev nD → PrngReg)

/-- The body's stored value is the network of its loads: the bias blocks are one-row arrays, read as their rows. -/
theorem pay_eq (v0 : FVec Ideal S18000x36 .f32) (v3 : FVec Ideal S36x64 .f32) (v6 : FVec Ideal S1x64 .f32)
    (v13 : FVec Ideal S64x64 .f32) (v16 : FVec Ideal S1x64 .f32) (v23 : FVec Ideal S64x32 .f32) (v26 : FVec Ideal S1x32 .f32)
    (v33 : FVec Ideal S32x1 .f32) (v36 : FVec Ideal S1x1 .f32) :
    k0_pay1 (F := Ideal) (k0_pay2 (F := Ideal) v0 v3 v6 v13 v16 v23 v26 v33) v36
      = mlp v0 v3 (rowVec v6) v13 (rowVec v16) v23 (rowVec v26) v33 (rowVec v36) := by
  unfold k0_pay1 k0_pay2 mlp
  dsimp only
  rw [shapeCast_self, shapeCast_self, shapeCast_self, shapeCast_self, shapeCast_self]
  have h1 : matmul dot_S18000x36_S36x64_S18000x64_1_0_0_1_n_n none (truncf .bf16 v0 bitsLt_bf16_f32) (truncf .bf16 v3 bitsLt_bf16_f32)
      (constant S18000x64 .f32 0x00000000#32) = rowsTimes v0 v3 :=
    matmul_zero_eq dot_S18000x36_S36x64_S18000x64_1_0_0_1_n_n ⟨rfl, rfl, rfl, rfl, rfl, rfl⟩ none _ _
  have h2 : maximumf (addf (rowsTimes v0 v3) (broadcastTo S18000x64 v6 broadcasts_S1x64_S18000x64))
      (broadcast S18000x64 (FloatOps.ofBits (F := Ideal) .f32 0x00000000#32)) = reluRow (rowsTimes v0 v3) (rowVec v6) :=
    maximumf_addf_bcastRow (rowsTimes v0 v3) v6 broadcasts_S1x64_S18000x64
  have h3 : matmul dot_S18000x64_S64x64_S18000x64_1_0_0_1_n_n none
      (truncf .bf16 (reluRow (rowsTimes v0 v3) (rowVec v6) : FVec Ideal S18000x64 .f32) bitsLt_bf16_f32) (truncf .bf16 v13 bitsLt_bf16_f32)
      (constant S18000x64 .f32 0x00000000#32) = rowsTimes (reluRow (rowsTimes v0 v3) (rowVec v6)) v13 :=
    matmul_zero_eq dot_S18000x64_S64x64_S18000x64_1_0_0_1_n_n ⟨rfl, rfl, rfl, rfl, rfl, rfl⟩ none _ _
  have h4 : maximumf (addf (rowsTimes (reluRow (rowsTimes v0 v3) (rowVec v6)) v13) (broadcastTo S18000x64 v16 broadcasts_S1x64_S18000x64))
      (broadcast S18000x64 (FloatOps.ofBits (F := Ideal) .f32 0x00000000#32))
      = reluRow (rowsTimes (reluRow (rowsTimes v0 v3) (rowVec v6)) v13) (rowVec v16) :=
    maximumf_addf_bcastRow _ v16 broadcasts_S1x64_S18000x64
  have h5 : matmul dot_S18000x64_S64x32_S18000x32_1_0_0_1_n_n none
      (truncf .bf16 (reluRow (rowsTimes (reluRow (rowsTimes v0 v3) (rowVec v6)) v13) (rowVec v16) : FVec Ideal S18000x64 .f32) bitsLt_bf16_f32)
      (truncf .bf16 v23 bitsLt_bf16_f32) (constant S18000x32 .f32 0x00000000#32)
      = rowsTimes (reluRow (rowsTimes (reluRow (rowsTimes v0 v3) (rowVec v6)) v13) (rowVec v16)) v23 :=
    matmul_zero_eq dot_S18000x64_S64x32_S18000x32_1_0_0_1_n_n ⟨rfl, rfl, rfl, rfl, rfl, rfl⟩ none _ _
  have h6 : maximumf (addf (rowsTimes (reluRow (rowsTimes (reluRow (rowsTimes v0 v3) (rowVec v6)) v13) (rowVec v16)) v23)
        (broadcastTo S18000x32 v26 broadcasts_S1x32_S18000x32))
      (broadcast S18000x32 (FloatOps.ofBits (F := Ideal) .f32 0x00000000#32))
      = reluRow (rowsTimes (reluRow (rowsTimes (reluRow (rowsTimes v0 v3) (rowVec v6)) v13) (rowVec v16)) v23) (rowVec v26) :=
    maximumf_addf_bcastRow _ v26 broadcasts_S1x32_S18000x32
  have h7 : matmul dot_S18000x32_S32x1_S18000x1_1_0_0_1_n_n none
      (truncf .bf16 (reluRow (rowsTimes (reluRow (rowsTimes (reluRow (rowsTimes v0 v3) (rowVec v6)) v13) (rowVec v16)) v23) (rowVec v26) : FVec Ideal S18000x32 .f32) bitsLt_bf16_f32)
      (truncf .bf16 v33 bitsLt_bf16_f32) (constant S18000x1 .f32 0x00000000#32)
      = rowsTimes (reluRow (rowsTimes (reluRow (rowsTimes (reluRow (rowsTimes v0 v3) (rowVec v6)) v13) (rowVec v16)) v23) (rowVec v26)) v33 :=
    matmul_zero_eq dot_S18000x32_S32x1_S18000x1_1_0_0_1_n_n ⟨rfl, rfl, rfl, rfl, rfl, rfl⟩ none _ _
  rw [h1, h2, h3, h4, h5, h6, h7]
  exact addf_bcastRow _ v36 broadcasts_S1x1_S18000x1

/-! ## The windows' blocks, read off their arrays -/

theorem zeros : (![0, 0] : Fin 2 → Nat) = fun _ => 0 := funext fun a => by fin_cases a <;> rfl

/-- The block indices over the grid: the feature window and the output window move down one tile per grid point;
    every weight and bias window stays at its one block. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 1's block is its whole array. -/
theorem iblk_1 (c : Dev nD) (t : Fin cfg0.N) : iblk m c 1 t = (V m c main_arg7 : S36x64.Idx → EReal) := by
  funext y
  show V m c main_arg7 (((cfg0.win 1).blk t).view.emb y) = V m c main_arg7 y
  have hi := idx_facts t
  refine congrArg _ (funext fun a => Fin.ext ?_)
  match a with
  | ⟨0, _⟩ => show win0_1.index t (0 : Fin 2) * 36 + 1 * (y 0).val = (y 0).val; omega
  | ⟨1, _⟩ => show win0_1.index t (1 : Fin 2) * 64 + 1 * (y 1).val = (y 1).val; omega

/-- Window 2's block is its whole array. -/
theorem iblk_2 (c : Dev nD) (t : Fin cfg0.N) : iblk m c 2 t = (V m c main_v70 : S1x64.Idx → EReal) := by
  funext y
  show V m c main_v70 (((cfg0.win 2).blk t).view.emb y) = V m c main_v70 y
  have hi := idx_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block is its whole array. -/
theorem iblk_3 (c : Dev nD) (t : Fin cfg0.N) : iblk m c 3 t = (V m c main_arg9 : S64x64.Idx → EReal) := by
  funext y
  show V m c main_arg9 (((cfg0.win 3).blk t).view.emb y) = V m c main_arg9 y
  have hi := idx_facts t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block is its whole array. -/
theorem iblk_4 (c : Dev nD) (t : Fin cfg0.N) : iblk m c 4 t = (V m c main_v71 : S1x64.Idx → EReal) := by
  funext y
  show V m c main_v71 (((cfg0.win 4).blk t).view.emb y) = V m c main_v71 y
  have hi := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array. -/
theorem iblk_5 (c : Dev nD) (t : Fin cfg0.N) : iblk m c 5 t = (V m c main_arg11 : S64x32.Idx → EReal) := by
  funext y
  show V m c main_arg11 (((cfg0.win 5).blk t).view.emb y) = V m c main_arg11 y
  have hi := idx_facts t
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 32 + 1 * (y 1).val = (y 1).val; omega

/-- Window 6's block is its whole array. -/
theorem iblk_6 (c : Dev nD) (t : Fin cfg0.N) : iblk m c 6 t = (V m c main_v72 : S1x32.Idx → EReal) := by
  funext y
  show V m c main_v72 (((cfg0.win 6).blk t).view.emb y) = V m c main_v72 y
  have hi := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Window 7's block is its whole array. -/
theorem iblk_7 (c : Dev nD) (t : Fin cfg0.N) : iblk m c 7 t = (V m c main_arg13 : S32x1.Idx → EReal) := by
  funext y
  show V m c main_arg13 (((cfg0.win 7).blk t).view.emb y) = V m c main_arg13 y
  have hi := idx_facts t
  refine congrArg _ (funext fun a => Fin.ext ?_)
  match a with
  | ⟨0, _⟩ => show win0_7.index t (0 : Fin 2) * 32 + 1 * (y 0).val = (y 0).val; omega
  | ⟨1, _⟩ => show win0_7.index t (1 : Fin 2) * 1 + 1 * (y 1).val = (y 1).val; omega

/-- Window 8's block is its whole array. -/
theorem iblk_8 (c : Dev nD) (t : Fin cfg0.N) : iblk m c 8 t = (V m c main_v73 : S1x1.Idx → EReal) := by
  funext y
  show V m c main_v73 (((cfg0.win 8).blk t).view.emb y) = V m c main_v73 y
  have hi := idx_facts t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- Row `p` of tile `t`'s feature block is row `18000·t + p` of the padded feature array. -/
theorem iblk_0 (c : Dev nD) (t : Fin cfg0.N) (p : Fin 18000) (k : Fin 36) (r : Fin 1530000) (hr : r.val = 18000 * t.val + p.val) :
    iblk m c 0 t (ix2 p k) = (V m c main_v69 : S1530000x36.Idx → EReal) (ix2 r k) := by
  show V m c main_v69 (((cfg0.win 0).blk t).view.emb (ix2 p k)) = V m c main_v69 (ix2 r k)
  have hi := idx_facts t
  refine congrArg _ (funext fun a => Fin.ext ?_)
  match a with
  | ⟨0, _⟩ => show win0_0.index t (0 : Fin 2) * 18000 + 1 * p.val = r.val; omega
  | ⟨1, _⟩ => show win0_0.index t (1 : Fin 2) * 36 + 1 * k.val = k.val; omega

/-! ## The output array -/

/-- The network applied to the whole padded feature array, with the weights and biases as the region finds them. -/
def G (c : Dev nD) : S1530000x1.Idx → EReal :=
  mlp (V m c main_v69 : S1530000x36.Idx → EReal) (V m c main_arg7 : S36x64.Idx → EReal) (rowVec (V m c main_v70 : S1x64.Idx → EReal))
    (V m c main_arg9 : S64x64.Idx → EReal) (rowVec (V m c main_v71 : S1x64.Idx → EReal))
    (V m c main_arg11 : S64x32.Idx → EReal) (rowVec (V m c main_v72 : S1x32.Idx → EReal))
    (V m c main_arg13 : S32x1.Idx → EReal) (rowVec (V m c main_v73 : S1x1.Idx → EReal))

/-- What tile `t` writes back is block `t` of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after_9]
  unfold out9
  rw [View.canon_unit_zero zeros]
  simp only [View.ld_unit_zero (S := S18000x36) zeros, View.ld_unit_zero (S := S36x64) zeros, View.ld_unit_zero (S := S1x64) zeros,
    View.ld_unit_zero (S := S64x64) zeros, View.ld_unit_zero (S := S64x32) zeros, View.ld_unit_zero (S := S1x32) zeros,
    View.ld_unit_zero (S := S32x1) zeros, View.ld_unit_zero (S := S1x1) zeros]
  rw [pay_eq, iblk_1, iblk_2, iblk_3, iblk_4, iblk_5, iblk_6, iblk_7, iblk_8]
  funext j
  obtain ⟨p, q, rfl⟩ : ∃ (p : Fin 18000) (q : Fin 1), j = ix2 p q := ⟨j 0, j 1, eq_ix2 j⟩
  have hi := idx_facts t
  have ht : t.val < 85 := lt_of_lt_of_eq t.isLt N_0
  have hp : p.val < 18000 := p.isLt
  have hq : q.val < 1 := q.isLt
  show _ = G m c (((cfg0.win 9).blk t).view.emb (ix2 p q))
  have hemb : ((cfg0.win 9).blk t).view.emb (ix2 p q) = ix2 (⟨18000 * t.val + p.val, by omega⟩ : Fin 1530000) q := by
    funext a; apply Fin.ext
    match a with
    | ⟨0, _⟩ => show win0_9.index t (0 : Fin 2) * 18000 + 1 * p.val = 18000 * t.val + p.val; omega
    | ⟨1, _⟩ => show win0_9.index t (1 : Fin 2) * 1 + 1 * q.val = q.val; omega
  rw [hemb]
  unfold G
  exact mlp_row _ _ _ _ _ _ _ _ _ _ p ⟨18000 * t.val + p.val, by omega⟩ (fun k => iblk_0 m c t p k _ rfl) q

/-- An index of the output array is in tile `t`'s block iff each coordinate is in the block's range. -/
theorem mem_blk (t : Fin cfg0.N) (i : S1530000x1.Idx) :
    i ∈ ((cfg0.win 9).blk t).view.set ↔ ∀ a : Fin 2, win0_9.index t a * S18000x1.size a ≤ (i a).val ∧ (i a).val < win0_9.index t a * S18000x1.size a + S18000x1.size a := by
  show i ∈ ((View.whole main_v74).slice (win0_9.rect t)).set ↔ _
  rw [View.set_slice_whole, Rect.mem_set_unit]
  exact Iff.rfl

/-- The 85 tiles cover the array: row `r` is in tile `r / 18000`. -/
theorem cover (i : S1530000x1.Idx) : ∃ t : Fin cfg0.N, (cfg0.win 9).flush t = true ∧ i ∈ ((cfg0.win 9).blk t).view.set := by
  have hi0 : (i 0).val < 1530000 := (i 0).isLt
  have hi1 : (i 1).val < 1 := (i 1).isLt
  let t : Fin cfg0.N := ⟨(i 0).val / 18000, by rw [show cfg0.N = 85 from N_0]; omega⟩
  have hf := idx_facts t
  refine ⟨t, flush0_9 t, ?_⟩
  rw [mem_blk]
  have htv : t.val = (i 0).val / 18000 := rfl
  intro a
  match a with
  | ⟨0, _⟩ => show win0_9.index t (0 : Fin 2) * 18000 ≤ (i 0).val ∧ (i 0).val < win0_9.index t (0 : Fin 2) * 18000 + 18000; omega
  | ⟨1, _⟩ => show win0_9.index t (1 : Fin 2) * 1 ≤ (i 1).val ∧ (i 1).val < win0_9.index t (1 : Fin 2) * 1 + 1; omega

/-- The output array after the region. -/
theorem final (c : Dev nD) : (dats m 0 c).arrAt 9 cfg0.N = G m c :=
  (dats m 0 c).arrAt_eq_of_cover 9 (G m c) (fun t _ => flushed_eq m c t) (cover)

end Cert.KernelIdeal.HandValue

end
-- ==== Proof.LibNary.lean ====
import Idealize.ShloMosaic.Lib.StableHlo.Run

/-!
# A concatenate of two or of three operands, its result at its own buffer

A host operation over a LITERAL family of two or three buffers (a concatenate of two or three operands) leaves in
its result buffer its function applied to the operands' contents, each operand's contents written AT ITS OWN
BUFFER — so that a rewriting that follows each buffer back to the operation that wrote it can go on through the
operands.  (The family's value at a variable position is no literal buffer; its values at the literal positions
0, 1, 2 are.)  Stated twice: as an equation at the result buffer, and with the result buffer left free.  Following every buffer back to
the operation that wrote it then goes through the two- and three-operand forms.
-/

noncomputable section

namespace Cert.LibNary

open Idealize.ShloMosaic Idealize.ShloMosaic.StableHlo Idealize.SL.Sem

variable {τ : Topo} {sig : RefSig} {Val : EltTy → Type}
variable {x a b y : Ref sig .tc}

/-- Three operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two operands. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Cert.LibNary

/-- One pass that follows every buffer of a fold of host operations back to the operation that wrote it, through the
    two- and three-operand forms above. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Cert.LibNary.nary2_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.LibTrailUnit.lean ====
import Idealize.ShloMosaic.Lib.ValueLayout

/-!
# Dropping a trailing unit axis

An `[a, 1]` array cast to `[a]` reads, at `i`, the operand at `(i, 0)`: both have row-major position `i`.
-/

noncomputable section

namespace Cert.LibTrailUnit

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibTrailUnit

end
-- ==== Proof.IdealResult.lean ====
import proofs.«161627_j12979391169443_2_alg».proof.Proof.IdealValue
import proofs.«161627_j12979391169443_2_alg».proof.Proof.LibNary
import proofs.«161627_j12979391169443_2_alg».proof.Proof.LibTrailUnit
import Idealize.ShloMosaic.Lib.KernelVsHost

/-!
# The program's result, as the network of the feature array's rows

The padded feature array agrees with the feature array on the first 1529505 rows (the padding only adds rows below);
the bias rows the region reads are the bias vectors stood up as rows; the weights are the arguments.  The two host
operations after the region keep the first 1529505 rows of the region's output column and drop the unit axis.  So
entry `i` of the result is the network's value on row `i` of the feature array (row locality once more: row `i` of the
padded array is row `i` of the feature array).
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat Cfg Window)
open Cert.Layers Cert.RowTile Cert.Mlp

variable (m : (ℓ : Loc nD τ sig) → Buf (Elt Ideal) ℓ) (ρ : Dev nD → PrngReg)

/-- The host operations that build the feature array (the gathers, the ragged repeat, the executor-index column and the
    concatenation), stretch by stretch. -/
abbrev featOps : List (List (HloOp τ sig (Elt Ideal))) := [hostOps0, hostOps0_1, hostOps0_2, hostOps0_3, hostOps0_4, hostOps0_5, hostOps0_6, hostOps0_7, hostOps0_8]

theorem preOps_split : List.flatten (preOps (F := Ideal)) = List.flatten featOps ++ (hostOps0_9 ++ hostOps0_10) := by
  simp only [preOps, featOps, List.flatten_cons, List.flatten_nil, List.append_nil, List.append_assoc]

/-- The feature array on core `c`: one row of 36 features per ragged action row. -/
def feats (c : Dev nD) : S1529505x36.Idx → EReal :=
  StableHlo.after (List.flatten featOps) (fun b => m (c, b)) (Proc.devRef .tc main_v68)

/-- Row `i` of the padded feature array, for a row below the true count, is row `i` of the feature array. -/
theorem padded_row (c : Dev nD) (r : Fin 1530000) (i : Fin 1529505) (h : r.val = i.val) (k : Fin 36) :
    (V m c main_v69 : S1530000x36.Idx → EReal) (ix2 r k) = feats m c (ix2 i k) := by
  show StableHlo.after (List.flatten preOps) (fun b => m (c, b)) (Proc.devRef .tc main_v69) (ix2 r k) = _
  rw [preOps_split, StableHlo.after_append]
  unfold feats
  generalize StableHlo.after (List.flatten featOps) (fun b => m (c, b)) = W
  simp only [hostOps0_9, hostOps0_10, List.cons_append, List.nil_append]
  after_results_cat
  show pad S1530000x36 ![0, 0] ![495, 0] ![0, 0] (W (Proc.devRef .tc main_v68) : S1529505x36.Idx → EReal) _ pads_S1529505x36_S1530000x36_04950_000 h_S_ (ix2 r k) = _
  refine pad_apply_of_inside _ _ _ _ _ _ _ (ix2 r k) (ix2 i k) (fun a => ?_)
  match a with
  | ⟨0, _⟩ => show r.val = 0 + i.val * (0 + 1); omega
  | ⟨1, _⟩ => show k.val = 0 + k.val * (0 + 1); omega

/-- The bias row the region reads is the bias vector stood up as a row. -/
theorem V_main_v70 (c : Dev nD) : rowVec (V m c main_v70 : S1x64.Idx → EReal) = (m ((c : Thread nD τ).loc main_arg8) : S64.Idx → EReal) := by
  have e : (V m c main_v70 : S1x64.Idx → EReal) = shapeCast S1x64 (m ((c : Thread nD τ).loc main_arg8) : S64.Idx → EReal) shapeCasts_S64_S1x64 := by
    show StableHlo.after (List.flatten preOps) (fun b => m (c, b)) (Proc.devRef .tc main_v70) = _
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results_cat
    rfl
  rw [e]
  exact rowVec_shapeCast _ _

/-- The bias row the region reads is the bias vector stood up as a row. -/
theorem V_main_v71 (c : Dev nD) : rowVec (V m c main_v71 : S1x64.Idx → EReal) = (m ((c : Thread nD τ).loc main_arg10) : S64.Idx → EReal) := by
  have e : (V m c main_v71 : S1x64.Idx → EReal) = shapeCast S1x64 (m ((c : Thread nD τ).loc main_arg10) : S64.Idx → EReal) shapeCasts_S64_S1x64 := by
    show StableHlo.after (List.flatten preOps) (fun b => m (c, b)) (Proc.devRef .tc main_v71) = _
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results_cat
    rfl
  rw [e]
  exact rowVec_shapeCast _ _

/-- The bias row the region reads is the bias vector stood up as a row. -/
theorem V_main_v72 (c : Dev nD) : rowVec (V m c main_v72 : S1x32.Idx → EReal) = (m ((c : Thread nD τ).loc main_arg12) : S32.Idx → EReal) := by
  have e : (V m c main_v72 : S1x32.Idx → EReal) = shapeCast S1x32 (m ((c : Thread nD τ).loc main_arg12) : S32.Idx → EReal) shapeCasts_S32_S1x32 := by
    show StableHlo.after (List.flatten preOps) (fun b => m (c, b)) (Proc.devRef .tc main_v72) = _
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results_cat
    rfl
  rw [e]
  exact rowVec_shapeCast _ _

/-- The bias row the region reads is the bias vector stood up as a row. -/
theorem V_main_v73 (c : Dev nD) : rowVec (V m c main_v73 : S1x1.Idx → EReal) = (m ((c : Thread nD τ).loc main_arg14) : S1.Idx → EReal) := by
  have e : (V m c main_v73 : S1x1.Idx → EReal) = shapeCast S1x1 (m ((c : Thread nD τ).loc main_arg14) : S1.Idx → EReal) shapeCasts_S1_S1x1 := by
    show StableHlo.after (List.flatten preOps) (fun b => m (c, b)) (Proc.devRef .tc main_v73) = _
    simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results_cat
    rfl
  rw [e]
  exact rowVec_shapeCast _ _

/-- The output column after the region, in the arguments and the feature array's padded form. -/
theorem G_eq (c : Dev nD) : G m c = mlp (V m c main_v69 : S1530000x36.Idx → EReal)
    (m ((c : Thread nD τ).loc main_arg7) : S36x64.Idx → EReal) (m ((c : Thread nD τ).loc main_arg8) : S64.Idx → EReal)
    (m ((c : Thread nD τ).loc main_arg9) : S64x64.Idx → EReal) (m ((c : Thread nD τ).loc main_arg10) : S64.Idx → EReal)
    (m ((c : Thread nD τ).loc main_arg11) : S64x32.Idx → EReal) (m ((c : Thread nD τ).loc main_arg12) : S32.Idx → EReal)
    (m ((c : Thread nD τ).loc main_arg13) : S32x1.Idx → EReal) (m ((c : Thread nD τ).loc main_arg14) : S1.Idx → EReal) := by
  unfold G
  rw [V_main_v70, V_main_v71, V_main_v72, V_main_v73, V_main_arg7, V_main_arg9, V_main_arg11, V_main_arg13]

/-- The two operations after the region, over any contents: entry `i` of the result is entry `(i, 0)` of the region's
    output column. -/
theorem tail_read (X : Valuation τ sig (Elt Ideal)) (i : Fin 1529505) :
    (StableHlo.after hostOps1 X (Proc.devRef .tc main_v76) : S1529505.Idx → EReal) (ix1 i)
      = (X (Proc.devRef .tc main_v74) : S1530000x1.Idx → EReal) (ix2 (⟨i.val, by omega⟩ : Fin 1530000) (0 : Fin 1)) := by
  simp only [hostOps1]
  after_results_cat
  show shapeCast S1529505 (extractStridedSlice S1529505x1 ![0, 0] (X (Proc.devRef .tc main_v74) : S1530000x1.Idx → EReal) slices_S1530000x1_S1529505x1_0_0) shapeCasts_S1529505x1_S1529505 (ix1 i) = _
  rw [Cert.LibTrailUnit.shapeCast_a1_a_apply _ _ i]
  exact slice2_axis0_apply 0 _ _ i (0 : Fin 1) _ (by show i.val = 0 + i.val; omega)

/-- Entry `i` of the program's result is the network's value on row `i` of the feature array. -/
theorem result (c : Dev nD) (i : Fin 1529505) :
    (Pipeline.afterTail₀ cfgs (dats m) 0 (V0 m) [hostOps1] c main_v76 : S1529505.Idx → EReal) (ix1 i)
      = mlp (feats m c) (m ((c : Thread nD τ).loc main_arg7) : S36x64.Idx → EReal) (m ((c : Thread nD τ).loc main_arg8) : S64.Idx → EReal)
          (m ((c : Thread nD τ).loc main_arg9) : S64x64.Idx → EReal) (m ((c : Thread nD τ).loc main_arg10) : S64.Idx → EReal)
          (m ((c : Thread nD τ).loc main_arg11) : S64x32.Idx → EReal) (m ((c : Thread nD τ).loc main_arg12) : S32.Idx → EReal)
          (m ((c : Thread nD τ).loc main_arg13) : S32x1.Idx → EReal) (m ((c : Thread nD τ).loc main_arg14) : S1.Idx → EReal)
          (ix2 i (0 : Fin 1)) := by
  unfold Pipeline.afterTail₀
  show (StableHlo.after (hostOps1 (F := Ideal)) _ (Proc.devRef .tc main_v76) : S1529505.Idx → EReal) (ix1 i) = _
  rw [tail_read]
  have hA : Pipeline.withArrays spec0 c (V0 m c) (fun w => (dats m 0 c).arrAt w cfg0.N) (Proc.devRef .tc main_v74) = G m c :=
    (Pipeline.withArrays_arr spec0 launch0.win.arr_inj c _ _ 9).trans (final m c)
  refine (congrFun hA _).trans ?_
  rw [G_eq]
  exact mlp_row _ _ _ _ _ _ _ _ _ _ _ i (fun k => padded_row m c _ i rfl k) (0 : Fin 1)

end Cert.KernelIdeal.HandValue

end
-- ==== Proof.IdealRun.lean ====
import proofs.«161627_j12979391169443_2_alg».proof.Proof.IdealResult

/-!
# The program's run with its result named

Every weakly fair execution of the program ends, faulting nowhere, with the result buffer at what the two host
operations after the region make of the region's output column, and every argument array unchanged.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The result buffer after the run, on core `c`. -/
def out (c : Dev nD) : Buf (Elt Ideal) ((c.tc : Thread nD τ).loc main_v76) :=
  Pipeline.afterTail₀ cfgs (dats m) 0 (V0 m) [hostOps1] c main_v76

theorem run_value : θ_run (defs (F := Ideal)) (onTc (τ := τ) (main (F := Ideal))) ⟨m, fun _ => 0, ρ⟩ (fun r => ∀ c : Dev nD,
      r.2.mem ((c.tc : Thread nD τ).loc main_v76) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).2 main_v76 (Pipeline.mem_restRefs_of main_v76 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 1).trans (((dats m 0 c).arrAt_in 1 rfl _).trans ((A_eq m c 1).trans (V_main_arg7 m c))),
      ((h c).2 main_arg8 (Pipeline.mem_restRefs_of main_arg8 (by decide) (by decide))).trans (W_main_arg8 m (dats m) c),
      ((h c).1 3).trans (((dats m 0 c).arrAt_in 3 rfl _).trans ((A_eq m c 3).trans (V_main_arg9 m c))),
      ((h c).2 main_arg10 (Pipeline.mem_restRefs_of main_arg10 (by decide) (by decide))).trans (W_main_arg10 m (dats m) c),
      ((h c).1 5).trans (((dats m 0 c).arrAt_in 5 rfl _).trans ((A_eq m c 5).trans (V_main_arg11 m c))),
      ((h c).2 main_arg12 (Pipeline.mem_restRefs_of main_arg12 (by decide) (by decide))).trans (W_main_arg12 m (dats m) c),
      ((h c).1 7).trans (((dats m 0 c).arrAt_in 7 rfl _).trans ((A_eq m c 7).trans (V_main_arg13 m c))),
      ((h c).2 main_arg14 (Pipeline.mem_restRefs_of main_arg14 (by decide) (by decide))).trans (W_main_arg14 m (dats m) c)⟩) (run_main (F := Ideal) m ρ)

end Cert.KernelIdeal.HandValue

end
-- ==== Proof.RefRunMlp.lean ====
/-
  What the part of the reference program after the feature matrix computes: four affine layers
  x ↦ x·W + b (the bias broadcast along the rows), a rectifier max(·, 0) after each of the first three, and the final
  column read as a vector.  Stated as one function of the feature matrix and the eight parameter arrays, in the
  program's own operations, and shown to be what the line's last buffer holds after the operations have run from any
  contents.
-/
import proofs.«161627_j12979391169443_2_alg».proof.Proof.RefRunOps

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The four layers composed, the single output column read as a vector: the operations after the feature matrix,
    each applied to the terms of its operands. -/
def mlpHost (x : FVec F S1529505x36 .f32) (W1 : FVec F S36x64 .f32) (b1 : FVec F S64 .f32) (W2 : FVec F S64x64 .f32)
    (b2 : FVec F S64 .f32) (W3 : FVec F S64x32 .f32) (b3 : FVec F S32 .f32) (W4 : FVec F S32x1 .f32)
    (b4 : FVec F S1 .f32) : FVec F S1529505 .f32 :=
  shapeCast S1529505
    (addf (Host.dotGeneral dot_S1529505x32_S32x1_S1529505x1_1_0_0_1_n_n none (maximumf
      (addf (Host.dotGeneral dot_S1529505x64_S64x32_S1529505x32_1_0_0_1_n_n none (maximumf
      (addf (Host.dotGeneral dot_S1529505x64_S64x64_S1529505x64_1_0_0_1_n_n none (maximumf
      (addf (Host.dotGeneral dot_S1529505x36_S36x64_S1529505x64_1_0_0_1_n_n none x W1)
        (broadcastInDim S1529505x64 ![0, 1] bcast_S1x64_S1529505x64_0_1 (broadcastInDim S1x64 ![1] bcast_S64_S1x64_1 b1)))
      (broadcastInDim S1529505x64 ![] bcast_S_S1529505x64 (constant S_ .f32 0x00000000#32))) W2)
        (broadcastInDim S1529505x64 ![0, 1] bcast_S1x64_S1529505x64_0_1 (broadcastInDim S1x64 ![1] bcast_S64_S1x64_1 b2)))
      (broadcastInDim S1529505x64 ![] bcast_S_S1529505x64 (constant S_ .f32 0x00000000#32))) W3)
        (broadcastInDim S1529505x32 ![0, 1] bcast_S1x32_S1529505x32_0_1 (broadcastInDim S1x32 ![1] bcast_S32_S1x32_1 b3)))
      (broadcastInDim S1529505x32 ![] bcast_S_S1529505x32 (constant S_ .f32 0x00000000#32))) W4)
      (broadcastInDim S1529505x1 ![0, 1] bcast_S1x1_S1529505x1_0_1 (broadcastInDim S1x1 ![1] bcast_S1_S1x1_1 b4)))
    shapeCasts_S1529505x1_S1529505

/-- The first layer: 36 features to 64, then the rectifier. -/
def layer1 (x : FVec F S1529505x36 .f32) (W1 : FVec F S36x64 .f32) (b1 : FVec F S64 .f32) : FVec F S1529505x64 .f32 :=
  (maximumf
      (addf (Host.dotGeneral dot_S1529505x36_S36x64_S1529505x64_1_0_0_1_n_n none x W1)
        (broadcastInDim S1529505x64 ![0, 1] bcast_S1x64_S1529505x64_0_1 (broadcastInDim S1x64 ![1] bcast_S64_S1x64_1 b1)))
      (broadcastInDim S1529505x64 ![] bcast_S_S1529505x64 (constant S_ .f32 0x00000000#32)))

/-- The second layer: 64 to 64, then the rectifier. -/
def layer2 (h : FVec F S1529505x64 .f32) (W2 : FVec F S64x64 .f32) (b2 : FVec F S64 .f32) : FVec F S1529505x64 .f32 :=
  (maximumf
      (addf (Host.dotGeneral dot_S1529505x64_S64x64_S1529505x64_1_0_0_1_n_n none h W2)
        (broadcastInDim S1529505x64 ![0, 1] bcast_S1x64_S1529505x64_0_1 (broadcastInDim S1x64 ![1] bcast_S64_S1x64_1 b2)))
      (broadcastInDim S1529505x64 ![] bcast_S_S1529505x64 (constant S_ .f32 0x00000000#32)))

/-- The third layer: 64 to 32, then the rectifier. -/
def layer3 (h : FVec F S1529505x64 .f32) (W3 : FVec F S64x32 .f32) (b3 : FVec F S32 .f32) : FVec F S1529505x32 .f32 :=
  (maximumf
      (addf (Host.dotGeneral dot_S1529505x64_S64x32_S1529505x32_1_0_0_1_n_n none h W3)
        (broadcastInDim S1529505x32 ![0, 1] bcast_S1x32_S1529505x32_0_1 (broadcastInDim S1x32 ![1] bcast_S32_S1x32_1 b3)))
      (broadcastInDim S1529505x32 ![] bcast_S_S1529505x32 (constant S_ .f32 0x00000000#32)))

/-- The last layer: 32 to 1, no rectifier. -/
def layer4 (h : FVec F S1529505x32 .f32) (W4 : FVec F S32x1 .f32) (b4 : FVec F S1 .f32) : FVec F S1529505x1 .f32 :=
  (addf (Host.dotGeneral dot_S1529505x32_S32x1_S1529505x1_1_0_0_1_n_n none h W4)
      (broadcastInDim S1529505x1 ![0, 1] bcast_S1x1_S1529505x1_0_1 (broadcastInDim S1x1 ![1] bcast_S1_S1x1_1 b4)))

/-- The composed term, layer by layer. -/
theorem mlpHost_layers (x : FVec F S1529505x36 .f32) (W1 : FVec F S36x64 .f32) (b1 : FVec F S64 .f32)
    (W2 : FVec F S64x64 .f32) (b2 : FVec F S64 .f32) (W3 : FVec F S64x32 .f32) (b3 : FVec F S32 .f32)
    (W4 : FVec F S32x1 .f32) (b4 : FVec F S1 .f32) :
    mlpHost x W1 b1 W2 b2 W3 b3 W4 b4
      = shapeCast S1529505 (layer4 (layer3 (layer2 (layer1 x W1 b1) W2 b2) W3 b3) W4 b4) shapeCasts_S1529505x1_S1529505 :=
  rfl

/-- From any contents, after the operations that follow the feature matrix the last buffer holds the four layers
    applied to the feature matrix's buffer and the eight parameter buffers: each operation's result buffer is followed
    back to the operation that wrote it. -/
theorem mlp_after (W : Valuation τ sig (Elt F)) :
    StableHlo.after opsMlp W (Proc.devRef .tc main_v88)
      = mlpHost (F := F) (W (Proc.devRef .tc main_v68)) (W (Proc.devRef .tc main_arg7)) (W (Proc.devRef .tc main_arg8))
          (W (Proc.devRef .tc main_arg9)) (W (Proc.devRef .tc main_arg10)) (W (Proc.devRef .tc main_arg11))
          (W (Proc.devRef .tc main_arg12)) (W (Proc.devRef .tc main_arg13)) (W (Proc.devRef .tc main_arg14)) := by
  after_results_simp
  rfl

end Cert.ReferenceIdeal.HandRun

end
-- ==== Proof.RefRunResult.lean ====
/-
  The reference program's result: what the last buffer holds at the end of the whole line is the four layers applied
  to the feature matrix as the prefix leaves it and to the eight parameter arrays as they were at launch — the line is
  the prefix followed by the rest, the rest reads the feature matrix and the parameters, and the prefix writes no
  parameter.
-/
import proofs.«161627_j12979391169443_2_alg».proof.Proof.RefRun
import proofs.«161627_j12979391169443_2_alg».proof.Proof.RefRunMlp
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem

variable {F : FTy → Type} [FloatOps F]

theorem result_eq (m : (ℓ : Loc nD τ sig) → Buf (Elt F) ℓ) (c : Dev nD) :
    StableHlo.after (opsPre ++ opsMlp) (StableHlo.launchContents m c) (Proc.devRef .tc main_v88)
      = mlpHost (F := F) (StableHlo.after opsPre (StableHlo.launchContents m c) (Proc.devRef .tc main_v68))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  rw [StableHlo.after_append, mlp_after, feats_kept_main_arg7 m c, feats_kept_main_arg8 m c, feats_kept_main_arg9 m c,
    feats_kept_main_arg10 m c, feats_kept_main_arg11 m c, feats_kept_main_arg12 m c, feats_kept_main_arg13 m c,
    feats_kept_main_arg14 m c]

end Cert.ReferenceIdeal.HandRun

end
-- ==== Proof.RefValue.lean ====
import proofs.«161627_j12979391169443_2_alg».proof.Proof.RefRunMlp
import proofs.«161627_j12979391169443_2_alg».proof.Proof.Mlp
import proofs.«161627_j12979391169443_2_alg».proof.Proof.LibTrailUnit

/-!
# The reference's four layers are the scoring network

Over the extended reals the host's `dot_general` of an `[M, K]` by a `[K, N]` array is the row-by-matrix product, a
bias vector broadcast to a row and then down the rows and added is the bias added to each row, and the maximum with
an array of zeros is the positive part.  So the reference's composed term, read at entry `i` of its result vector,
is `Mlp.mlp` of the feature array at `(i, 0)`.
-/

noncomputable section

namespace Cert.ReferenceIdeal.RefValue

open Cert.ReferenceIdeal Cert.ReferenceIdeal.Gen Cert.ReferenceIdeal.HandRun
open Idealize.ShloMosaic Idealize.ShloMosaic.TcCoe Idealize.ShloMosaic.ValueIdx Idealize.SL.Sem
open Cert.Layers Cert.RowTile Cert.Mlp

/-- The zero word broadcast to any shape is zero everywhere. -/
theorem zero_bcast {S : Shape} (h : S_.BroadcastsInDim S (![] : Fin 0 → Fin S.rank)) (i : S.Idx) :
    (broadcastInDim S ![] h (constant (F := Ideal) S_ .f32 0x00000000#32) : S.Idx → EReal) i = 0 := by
  show Ideal.ofBits .f32 0x00000000#32 = 0
  exact Ideal.ofBits_zero_f32

theorem layer1_eq (x : FVec Ideal S1529505x36 .f32) (W1 : FVec Ideal S36x64 .f32) (b1 : FVec Ideal S64 .f32) :
    layer1 (F := Ideal) x W1 b1 = reluRow (rowsTimes x W1) b1 := by
  unfold layer1
  have hd : Host.dotGeneral dot_S1529505x36_S36x64_S1529505x64_1_0_0_1_n_n none x W1 = rowsTimes x W1 :=
    dotGeneral_eq dot_S1529505x36_S36x64_S1529505x64_1_0_0_1_n_n ⟨rfl, rfl, rfl, rfl, rfl, rfl⟩ none _ x W1
  rw [hd]
  exact maximumf_addf_rows_of_vector _ b1 bcast_S64_S1x64_1 bcast_S1x64_S1529505x64_0_1 _ (zero_bcast _)

theorem layer2_eq (h : FVec Ideal S1529505x64 .f32) (W2 : FVec Ideal S64x64 .f32) (b2 : FVec Ideal S64 .f32) :
    layer2 (F := Ideal) h W2 b2 = reluRow (rowsTimes h W2) b2 := by
  unfold layer2
  have hd : Host.dotGeneral dot_S1529505x64_S64x64_S1529505x64_1_0_0_1_n_n none h W2 = rowsTimes h W2 :=
    dotGeneral_eq dot_S1529505x64_S64x64_S1529505x64_1_0_0_1_n_n ⟨rfl, rfl, rfl, rfl, rfl, rfl⟩ none _ h W2
  rw [hd]
  exact maximumf_addf_rows_of_vector _ b2 bcast_S64_S1x64_1 bcast_S1x64_S1529505x64_0_1 _ (zero_bcast _)

theorem layer3_eq (h : FVec Ideal S1529505x64 .f32) (W3 : FVec Ideal S64x32 .f32) (b3 : FVec Ideal S32 .f32) :
    layer3 (F := Ideal) h W3 b3 = reluRow (rowsTimes h W3) b3 := by
  unfold layer3
  have hd : Host.dotGeneral dot_S1529505x64_S64x32_S1529505x32_1_0_0_1_n_n none h W3 = rowsTimes h W3 :=
    dotGeneral_eq dot_S1529505x64_S64x32_S1529505x32_1_0_0_1_n_n ⟨rfl, rfl, rfl, rfl, rfl, rfl⟩ none _ h W3
  rw [hd]
  exact maximumf_addf_rows_of_vector _ b3 bcast_S32_S1x32_1 bcast_S1x32_S1529505x32_0_1 _ (zero_bcast _)

theorem layer4_eq (h : FVec Ideal S1529505x32 .f32) (W4 : FVec Ideal S32x1 .f32) (b4 : FVec Ideal S1 .f32) :
    layer4 (F := Ideal) h W4 b4 = addRow (rowsTimes h W4) b4 := by
  unfold layer4
  have hd : Host.dotGeneral dot_S1529505x32_S32x1_S1529505x1_1_0_0_1_n_n none h W4 = rowsTimes h W4 :=
    dotGeneral_eq dot_S1529505x32_S32x1_S1529505x1_1_0_0_1_n_n ⟨rfl, rfl, rfl, rfl, rfl, rfl⟩ none _ h W4
  rw [hd]
  exact addf_rows_of_vector _ b4 bcast_S1_S1x1_1 bcast_S1x1_S1529505x1_0_1

/-- Entry `i` of the reference's composed term is the network's value on row `i` of its first operand. -/
theorem mlpHost_apply (x : FVec Ideal S1529505x36 .f32) (W1 : FVec Ideal S36x64 .f32) (b1 : FVec Ideal S64 .f32)
    (W2 : FVec Ideal S64x64 .f32) (b2 : FVec Ideal S64 .f32) (W3 : FVec Ideal S64x32 .f32) (b3 : FVec Ideal S32 .f32)
    (W4 : FVec Ideal S32x1 .f32) (b4 : FVec Ideal S1 .f32) (i : Fin 1529505) :
    mlpHost (F := Ideal) x W1 b1 W2 b2 W3 b3 W4 b4 (ix1 i) = mlp x W1 b1 W2 b2 W3 b3 W4 b4 (ix2 i (0 : Fin 1)) := by
  rw [mlpHost_layers, layer1_eq, layer2_eq, layer3_eq, layer4_eq]
  exact Cert.LibTrailUnit.shapeCast_a1_a_apply _ _ i

end Cert.ReferenceIdeal.RefValue

end
-- ==== Proof.LibFoldApply.lean ====
import Idealize.ShloMosaic.Lib.StableHlo.Run

/-!
# Evaluating a fold of host operations when an operation's function hides its operands

`StableHlo.after ops V` read at a buffer is found by peeling the operations from the last to the first: an operation's own
result buffer reads as its function of the operands' contents before it, any other buffer reads as before it. Done by
rewriting in one pass, each read has to be reachable by congruence. A two-operand operation whose function builds a list of
shaped pieces out of its operands (a concatenation: `fun a b => concatenate s d [⟨s₁, a⟩, ⟨s₂, b⟩] h`) puts the two reads, once
the function is applied, inside dependent pairs, where a rewriting pass does not go. `app2 f x y` is `f x y` with the function
kept closed: the two reads stay plain arguments, are evaluated first, and `app2` is unfolded at the end.
-/

namespace Cert.LibFoldApply

open Idealize.ShloMosaic Idealize.ShloMosaic.StableHlo

/-- `f x y`, with `f` kept closed until `app2` is unfolded. -/
def app2 {α β γ : Type} (f : α → β → γ) (x : α) (y : β) : γ := f x y

theorem app2_def {α β γ : Type} (f : α → β → γ) (x : α) (y : β) : app2 f x y = f x y := rfl

variable {τ : Topo} {sig : RefSig} {Val : EltTy → Type} {a b y : Ref sig .tc}

/-- A two-operand operation at its own result buffer: its function, kept closed, of the two operands' contents. -/
theorem binary_result_app (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- The fold read at a buffer, in one rewriting pass: as the library's pass, with two-operand operations left under
    `app2`. -/
macro "fold_results_app" : tactic =>
  `(tactic| (simp (disch := decide) only [after_cons, after_nil,
      nullary_result', unary_result', Cert.LibFoldApply.binary_result_app, ternary_result', quaternary_result', reshape_result',
      nullary_result_ne', unary_result_ne', binary_result_ne', ternary_result_ne', quaternary_result_ne', reshape_result_ne']))

end Cert.LibFoldApply
-- ==== Proof.Bridge.lean ====
import proofs.«161627_j12979391169443_2_alg».proof.Proof.IdealResult
import proofs.«161627_j12979391169443_2_alg».proof.Proof.RefRunOps
import proofs.«161627_j12979391169443_2_alg».proof.Proof.LibNary
import proofs.«161627_j12979391169443_2_alg».proof.Proof.LibFoldApply

/-!
# The two programs build the same feature array

Both programs build the feature array with the same host operations on the same seven arguments (node features, the
two embeddings, the segment pointers, the job indices, the action counts and the executor indices): the gathers of
each job's first node and of its embedding, the ragged repeat (a scatter of ones at the running offsets, a running
sum, a lookup), the two gathers by the repeated job index, the executor index divided by the number of executors,
and the concatenation.  Following each buffer back to the operation that wrote it gives, for each program, the same
composition of the same operations applied to its own arguments; so from agreeing arguments the two arrays are equal.
Nothing about what the operations compute is used.

The two programs number their buffers differently, so a buffer's contents in one program is carried to the type of
the corresponding buffer of the other by `conv`, the identity along an equation of types that holds by computation.
-/

set_option maxRecDepth 16384

noncomputable section

namespace Cert.Bridge

open Idealize.ShloMosaic Idealize.ShloMosaic.TcCoe Idealize.SL.Sem Idealize.ShloMosaic.StableHlo

/-- The identity, along an equation between two types. -/
def conv {A B : Type} (h : A = B) (x : A) : B := cast h x

theorem conv_rfl {A : Type} (x : A) : conv rfl x = x := rfl

/-- `g x y z`, with `g` kept closed until `app3` is unfolded: the three operands stay plain arguments, so that a
    rewriting pass reaches them (applied, a concatenation puts them inside dependent pairs, where it does not go). -/
def app3 {α β γ δ : Type} (g : α → β → γ → δ) (x : α) (y : β) (z : γ) : δ := g x y z

theorem app3_def {α β γ δ : Type} (g : α → β → γ → δ) (x : α) (y : β) (z : γ) : app3 g x y z = g x y z := rfl

section
open Cert.KernelIdeal Cert.KernelIdeal.Gen
variable {F : FTy → Type} [FloatOps F]

/-- The three-operand concatenate that builds the feature array leaves, at its result buffer, the concatenation of
    its three operands' contents, each read at its own buffer. -/
theorem cat_result_KernelIdeal (hxs hy) (V : Valuation τ sig (Elt F)) :
    (nary (τ := τ) ![main_v56, main_v63, main_v67] main_v68
        (fun u => concatenate S1529505x36 1 [⟨S1529505x19, u 0⟩, ⟨S1529505x16, u 1⟩, ⟨S1529505x1, u 2⟩]
          concatenates_S1529505x19_S1529505x16_S1529505x1_S1529505x36_d1) hxs hy).result V (no_index (Proc.devRef .tc main_v68))
      = app3 (fun a b c => concatenate S1529505x36 1 [⟨S1529505x19, a⟩, ⟨S1529505x16, b⟩, ⟨S1529505x1, c⟩]
            concatenates_S1529505x19_S1529505x16_S1529505x1_S1529505x36_d1)
          (V (Proc.devRef .tc main_v56)) (V (Proc.devRef .tc main_v63)) (V (Proc.devRef .tc main_v67)) :=
  (Cert.LibNary.nary3_result _ hxs hy V).trans rfl

end

section
open Cert.ReferenceIdeal Cert.ReferenceIdeal.Gen
variable {F : FTy → Type} [FloatOps F]

/-- The three-operand concatenate that builds the feature array leaves, at its result buffer, the concatenation of
    its three operands' contents, each read at its own buffer. -/
theorem cat_result_ReferenceIdeal (hxs hy) (V : Valuation τ sig (Elt F)) :
    (nary (τ := τ) ![main_v56, main_v63, main_v67] main_v68
        (fun u => concatenate S1529505x36 1 [⟨S1529505x19, u 0⟩, ⟨S1529505x16, u 1⟩, ⟨S1529505x1, u 2⟩]
          concatenates_S1529505x19_S1529505x16_S1529505x1_S1529505x36_d1) hxs hy).result V (no_index (Proc.devRef .tc main_v68))
      = app3 (fun a b c => concatenate S1529505x36 1 [⟨S1529505x19, a⟩, ⟨S1529505x16, b⟩, ⟨S1529505x1, c⟩]
            concatenates_S1529505x19_S1529505x16_S1529505x1_S1529505x36_d1)
          (V (Proc.devRef .tc main_v56)) (V (Proc.devRef .tc main_v63)) (V (Proc.devRef .tc main_v67)) :=
  (Cert.LibNary.nary3_result _ hxs hy V).trans rfl

end

/-- One pass that follows every buffer of a fold of host operations back to the operation that wrote it, through the
    feature array's concatenate in either program. -/
macro "after_results_feats" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Cert.LibFoldApply.binary_result_app,
      Idealize.ShloMosaic.StableHlo.ternary_result', Idealize.ShloMosaic.StableHlo.quaternary_result', Idealize.ShloMosaic.StableHlo.reshape_result',
      Cert.Bridge.cat_result_KernelIdeal, Cert.Bridge.cat_result_ReferenceIdeal,
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

set_option maxHeartbeats 8000000 in
/-- From contents that agree on the seven arguments the feature array is the same in both programs. -/
theorem feats_eq (WK : Valuation Cert.KernelIdeal.τ Cert.KernelIdeal.sig (Elt Ideal)) (WR : Valuation Cert.ReferenceIdeal.τ Cert.ReferenceIdeal.sig (Elt Ideal))
    (h0 : WR (Proc.devRef .tc Cert.ReferenceIdeal.main_arg0) = conv rfl (WK (Proc.devRef .tc Cert.KernelIdeal.main_arg0)))
    (h1 : WR (Proc.devRef .tc Cert.ReferenceIdeal.main_arg1) = conv rfl (WK (Proc.devRef .tc Cert.KernelIdeal.main_arg1)))
    (h2 : WR (Proc.devRef .tc Cert.ReferenceIdeal.main_arg2) = conv rfl (WK (Proc.devRef .tc Cert.KernelIdeal.main_arg2)))
    (h3 : WR (Proc.devRef .tc Cert.ReferenceIdeal.main_arg3) = conv rfl (WK (Proc.devRef .tc Cert.KernelIdeal.main_arg3)))
    (h4 : WR (Proc.devRef .tc Cert.ReferenceIdeal.main_arg4) = conv rfl (WK (Proc.devRef .tc Cert.KernelIdeal.main_arg4)))
    (h5 : WR (Proc.devRef .tc Cert.ReferenceIdeal.main_arg5) = conv rfl (WK (Proc.devRef .tc Cert.KernelIdeal.main_arg5)))
    (h6 : WR (Proc.devRef .tc Cert.ReferenceIdeal.main_arg6) = conv rfl (WK (Proc.devRef .tc Cert.KernelIdeal.main_arg6))) :
    StableHlo.after Cert.ReferenceIdeal.HandRun.opsPre WR (Proc.devRef .tc Cert.ReferenceIdeal.main_v68)
      = conv rfl (StableHlo.after (List.flatten Cert.KernelIdeal.HandValue.featOps) WK (Proc.devRef .tc Cert.KernelIdeal.main_v68)) := by
  -- the kernel program's side, in its own types: the composition its operations make of its arguments
  have hK : ∃ tK, tK = StableHlo.after (List.flatten Cert.KernelIdeal.HandValue.featOps) WK (Proc.devRef .tc Cert.KernelIdeal.main_v68)
      ∧ StableHlo.after Cert.ReferenceIdeal.HandRun.opsPre WR (Proc.devRef .tc Cert.ReferenceIdeal.main_v68) = conv rfl tK := by
    refine ⟨?w, Eq.symm ?k, ?r⟩
    case k =>
      simp only [Cert.KernelIdeal.HandValue.featOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8,
        List.flatten_cons, List.flatten_nil, List.append_nil, List.cons_append, List.nil_append]
      after_results_feats
      exact rfl
    case r =>
      -- the reference's side: the same composition of its own arguments, which are the kernel program's
      after_results_feats
      simp only [h0, h1, h2, h3, h4, h5, h6]
      rfl
  obtain ⟨tK, e, h⟩ := hK
  rw [h, e]

end Cert.Bridge

end
-- ==== Proof.Algebraic.lean ====
import proofs.«161627_j12979391169443_2_alg».proof.Defs
import proofs.«161627_j12979391169443_2_alg».proof.Proof.Gen.Pre_finite_inputs
import proofs.«161627_j12979391169443_2_alg».proof.Proof.IdealRun
import proofs.«161627_j12979391169443_2_alg».proof.Proof.RefRunResult
import proofs.«161627_j12979391169443_2_alg».proof.Proof.RefValue
import proofs.«161627_j12979391169443_2_alg».proof.Proof.Bridge

/-!
# The two idealized programs end with equal results

Entry `i` of the kernel program's result is the scoring network's value on row `i` of its feature array (the tiled
region computes the network tile by tile on the padded array, and a row's value depends on that row alone); entry
`i` of the reference's result is the network's value on row `i` of its feature array (its four layers are the
network); and from agreeing arguments the two feature arrays are equal and the weights and biases are the same.
No law of arithmetic is used beyond reading each operation at an index, so the inputs' finiteness is not needed.
-/

set_option maxRecDepth 16384

noncomputable section

namespace Cert.Proof.Alg

open Idealize.ShloMosaic Idealize.ShloMosaic.TcCoe Idealize.ShloMosaic.ValueIdx Idealize.SL.Sem
open Cert.Mlp

/-- The network of equal operands is equal. -/
theorem mlp_congr {M : Nat} {x x' : (⟨2, ![M, 36]⟩ : Shape).Idx → EReal} (hx : x = x')
    {W1 W1' : (⟨2, ![36, 64]⟩ : Shape).Idx → EReal} (h1 : W1 = W1') {b1 b1' : (⟨1, ![64]⟩ : Shape).Idx → EReal} (h2 : b1 = b1')
    {W2 W2' : (⟨2, ![64, 64]⟩ : Shape).Idx → EReal} (h3 : W2 = W2') {b2 b2' : (⟨1, ![64]⟩ : Shape).Idx → EReal} (h4 : b2 = b2')
    {W3 W3' : (⟨2, ![64, 32]⟩ : Shape).Idx → EReal} (h5 : W3 = W3') {b3 b3' : (⟨1, ![32]⟩ : Shape).Idx → EReal} (h6 : b3 = b3')
    {W4 W4' : (⟨2, ![32, 1]⟩ : Shape).Idx → EReal} (h7 : W4 = W4') {b4 b4' : (⟨1, ![1]⟩ : Shape).Idx → EReal} (h8 : b4 = b4') :
    mlp x W1 b1 W2 b2 W3 b3 W4 b4 = mlp x' W1' b1' W2' b2' W3' b3' W4' b4' := by
  subst hx h1 h2 h3 h4 h5 h6 h7 h8; rfl

theorem algebraic : Cert.algebraic_KernelIdeal_ReferenceIdeal := by
  intro m ρ m' ρ' _ hagree
  refine ⟨fun c => Cert.KernelIdeal.HandValue.out m c, Cert.KernelIdeal.HandValue.run_value m ρ, ?_⟩
  refine (θ_run Cert.ReferenceIdeal.defs _ _).mono (fun r h c => ⟨?_,
      (h c Cert.ReferenceIdeal.main_arg0).trans (Cert.ReferenceIdeal.HandRun.kept_main_arg0 m' c),
      (h c Cert.ReferenceIdeal.main_arg1).trans (Cert.ReferenceIdeal.HandRun.kept_main_arg1 m' c),
      (h c Cert.ReferenceIdeal.main_arg2).trans (Cert.ReferenceIdeal.HandRun.kept_main_arg2 m' c),
      (h c Cert.ReferenceIdeal.main_arg3).trans (Cert.ReferenceIdeal.HandRun.kept_main_arg3 m' c),
      (h c Cert.ReferenceIdeal.main_arg4).trans (Cert.ReferenceIdeal.HandRun.kept_main_arg4 m' c),
      (h c Cert.ReferenceIdeal.main_arg5).trans (Cert.ReferenceIdeal.HandRun.kept_main_arg5 m' c),
      (h c Cert.ReferenceIdeal.main_arg6).trans (Cert.ReferenceIdeal.HandRun.kept_main_arg6 m' c),
      (h c Cert.ReferenceIdeal.main_arg7).trans (Cert.ReferenceIdeal.HandRun.kept_main_arg7 m' c),
      (h c Cert.ReferenceIdeal.main_arg8).trans (Cert.ReferenceIdeal.HandRun.kept_main_arg8 m' c),
      (h c Cert.ReferenceIdeal.main_arg9).trans (Cert.ReferenceIdeal.HandRun.kept_main_arg9 m' c),
      (h c Cert.ReferenceIdeal.main_arg10).trans (Cert.ReferenceIdeal.HandRun.kept_main_arg10 m' c),
      (h c Cert.ReferenceIdeal.main_arg11).trans (Cert.ReferenceIdeal.HandRun.kept_main_arg11 m' c),
      (h c Cert.ReferenceIdeal.main_arg12).trans (Cert.ReferenceIdeal.HandRun.kept_main_arg12 m' c),
      (h c Cert.ReferenceIdeal.main_arg13).trans (Cert.ReferenceIdeal.HandRun.kept_main_arg13 m' c),
      (h c Cert.ReferenceIdeal.main_arg14).trans (Cert.ReferenceIdeal.HandRun.kept_main_arg14 m' c)⟩)
    (Cert.ReferenceIdeal.HandRun.run_all (F := Ideal) m' ρ')
  refine (h c Cert.ReferenceIdeal.main_v88).trans ?_
  have hf : StableHlo.after Cert.ReferenceIdeal.HandRun.opsPre (StableHlo.launchContents m' c) (Proc.devRef .tc Cert.ReferenceIdeal.main_v68)
      = Cert.Bridge.conv rfl (Cert.KernelIdeal.HandValue.feats m c) :=
    Cert.Bridge.feats_eq (fun b => m (c, b)) (StableHlo.launchContents m' c) (hagree c).1 (hagree c).2.1 (hagree c).2.2.1 (hagree c).2.2.2.1 (hagree c).2.2.2.2.1 (hagree c).2.2.2.2.2.1 (hagree c).2.2.2.2.2.2.1
  funext i
  obtain ⟨i0, rfl⟩ : ∃ i0 : Fin 1529505, i = ix1 i0 := ⟨i 0, eq_ix1 i⟩
  refine Eq.trans ?_ (Cert.KernelIdeal.HandValue.result m c i0).symm
  rw [Cert.ReferenceIdeal.HandRun.result_eq m' c]
  refine (Cert.ReferenceIdeal.RefValue.mlpHost_apply _ _ _ _ _ _ _ _ _ i0).trans ?_
  exact congrFun (mlp_congr hf (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2) _

end Cert.Proof.Alg

end
-- ==== Proof.lean ====
/-
  The certificate: the tiled kernel program at the word-level and at the ideal instance and the reference program
  each run to the end, faulting nowhere, with their argument arrays unchanged; the idealization rewrote nothing; and
  over the extended reals the kernel program and the reference end with equal results.

  The kernel program pads the feature array to 85 tiles of 18000 rows, puts each tile through the scoring network
  (three rectified dense layers and a last dense layer) in one tiled region, and slices the padding off; the reference
  puts the whole feature array through the same network.  Both build the feature array with the same host operations.
  A row's score depends on that row alone, so the tiling and the padding do not change any kept score.
-/
import proofs.«161627_j12979391169443_2_alg».proof.Defs
import proofs.«161627_j12979391169443_2_alg».proof.Proof.Gen.Kernel
import proofs.«161627_j12979391169443_2_alg».proof.Proof.Gen.KernelIdeal
import proofs.«161627_j12979391169443_2_alg».proof.Proof.Gen.ReferenceIdeal
import proofs.«161627_j12979391169443_2_alg».proof.Proof.Gen.Pre_finite_inputs
import proofs.«161627_j12979391169443_2_alg».proof.Proof.BitsFrame
import proofs.«161627_j12979391169443_2_alg».proof.Proof.IdealFrame
import proofs.«161627_j12979391169443_2_alg».proof.Proof.RefRun
import proofs.«161627_j12979391169443_2_alg».proof.Proof.Algebraic

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.HandRun.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Alg.algebraic⟩

end Cert.Proof

end
